-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v120)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v120) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v219) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S2x3x128x128 : Shape := ⟨4, ![2, 3, 128, 128]⟩
abbrev S2x3x128 : Shape := ⟨3, ![2, 3, 128]⟩
abbrev S128x32 : Shape := ⟨2, ![128, 32]⟩
abbrev S32 : Shape := ⟨1, ![32]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S2x3x128x128 : S_.BroadcastsInDim S2x3x128x128 (![] : Fin 0 → Fin S2x3x128x128.rank)
  reducesTo_S2x3x128x128_S_d0_1_2_3 : S2x3x128x128.ReducesTo [0, 1, 2, 3] S_
  bcast_S_S2x3x128 : S_.BroadcastsInDim S2x3x128 (![] : Fin 0 → Fin S2x3x128.rank)
  reducesTo_S2x3x128_S_d0_1_2 : S2x3x128.ReducesTo [0, 1, 2] S_
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg7 : FVec F S2x3x128x128 .f32) (main_arg8 : FVec F S128x32 .f32) (main_arg9 : FVec F S32 .f32) (main_v13 : IVec S_ 1) (main_v16 : IVec S2x3x128 1) : IVec S_ 1 :=
  let main_c_5 : IVec S_ 1 := constantI S_ 1 1#1
  let main_v17 : IVec S_ 1 := (fun x v => Host.reduce IntOp.andi x v reducesTo_S2x3x128_S_d0_1_2 h_S_) main_v16 main_c_5
  let main_v18 : IVec S_ 1 := andi main_v13 main_v17
  let main_v19 : FVec F S2x3x128x128 .f32 := Host.absf main_arg7
  let main_cst_6 : FVec F S_ .f32 := constant S_ .f32 0x7F800000#32
  let main_v20 : FVec F S2x3x128x128 .f32 := broadcastInDim S2x3x128x128 ![] bcast_S_S2x3x128x128 main_cst_6
  let main_v21 : IVec S2x3x128x128 1 := cmpf .olt main_v19 main_v20
  let main_c_7 : IVec S_ 1 := constantI S_ 1 1#1
  let main_v22 : IVec S_ 1 := (fun x v => Host.reduce IntOp.andi x v reducesTo_S2x3x128x128_S_d0_1_2_3 h_S_) main_v21 main_c_7
  let main_v23 : IVec S_ 1 := andi main_v18 main_v22
  let main_v24 : FVec F S128x32 .f32 := Host.absf main_arg8
  let main_cst_8 : FVec F S_ .f32 := constant S_ .f32 0x7F800000#32
  let main_v25 : FVec F S128x32 .f32 := broadcastInDim S128x32 ![] bcast_S_S128x32 main_cst_8
  let main_v26 : IVec S128x32 1 := cmpf .olt main_v24 main_v25
  let main_c_9 : IVec S_ 1 := constantI S_ 1 1#1
  let main_v27 : IVec S_ 1 := (fun x v => Host.reduce IntOp.andi x v reducesTo_S128x32_S_d0_1 h_S_) main_v26 main_c_9
  let main_v28 : IVec S_ 1 := andi main_v23 main_v27
  let main_v29 : FVec F S32 .f32 := Host.absf main_arg9
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  main_v33

def fn {F : FTy → Type} [FloatOps F] (main_arg0 : FVec F S50000x128 .f32) (main_arg1 : FVec F S50000x128 .f32) (main_arg2 : IVec S2x800000 32) (main_arg3 : IVec S2x800000 32) (main_arg4 : IVec S2x800000 32) (main_arg5 : FVec F S2x3x128x128 .f32) (main_arg6 : FVec F S2x3x128 .f32) (main_arg7 : FVec F S2x3x128x128 .f32) (main_arg8 : FVec F S128x32 .f32) (main_arg9 : FVec F S32 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x128 .f32 := Host.absf main_arg1
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S2x3x128x128 .f32 := Host.absf main_arg5
  let main_cst_2 : FVec F S_ .f32 := constant S_ .f32 0x7F800000#32
  let main_v10 : FVec F S2x3x128x128 .f32 := broadcastInDim S2x3x128x128 ![] bcast_S_S2x3x128x128 main_cst_2
  let main_v11 : IVec S2x3x128x128 1 := cmpf .olt main_v9 main_v10
  let main_c_3 : IVec S_ 1 := constantI S_ 1 1#1
  let main_v12 : IVec S_ 1 := (fun x v => Host.reduce IntOp.andi x v reducesTo_S2x3x128x128_S_d0_1_2_3 h_S_) main_v11 main_c_3
  let main_v13 : IVec S_ 1 := andi main_v8 main_v12
  let main_v14 : FVec F S2x3x128 .f32 := Host.absf main_arg6
  let main_cst_4 : FVec F S_ .f32 := constant S_ .f32 0x7F800000#32
  let main_v15 : FVec F S2x3x128 .f32 := broadcastInDim S2x3x128 ![] bcast_S_S2x3x128 main_cst_4
  let main_v16 : IVec S2x3x128 1 := cmpf .olt main_v14 main_v15
  fn_part1 (F := F) main_arg7 main_arg8 main_arg9 main_v13 main_v16
-- ==== Kernel.lean ====
abbrev S50000x128 : Shape := ⟨2, ![50000, 128]⟩
abbrev S2x800000 : Shape := ⟨2, ![2, 800000]⟩
abbrev S2x3x128x128 : Shape := ⟨4, ![2, 3, 128, 128]⟩
abbrev S2x3x128 : Shape := ⟨3, ![2, 3, 128]⟩
abbrev S128x32 : Shape := ⟨2, ![128, 32]⟩
abbrev S32 : Shape := ⟨1, ![32]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S1x1x128x128 : Shape := ⟨4, ![1, 1, 128, 128]⟩
abbrev S128x128 : Shape := ⟨2, ![128, 128]⟩
abbrev S1x1x128 : Shape := ⟨3, ![1, 1, 128]⟩
abbrev S128 : Shape := ⟨1, ![128]⟩
abbrev S1x128 : Shape := ⟨2, ![1, 128]⟩
abbrev S2000x128 : Shape := ⟨2, ![2000, 128]⟩
abbrev S2000x1 : Shape := ⟨2, ![2000, 1]⟩
abbrev S1x32 : Shape := ⟨2, ![1, 32]⟩
abbrev S50000x32 : Shape := ⟨2, ![50000, 32]⟩
abbrev S2000x32 : Shape := ⟨2, ![2000, 32]⟩

abbrev nBuf : Space → Nat
  | .hbm => 155
  | .vmem => 42
  | .smem => 0
  | _ => 0

abbrev hbmTy0_0 (i : Nat) : BufTy := match i % 128 with
  | 0 => ⟨S50000x128, .f32⟩
  | 1 => ⟨S50000x128, .f32⟩
  | 2 => ⟨S2x800000, .i32⟩
  | 3 => ⟨S2x800000, .i32⟩
  | 4 => ⟨S2x800000, .i32⟩
  | 5 => ⟨S2x3x128x128, .f32⟩
  | 6 => ⟨S2x3x128, .f32⟩
  | 7 => ⟨S2x3x128x128, .f32⟩
  | 8 => ⟨S128x32, .f32⟩
  | 9 => ⟨S32, .f32⟩
  | 10 => ⟨S1x800000, .i32⟩
  | 11 => ⟨S800000, .i32⟩
  | 12 => ⟨S_, .f32⟩
  | 13 => ⟨S800000, .f32⟩
  | 14 => ⟨S_, .f32⟩
  | 15 => ⟨S50000, .f32⟩
  | 16 => ⟨S800000x1, .i32⟩
  | 17 => ⟨S50000, .f32⟩
  | 18 => ⟨S_, .f32⟩
  | 19 => ⟨S50000, .f32⟩
  | 20 => ⟨S50000, .f32⟩
  | 21 => ⟨S_, .f32⟩
  | 22 => ⟨S50000, .f32⟩
  | 23 => ⟨S50000, .f32⟩
  | 24 => ⟨S50000x1, .f32⟩
  | 25 => ⟨S1x800000, .i32⟩
  | 26 => ⟨S800000, .i32⟩
  | 27 => ⟨S_, .f32⟩
  | 28 => ⟨S800000, .f32⟩
  | 29 => ⟨S_, .f32⟩
  | 30 => ⟨S50000, .f32⟩
  | 31 => ⟨S800000x1, .i32⟩
  | 32 => ⟨S50000, .f32⟩
  | 33 => ⟨S_, .f32⟩
  | 34 => ⟨S50000, .f32⟩
  | 35 => ⟨S50000, .f32⟩
  | 36 => ⟨S_, .f32⟩
  | 37 => ⟨S50000, .f32⟩
  | 38 => ⟨S50000, .f32⟩
  | 39 => ⟨S50000x1, .f32⟩
  | 40 => ⟨S1x800000, .i32⟩
  | 41 => ⟨S800000, .i32⟩
  | 42 => ⟨S_, .f32⟩
  | 43 => ⟨S800000, .f32⟩
  | 44 => ⟨S_, .f32⟩
  | 45 => ⟨S50000, .f32⟩
  | 46 => ⟨S800000x1, .i32⟩
  | 47 => ⟨S50000, .f32⟩
  | 48 => ⟨S_, .f32⟩
  | 49 => ⟨S50000, .f32⟩
  | 50 => ⟨S50000, .f32⟩
  | 51 => ⟨S_, .f32⟩
  | 52 => ⟨S50000, .f32⟩
  | 53 => ⟨S50000, .f32⟩
  | 54 => ⟨S50000x1, .f32⟩
  | 55 => ⟨S1x800000, .i32⟩
  | 56 => ⟨S800000, .i32⟩
  | 57 => ⟨S1x800000, .i32⟩
  | 58 => ⟨S800000, .i32⟩
  | 59 => ⟨S_, .i32⟩
  | 60 => ⟨S800000, .i32⟩
  | 61 => ⟨S800000, .i1⟩
  | 62 => ⟨S_, .i32⟩
  | 63 => ⟨S800000, .i32⟩
  | 64 => ⟨S800000, .i32⟩
  | 65 => ⟨S800000, .i32⟩
  | 66 => ⟨S800000x1, .i32⟩
  | 67 => ⟨S800000x128, .f32⟩
  | 68 => ⟨S_, .f32⟩
  | 69 => ⟨S50000x128, .f32⟩
  | 70 => ⟨S800000x1, .i32⟩
  | 71 => ⟨S50000x128, .f32⟩
  | 72 => ⟨S1x800000, .i32⟩
  | 73 => ⟨S800000, .i32⟩
  | 74 => ⟨S1x800000, .i32⟩
  | 75 => ⟨S800000, .i32⟩
  | 76 => ⟨S_, .i32⟩
  | 77 => ⟨S800000, .i32⟩
  | 78 => ⟨S800000, .i1⟩
  | 79 => ⟨S_, .i32⟩
  | 80 => ⟨S800000, .i32⟩
  | 81 => ⟨S800000, .i32⟩
  | 82 => ⟨S800000, .i32⟩
  | 83 => ⟨S800000x1, .i32⟩
  | 84 => ⟨S800000x128, .f32⟩
  | 85 => ⟨S_, .f32⟩
  | 86 => ⟨S50000x128, .f32⟩
  | 87 => ⟨S800000x1, .i32⟩
  | 88 => ⟨S50000x128, .f32⟩
  | 89 => ⟨S1x800000, .i32⟩
  | 90 => ⟨S800000, .i32⟩
  | 91 => ⟨S1x800000, .i32⟩
  | 92 => ⟨S800000, .i32⟩
  | 93 => ⟨S_, .i32⟩
  | 94 => ⟨S800000, .i32⟩
  | 95 => ⟨S800000, .i1⟩
  | 96 => ⟨S_, .i32⟩
  | 97 => ⟨S800000, .i32⟩
  | 98 => ⟨S800000, .i32⟩
  | 99 => ⟨S800000, .i32⟩
  | 100 => ⟨S800000x1, .i32⟩
  | 101 => ⟨S800000x128, .f32⟩
  | 102 => ⟨S_, .f32⟩
  | 103 => ⟨S50000x128, .f32⟩
  | 104 => ⟨S800000x1, .i32⟩
  | 105 => ⟨S50000x128, .f32⟩
  | 106 => ⟨S1x1x128x128, .f32⟩
  | 107 => ⟨S128x128, .f32⟩
  | 108 => ⟨S1x1x128, .f32⟩
  | 109 => ⟨S128, .f32⟩
  | 110 => ⟨S1x1x128x128, .f32⟩
  | 111 => ⟨S128x128, .f32⟩
  | 112 => ⟨S1x1x128x128, .f32⟩
  | 113 => ⟨S128x128, .f32⟩
  | 114 => ⟨S1x1x128, .f32⟩
  | 115 => ⟨S128, .f32⟩
  | 116 => ⟨S1x1x128x128, .f32⟩
  | 117 => ⟨S128x128, .f32⟩
  | 118 => ⟨S1x128, .f32⟩
  | 119 => ⟨S1x128, .f32⟩
  | 120 => ⟨S50000x128, .f32⟩
  | 121 => ⟨S1x1x128x128, .f32⟩
  | 122 => ⟨S128x128, .f32⟩
  | 123 => ⟨S1x1x128, .f32⟩
  | 124 => ⟨S128, .f32⟩
  | 125 => ⟨S1x1x128x128, .f32⟩
  | 126 => ⟨S128x128, .f32⟩
  | 127 => ⟨S1x128, .f32⟩
  | _ => ⟨S50000x128, .f32⟩

abbrev hbmTy0_1 (i : Nat) : BufTy := match i % 128 with
  | 0 => ⟨S50000x128, .f32⟩
  | 1 => ⟨S1x800000, .i32⟩
  | 2 => ⟨S800000, .i32⟩
  | 3 => ⟨S1x800000, .i32⟩
  | 4 => ⟨S800000, .i32⟩
  | 5 => ⟨S_, .i32⟩
  | 6 => ⟨S800000, .i32⟩
  | 7 => ⟨S800000, .i1⟩
  | 8 => ⟨S_, .i32⟩
  | 9 => ⟨S800000, .i32⟩
  | 10 => ⟨S800000, .i32⟩
  | 11 => ⟨S800000, .i32⟩
  | 12 => ⟨S800000x1, .i32⟩
  | 13 => ⟨S800000x128, .f32⟩
  | 14 => ⟨S_, .f32⟩
  | 15 => ⟨S50000x128, .f32⟩
  | 16 => ⟨S800000x1, .i32⟩
  | 17 => ⟨S50000x128, .f32⟩
  | 18 => ⟨S1x1x128x128, .f32⟩
  | 19 => ⟨S128x128, .f32⟩
  | 20 => ⟨S1x1x128, .f32⟩
  | 21 => ⟨S128, .f32⟩
  | 22 => ⟨S1x1x128x128, .f32⟩
  | 23 => ⟨S128x128, .f32⟩
  | 24 => ⟨S1x128, .f32⟩
  | 25 => ⟨S1x32, .f32⟩
  | 26 => ⟨S50000x32, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S2000x1, .f32⟩
  | .local _ .vmem, ⟨3, _⟩ => ⟨S2000x1, .f32⟩
  | .local _ .vmem, ⟨4, _⟩ => ⟨S2000x128, .f32⟩
  | .local _ .vmem, ⟨5, _⟩ => ⟨S2000x128, .f32⟩
  | .local _ .vmem, ⟨6, _⟩ => ⟨S2000x1, .f32⟩
  | .local _ .vmem, ⟨7, _⟩ => ⟨S2000x1, .f32⟩
  | .local _ .vmem, ⟨8, _⟩ => ⟨S2000x128, .f32⟩
  | .local _ .vmem, ⟨9, _⟩ => ⟨S2000x128, .f32⟩
  | .local _ .vmem, ⟨10, _⟩ => ⟨S128x128, .f32⟩
  | .local _ .vmem, ⟨11, _⟩ => ⟨S1x128, .f32⟩
  | .local _ .vmem, ⟨12, _⟩ => ⟨S128x128, .f32⟩
  | .local _ .vmem, ⟨13, _⟩ => ⟨S128x128, .f32⟩
  | .local _ .vmem, ⟨14, _⟩ => ⟨S1x128, .f32⟩
  | .local _ .vmem, ⟨15, _⟩ => ⟨S128x128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S2000x1, .f32⟩
  | .local _ .vmem, ⟨21, _⟩ => ⟨S2000x1, .f32⟩
  | .local _ .vmem, ⟨22, _⟩ => ⟨S2000x128, .f32⟩
  | .local _ .vmem, ⟨23, _⟩ => ⟨S2000x128, .f32⟩
  | .local _ .vmem, ⟨24, _⟩ => ⟨S128x128, .f32⟩
  | .local _ .vmem, ⟨25, _⟩ => ⟨S1x128, .f32⟩
  | .local _ .vmem, ⟨26, _⟩ => ⟨S128x128, .f32⟩
  | .local _ .vmem, ⟨27, _⟩ => ⟨S2000x128, .f32⟩
  | .local _ .vmem, ⟨28, _⟩ => ⟨S2000x128, .f32⟩
  | .local _ .vmem, ⟨29, _⟩ => ⟨S2000x128, .f32⟩
  | .local _ .vmem, ⟨30, _⟩ => ⟨S2000x128, .f32⟩
  | .local _ .vmem, ⟨31, _⟩ => ⟨S2000x1, .f32⟩
  | .local _ .vmem, ⟨32, _⟩ => ⟨S2000x1, .f32⟩
  | .local _ .vmem, ⟨33, _⟩ => ⟨S2000x128, .f32⟩
  | .local _ .vmem, ⟨34, _⟩ => ⟨S2000x128, .f32⟩
  | .local _ .vmem, ⟨35, _⟩ => ⟨S128x128, .f32⟩
  | .local _ .vmem, ⟨36, _⟩ => ⟨S1x128, .f32⟩
  | .local _ .vmem, ⟨37, _⟩ => ⟨S128x128, .f32⟩
  | .local _ .vmem, ⟨38, _⟩ => ⟨S128x32, .f32⟩
  | .local _ .vmem, ⟨39, _⟩ => ⟨S1x32, .f32⟩
  | .local _ .vmem, ⟨40, _⟩ => ⟨S2000x32, .f32⟩
  | .local _ .vmem, ⟨41, _⟩ => ⟨S2000x32, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_cst_1 : Ref sig .tc := ⟨.hbm, 18, rfl⟩
abbrev main_v6 : Ref sig .tc := ⟨.hbm, 19, rfl⟩
abbrev main_v7 : Ref sig .tc := ⟨.hbm, 20, rfl⟩
abbrev main_cst_2 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_3 : Ref sig .tc := ⟨.hbm, 27, rfl⟩
abbrev main_v13 : Ref sig .tc := ⟨.hbm, 28, rfl⟩
abbrev main_cst_4 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_5 : Ref sig .tc := ⟨.hbm, 33, rfl⟩
abbrev main_v17 : Ref sig .tc := ⟨.hbm, 34, rfl⟩
abbrev main_v18 : Ref sig .tc := ⟨.hbm, 35, rfl⟩
abbrev main_cst_6 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_7 : Ref sig .tc := ⟨.hbm, 42, rfl⟩
abbrev main_v24 : Ref sig .tc := ⟨.hbm, 43, rfl⟩
abbrev main_cst_8 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_cst_9 : Ref sig .tc := ⟨.hbm, 48, rfl⟩
abbrev main_v28 : Ref sig .tc := ⟨.hbm, 49, rfl⟩
abbrev main_v29 : Ref sig .tc := ⟨.hbm, 50, rfl⟩
abbrev main_cst_10 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_c : Ref sig .tc := ⟨.hbm, 59, rfl⟩
abbrev main_v37 : Ref sig .tc := ⟨.hbm, 60, rfl⟩
abbrev main_v38 : Ref sig .tc := ⟨.hbm, 61, rfl⟩
abbrev main_c_11 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_12 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_c_13 : Ref sig .tc := ⟨.hbm, 76, rfl⟩
abbrev main_v51 : Ref sig .tc := ⟨.hbm, 77, rfl⟩
abbrev main_v52 : Ref sig .tc := ⟨.hbm, 78, rfl⟩
abbrev main_c_14 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_cst_15 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_c_16 : Ref sig .tc := ⟨.hbm, 93, rfl⟩
abbrev main_v65 : Ref sig .tc := ⟨.hbm, 94, rfl⟩
abbrev main_v66 : Ref sig .tc := ⟨.hbm, 95, rfl⟩
abbrev main_c_17 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_cst_18 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_c_19 : Ref sig .tc := ⟨.hbm, 133, rfl⟩
abbrev main_v102 : Ref sig .tc := ⟨.hbm, 134, rfl⟩
abbrev main_v103 : Ref sig .tc := ⟨.hbm, 135, rfl⟩
abbrev main_c_20 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_cst_21 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg1_1 : Ref sig .tc := ⟨.vmem, 21, rfl⟩
abbrev cc1_stg2_0 : Ref sig .tc := ⟨.vmem, 22, rfl⟩
abbrev cc1_stg2_1 : Ref sig .tc := ⟨.vmem, 23, rfl⟩
abbrev cc1_stg3_0 : Ref sig .tc := ⟨.vmem, 24, rfl⟩
abbrev cc1_stg4_0 : Ref sig .tc := ⟨.vmem, 25, rfl⟩
abbrev cc1_stg5_0 : Ref sig .tc := ⟨.vmem, 26, rfl⟩
abbrev cc1_stg6_0 : Ref sig .tc := ⟨.vmem, 27, rfl⟩
abbrev cc1_stg6_1 : Ref sig .tc := ⟨.vmem, 28, rfl⟩
abbrev cc2_stg0_0 : Ref sig .tc := ⟨.vmem, 29, rfl⟩
abbrev cc2_stg0_1 : Ref sig .tc := ⟨.vmem, 30, rfl⟩
abbrev cc2_stg1_0 : Ref sig .tc := ⟨.vmem, 31, rfl⟩
abbrev cc2_stg1_1 : Ref sig .tc := ⟨.vmem, 32, rfl⟩
abbrev cc2_stg2_0 : Ref sig .tc := ⟨.vmem, 33, rfl⟩
abbrev cc2_stg2_1 : Ref sig .tc := ⟨.vmem, 34, rfl⟩
abbrev cc2_stg3_0 : Ref sig .tc := ⟨.vmem, 35, rfl⟩
abbrev cc2_stg4_0 : Ref sig .tc := ⟨.vmem, 36, rfl⟩
abbrev cc2_stg5_0 : Ref sig .tc := ⟨.vmem, 37, rfl⟩
abbrev cc2_stg6_0 : Ref sig .tc := ⟨.vmem, 38, rfl⟩
abbrev cc2_stg7_0 : Ref sig .tc := ⟨.vmem, 39, rfl⟩
abbrev cc2_stg8_0 : Ref sig .tc := ⟨.vmem, 40, rfl⟩
abbrev cc2_stg8_1 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17
abbrev cc1_sem0_0 : DmaSem sig := 18
abbrev cc1_sem0_1 : DmaSem sig := 19
abbrev cc1_sem1_0 : DmaSem sig := 20
abbrev cc1_sem1_1 : DmaSem sig := 21
abbrev cc1_sem2_0 : DmaSem sig := 22
abbrev cc1_sem2_1 : DmaSem sig := 23
abbrev cc1_sem3_0 : DmaSem sig := 24
abbrev cc1_sem4_0 : DmaSem sig := 25
abbrev cc1_sem5_0 : DmaSem sig := 26
abbrev cc1_sem6_0 : DmaSem sig := 27
abbrev cc1_sem6_1 : DmaSem sig := 28
abbrev cc2_sem0_0 : DmaSem sig := 29
abbrev cc2_sem0_1 : DmaSem sig := 30
abbrev cc2_sem1_0 : DmaSem sig := 31
abbrev cc2_sem1_1 : DmaSem sig := 32
abbrev cc2_sem2_0 : DmaSem sig := 33
abbrev cc2_sem2_1 : DmaSem sig := 34
abbrev cc2_sem3_0 : DmaSem sig := 35
abbrev cc2_sem4_0 : DmaSem sig := 36
abbrev cc2_sem5_0 : DmaSem sig := 37
abbrev cc2_sem6_0 : DmaSem sig := 38
abbrev cc2_sem7_0 : DmaSem sig := 39
abbrev cc2_sem8_0 : DmaSem sig := 40
abbrev cc2_sem8_1 : DmaSem sig := 41

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S2000x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S128x32 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x32 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 2 → Memref sig .tc .vmem S2000x32 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

class Facts₀ : Prop where
  slices_S2x800000_S1x800000_1_0 : S2x800000.Slices ![1, 0] S1x800000
  shapeCasts_S1x800000_S800000 : S1x800000.ShapeCasts S800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  slices_S2x800000_S1x800000_0_0 : S2x800000.Slices ![0, 0] S1x800000
  bcast_S_S50000x128 : S_.BroadcastsInDim S50000x128 (![] : Fin 0 → Fin S50000x128.rank)
  slices_S2x3x128x128_S1x1x128x128_0_0_0_0 : S2x3x128x128.Slices ![0, 0, 0, 0] S1x1x128x128
  shapeCasts_S1x1x128x128_S128x128 : S1x1x128x128.ShapeCasts S128x128
  slices_S2x3x128_S1x1x128_0_0_0 : S2x3x128.Slices ![0, 0, 0] S1x1x128
  shapeCasts_S1x1x128_S128 : S1x1x128.ShapeCasts S128
  slices_S2x3x128x128_S1x1x128x128_0_2_0_0 : S2x3x128x128.Slices ![0, 2, 0, 0] S1x1x128x128
  slices_S2x3x128_S1x1x128_0_2_0 : S2x3x128.Slices ![0, 2, 0] S1x1x128
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  slices_S2x3x128x128_S1x1x128x128_0_1_0_0 : S2x3x128x128.Slices ![0, 1, 0, 0] S1x1x128x128
  slices_S2x3x128_S1x1x128_0_1_0 : S2x3x128.Slices ![0, 1, 0] S1x1x128
  slices_S2x3x128x128_S1x1x128x128_1_1_0_0 : S2x3x128x128.Slices ![1, 1, 0, 0] S1x1x128x128
  slices_S2x3x128_S1x1x128_1_1_0 : S2x3x128.Slices ![1, 1, 0] S1x1x128
  shapeCasts_S32_S1x32 : S32.ShapeCasts S1x32
  inb_S128x32_S128x32_0_0 : ∀ a, (![0, 0] : Fin 2 → Nat) a + S128x32.size a ≤ S128x32.size a
  h_S128x32 : 0 < S128x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S2000x32 : S1x32.Broadcasts S2000x32
  inb_S2000x32_S2000x32_0_0 : ∀ a, (![0, 0] : Fin 2 → Nat) a + S2000x32.size a ≤ S2000x32.size a
  h_S2000x32 : 0 < S2000x32.numel
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x128_S2000x128_1_0_0_1_n_n_wf : DotDims.WF S2000x128 S128x128 S2000x128 [1] [0] [0] [1] [] []
  dot_S2000x128_S128x32_S2000x32_1_0_0_1_n_n_wf : DotDims.WF S2000x128 S128x32 S2000x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S50000x1.size a
  hwx0_1 : ∀ i : grid0.Coords, EltTy.bits .f32 = 32 ∨ (Rect.block (s := S50000x1) S2000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x1.size a ≤ S50000x1.size a
  hwx0_3 : ∀ i : grid0.Coords, EltTy.bits .f32 = 32 ∨ (Rect.block (s := S50000x1) S2000x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x128.size a ≤ S50000x128.size a
  hwx0_4 : ∀ i : grid0.Coords, EltTy.bits .f32 = 32 ∨ (Rect.block (s := S50000x128) S2000x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x128.size a ≤ S128x128.size a
  hwx0_8 : ∀ i : grid0.Coords, EltTy.bits .f32 = 32 ∨ (Rect.block (s := S128x128) S128x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128x128.size a ≤ S128x128.size a
  hwx0_10 : ∀ i : grid0.Coords, EltTy.bits .f32 = 32 ∨ (Rect.block (s := S128x128) S128x128.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S2000x128.size a ≤ S50000x128.size a
  hwx0_11 : ∀ i : grid0.Coords, EltTy.bits .f32 = 32 ∨ (Rect.block (s := S50000x128) S2000x128.size (cc0_transform_11 i) (hinb0_11 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S50000x1.size a
  hwx1_1 : ∀ i : grid1.Coords, EltTy.bits .f32 = 32 ∨ (Rect.block (s := S50000x1) S2000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S50000x128.size a
  hwx1_2 : ∀ i : grid1.Coords, EltTy.bits .f32 = 32 ∨ (Rect.block (s := S50000x128) S2000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x128.size a ≤ S50000x128.size a
  hwx1_6 : ∀ i : grid1.Coords, EltTy.bits .f32 = 32 ∨ (Rect.block (s := S50000x128) S2000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x1.size a ≤ S50000x1.size a
  hwx2_1 : ∀ i : grid2.Coords, EltTy.bits .f32 = 32 ∨ (Rect.block (s := S50000x1) S2000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S50000x128.size a
  hwx2_2 : ∀ i : grid2.Coords, EltTy.bits .f32 = 32 ∨ (Rect.block (s := S50000x128) S2000x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S128x32.size a ≤ S128x32.size a
  hwx2_6 : ∀ i : grid2.Coords, EltTy.bits .f32 = 32 ∨ (Rect.block (s := S128x32) S128x32.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x32.size a ≤ S1x32.size a
  hwx2_7 : ∀ i : grid2.Coords, EltTy.bits .f32 = 32 ∨ (Rect.block (s := S1x32) S1x32.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S2000x32.size a ≤ S50000x32.size a
  hwx2_8 : ∀ i : grid2.Coords, EltTy.bits .f32 = 32 ∨ (Rect.block (s := S50000x32) S2000x32.size (cc2_transform_8 i) (hinb2_8 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x32_S2000x32_1_0_0_1_n_n : DotDims S2000x128 S128x32 S2000x32 where
  lhsContracting := [1]
  rhsContracting := [0]
  lhsNonContracting := [0]
  rhsNonContracting := [1]
  lhsBatch := []
  rhsBatch := []
  wf := dot_S2000x128_S128x32_S2000x32_1_0_0_1_n_n_wf

abbrev win0_0 : Pipeline.Window sig grid0 :=
  Pipeline.Window.ofSpec (Memref.whole main_v60) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v21) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v74) S2000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v32) S2000x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg1) S2000x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v76) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v87) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v80) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v82) S128x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v88) S1x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v86) S128x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v89) S2000x128.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev win1_0 : Pipeline.Window sig grid1 :=
  Pipeline.Window.ofSpec (Memref.whole main_v46) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v10) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg0) S2000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v91) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v96) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v95) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v97) S2000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v111) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v10) S2000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v97) S2000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v113) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v118) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v117) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg8) S128x32.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v119) S1x32.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v120) S2000x32.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S2x3x128x128 : Shape := ⟨4, ![2, 3, 128, 128]⟩
abbrev S2x3x128 : Shape := ⟨3, ![2, 3, 128]⟩
abbrev S128x32 : Shape := ⟨2, ![128, 32]⟩
abbrev S32 : Shape := ⟨1, ![32]⟩
abbrev S1x1x128x128 : Shape := ⟨4, ![1, 1, 128, 128]⟩
abbrev S128x128 : Shape := ⟨2, ![128, 128]⟩
abbrev S1x1x128 : Shape := ⟨3, ![1, 1, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩
abbrev S50000x32 : Shape := ⟨2, ![50000, 32]⟩
abbrev S1x32 : Shape := ⟨2, ![1, 32]⟩

abbrev nBuf : Space → Nat
  | .hbm => 294
  | .vmem => 0
  | .smem => 0
  | _ => 0

abbrev hbmTy0_0 (i : Nat) : BufTy := match i % 128 with
  | 0 => ⟨S50000x128, .f32⟩
  | 1 => ⟨S50000x128, .f32⟩
  | 2 => ⟨S2x800000, .i32⟩
  | 3 => ⟨S2x800000, .i32⟩
  | 4 => ⟨S2x800000, .i32⟩
  | 5 => ⟨S2x3x128x128, .f32⟩
  | 6 => ⟨S2x3x128, .f32⟩
  | 7 => ⟨S2x3x128x128, .f32⟩
  | 8 => ⟨S128x32, .f32⟩
  | 9 => ⟨S32, .f32⟩
  | 10 => ⟨S1x1x128x128, .f32⟩
  | 11 => ⟨S128x128, .f32⟩
  | 12 => ⟨S1x1x128, .f32⟩
  | 13 => ⟨S128, .f32⟩
  | 14 => ⟨S1x1x128x128, .f32⟩
  | 15 => ⟨S128x128, .f32⟩
  | 16 => ⟨S1x800000, .i32⟩
  | 17 => ⟨S800000, .i32⟩
  | 18 => ⟨S1x800000, .i32⟩
  | 19 => ⟨S800000, .i32⟩
  | 20 => ⟨S_, .i32⟩
  | 21 => ⟨S800000, .i32⟩
  | 22 => ⟨S800000, .i1⟩
  | 23 => ⟨S_, .i32⟩
  | 24 => ⟨S800000, .i32⟩
  | 25 => ⟨S800000, .i32⟩
  | 26 => ⟨S800000, .i32⟩
  | 27 => ⟨S800000x1, .i32⟩
  | 28 => ⟨S800000x128, .f32⟩
  | 29 => ⟨S_, .f32⟩
  | 30 => ⟨S50000x128, .f32⟩
  | 31 => ⟨S800000x1, .i32⟩
  | 32 => ⟨S50000x128, .f32⟩
  | 33 => ⟨S_, .f32⟩
  | 34 => ⟨S800000, .f32⟩
  | 35 => ⟨S_, .f32⟩
  | 36 => ⟨S50000, .f32⟩
  | 37 => ⟨S800000x1, .i32⟩
  | 38 => ⟨S50000, .f32⟩
  | 39 => ⟨S_, .f32⟩
  | 40 => ⟨S50000, .f32⟩
  | 41 => ⟨S50000, .f32⟩
  | 42 => ⟨S50000x1, .f32⟩
  | 43 => ⟨S50000x128, .f32⟩
  | 44 => ⟨S50000x128, .f32⟩
  | 45 => ⟨S50000x128, .f32⟩
  | 46 => ⟨S1x128, .f32⟩
  | 47 => ⟨S50000x128, .f32⟩
  | 48 => ⟨S50000x128, .f32⟩
  | 49 => ⟨S50000x128, .f32⟩
  | 50 => ⟨S50000x128, .f32⟩
  | 51 => ⟨S1x1x128x128, .f32⟩
  | 52 => ⟨S128x128, .f32⟩
  | 53 => ⟨S1x1x128, .f32⟩
  | 54 => ⟨S128, .f32⟩
  | 55 => ⟨S1x1x128x128, .f32⟩
  | 56 => ⟨S128x128, .f32⟩
  | 57 => ⟨S1x800000, .i32⟩
  | 58 => ⟨S800000, .i32⟩
  | 59 => ⟨S1x800000, .i32⟩
  | 60 => ⟨S800000, .i32⟩
  | 61 => ⟨S_, .i32⟩
  | 62 => ⟨S800000, .i32⟩
  | 63 => ⟨S800000, .i1⟩
  | 64 => ⟨S_, .i32⟩
  | 65 => ⟨S800000, .i32⟩
  | 66 => ⟨S800000, .i32⟩
  | 67 => ⟨S800000, .i32⟩
  | 68 => ⟨S800000x1, .i32⟩
  | 69 => ⟨S800000x128, .f32⟩
  | 70 => ⟨S_, .f32⟩
  | 71 => ⟨S50000x128, .f32⟩
  | 72 => ⟨S800000x1, .i32⟩
  | 73 => ⟨S50000x128, .f32⟩
  | 74 => ⟨S_, .f32⟩
  | 75 => ⟨S800000, .f32⟩
  | 76 => ⟨S_, .f32⟩
  | 77 => ⟨S50000, .f32⟩
  | 78 => ⟨S800000x1, .i32⟩
  | 79 => ⟨S50000, .f32⟩
  | 80 => ⟨S_, .f32⟩
  | 81 => ⟨S50000, .f32⟩
  | 82 => ⟨S50000, .f32⟩
  | 83 => ⟨S50000x1, .f32⟩
  | 84 => ⟨S50000x128, .f32⟩
  | 85 => ⟨S50000x128, .f32⟩
  | 86 => ⟨S50000x128, .f32⟩
  | 87 => ⟨S1x128, .f32⟩
  | 88 => ⟨S50000x128, .f32⟩
  | 89 => ⟨S50000x128, .f32⟩
  | 90 => ⟨S50000x128, .f32⟩
  | 91 => ⟨S50000x128, .f32⟩
  | 92 => ⟨S50000x128, .f32⟩
  | 93 => ⟨S1x1x128x128, .f32⟩
  | 94 => ⟨S128x128, .f32⟩
  | 95 => ⟨S1x1x128, .f32⟩
  | 96 => ⟨S128, .f32⟩
  | 97 => ⟨S1x1x128x128, .f32⟩
  | 98 => ⟨S128x128, .f32⟩
  | 99 => ⟨S1x800000, .i32⟩
  | 100 => ⟨S800000, .i32⟩
  | 101 => ⟨S1x800000, .i32⟩
  | 102 => ⟨S800000, .i32⟩
  | 103 => ⟨S_, .i32⟩
  | 104 => ⟨S800000, .i32⟩
  | 105 => ⟨S800000, .i1⟩
  | 106 => ⟨S_, .i32⟩
  | 107 => ⟨S800000, .i32⟩
  | 108 => ⟨S800000, .i32⟩
  | 109 => ⟨S800000, .i32⟩
  | 110 => ⟨S800000x1, .i32⟩
  | 111 => ⟨S800000x128, .f32⟩
  | 112 => ⟨S_, .f32⟩
  | 113 => ⟨S50000x128, .f32⟩
  | 114 => ⟨S800000x1, .i32⟩
  | 115 => ⟨S50000x128, .f32⟩
  | 116 => ⟨S_, .f32⟩
  | 117 => ⟨S800000, .f32⟩
  | 118 => ⟨S_, .f32⟩
  | 119 => ⟨S50000, .f32⟩
  | 120 => ⟨S800000x1, .i32⟩
  | 121 => ⟨S50000, .f32⟩
  | 122 => ⟨S_, .f32⟩
  | 123 => ⟨S50000, .f32⟩
  | 124 => ⟨S50000, .f32⟩
  | 125 => ⟨S50000x1, .f32⟩
  | 126 => ⟨S50000x128, .f32⟩
  | 127 => ⟨S50000x128, .f32⟩
  | _ => ⟨S50000x128, .f32⟩

abbrev hbmTy0_1 (i : Nat) : BufTy := match i % 128 with
  | 0 => ⟨S50000x128, .f32⟩
  | 1 => ⟨S1x128, .f32⟩
  | 2 => ⟨S50000x128, .f32⟩
  | 3 => ⟨S50000x128, .f32⟩
  | 4 => ⟨S50000x128, .f32⟩
  | 5 => ⟨S50000x128, .f32⟩
  | 6 => ⟨S_, .f32⟩
  | 7 => ⟨S_, .f32⟩
  | 8 => ⟨S50000x128, .f32⟩
  | 9 => ⟨S50000x128, .i1⟩
  | 10 => ⟨S_, .f32⟩
  | 11 => ⟨S50000x128, .f32⟩
  | 12 => ⟨S50000x128, .f32⟩
  | 13 => ⟨S50000x128, .f32⟩
  | 14 => ⟨S_, .f32⟩
  | 15 => ⟨S_, .f32⟩
  | 16 => ⟨S50000x128, .f32⟩
  | 17 => ⟨S50000x128, .i1⟩
  | 18 => ⟨S_, .f32⟩
  | 19 => ⟨S50000x128, .f32⟩
  | 20 => ⟨S50000x128, .f32⟩
  | 21 => ⟨S50000x128, .f32⟩
  | 22 => ⟨S1x1x128x128, .f32⟩
  | 23 => ⟨S128x128, .f32⟩
  | 24 => ⟨S1x1x128, .f32⟩
  | 25 => ⟨S128, .f32⟩
  | 26 => ⟨S1x1x128x128, .f32⟩
  | 27 => ⟨S128x128, .f32⟩
  | 28 => ⟨S1x800000, .i32⟩
  | 29 => ⟨S800000, .i32⟩
  | 30 => ⟨S1x800000, .i32⟩
  | 31 => ⟨S800000, .i32⟩
  | 32 => ⟨S_, .i32⟩
  | 33 => ⟨S800000, .i32⟩
  | 34 => ⟨S800000, .i1⟩
  | 35 => ⟨S_, .i32⟩
  | 36 => ⟨S800000, .i32⟩
  | 37 => ⟨S800000, .i32⟩
  | 38 => ⟨S800000, .i32⟩
  | 39 => ⟨S800000x1, .i32⟩
  | 40 => ⟨S800000x128, .f32⟩
  | 41 => ⟨S_, .f32⟩
  | 42 => ⟨S50000x128, .f32⟩
  | 43 => ⟨S800000x1, .i32⟩
  | 44 => ⟨S50000x128, .f32⟩
  | 45 => ⟨S_, .f32⟩
  | 46 => ⟨S800000, .f32⟩
  | 47 => ⟨S_, .f32⟩
  | 48 => ⟨S50000, .f32⟩
  | 49 => ⟨S800000x1, .i32⟩
  | 50 => ⟨S50000, .f32⟩
  | 51 => ⟨S_, .f32⟩
  | 52 => ⟨S50000, .f32⟩
  | 53 => ⟨S50000, .f32⟩
  | 54 => ⟨S50000x1, .f32⟩
  | 55 => ⟨S50000x128, .f32⟩
  | 56 => ⟨S50000x128, .f32⟩
  | 57 => ⟨S50000x128, .f32⟩
  | 58 => ⟨S1x128, .f32⟩
  | 59 => ⟨S50000x128, .f32⟩
  | 60 => ⟨S50000x128, .f32⟩
  | 61 => ⟨S50000x128, .f32⟩
  | 62 => ⟨S50000x128, .f32⟩
  | 63 => ⟨S1x1x128x128, .f32⟩
  | 64 => ⟨S128x128, .f32⟩
  | 65 => ⟨S1x1x128, .f32⟩
  | 66 => ⟨S128, .f32⟩
  | 67 => ⟨S1x1x128x128, .f32⟩
  | 68 => ⟨S128x128, .f32⟩
  | 69 => ⟨S1x800000, .i32⟩
  | 70 => ⟨S800000, .i32⟩
  | 71 => ⟨S1x800000, .i32⟩
  | 72 => ⟨S800000, .i32⟩
  | 73 => ⟨S_, .i32⟩
  | 74 => ⟨S800000, .i32⟩
  | 75 => ⟨S800000, .i1⟩
  | 76 => ⟨S_, .i32⟩
  | 77 => ⟨S800000, .i32⟩
  | 78 => ⟨S800000, .i32⟩
  | 79 => ⟨S800000, .i32⟩
  | 80 => ⟨S800000x1, .i32⟩
  | 81 => ⟨S800000x128, .f32⟩
  | 82 => ⟨S_, .f32⟩
  | 83 => ⟨S50000x128, .f32⟩
  | 84 => ⟨S800000x1, .i32⟩
  | 85 => ⟨S50000x128, .f32⟩
  | 86 => ⟨S_, .f32⟩
  | 87 => ⟨S800000, .f32⟩
  | 88 => ⟨S_, .f32⟩
  | 89 => ⟨S50000, .f32⟩
  | 90 => ⟨S800000x1, .i32⟩
  | 91 => ⟨S50000, .f32⟩
  | 92 => ⟨S_, .f32⟩
  | 93 => ⟨S50000, .f32⟩
  | 94 => ⟨S50000, .f32⟩
  | 95 => ⟨S50000x1, .f32⟩
  | 96 => ⟨S50000x128, .f32⟩
  | 97 => ⟨S50000x128, .f32⟩
  | 98 => ⟨S50000x128, .f32⟩
  | 99 => ⟨S1x128, .f32⟩
  | 100 => ⟨S50000x128, .f32⟩
  | 101 => ⟨S50000x128, .f32⟩
  | 102 => ⟨S50000x128, .f32⟩
  | 103 => ⟨S50000x128, .f32⟩
  | 104 => ⟨S50000x128, .f32⟩
  | 105 => ⟨S1x1x128x128, .f32⟩
  | 106 => ⟨S128x128, .f32⟩
  | 107 => ⟨S1x1x128, .f32⟩
  | 108 => ⟨S128, .f32⟩
  | 109 => ⟨S1x1x128x128, .f32⟩
  | 110 => ⟨S128x128, .f32⟩
  | 111 => ⟨S1x800000, .i32⟩
  | 112 => ⟨S800000, .i32⟩
  | 113 => ⟨S1x800000, .i32⟩
  | 114 => ⟨S800000, .i32⟩
  | 115 => ⟨S_, .i32⟩
  | 116 => ⟨S800000, .i32⟩
  | 117 => ⟨S800000, .i1⟩
  | 118 => ⟨S_, .i32⟩
  | 119 => ⟨S800000, .i32⟩
  | 120 => ⟨S800000, .i32⟩
  | 121 => ⟨S800000, .i32⟩
  | 122 => ⟨S800000x1, .i32⟩
  | 123 => ⟨S800000x128, .f32⟩
  | 124 => ⟨S_, .f32⟩
  | 125 => ⟨S50000x128, .f32⟩
  | 126 => ⟨S800000x1, .i32⟩
  | 127 => ⟨S50000x128, .f32⟩
  | _ => ⟨S50000x128, .f32⟩

abbrev hbmTy0_2 (i : Nat) : BufTy := match i % 128 with
  | 0 => ⟨S_, .f32⟩
  | 1 => ⟨S800000, .f32⟩
  | 2 => ⟨S_, .f32⟩
  | 3 => ⟨S50000, .f32⟩
  | 4 => ⟨S800000x1, .i32⟩
  | 5 => ⟨S50000, .f32⟩
  | 6 => ⟨S_, .f32⟩
  | 7 => ⟨S50000, .f32⟩
  | 8 => ⟨S50000, .f32⟩
  | 9 => ⟨S50000x1, .f32⟩
  | 10 => ⟨S50000x128, .f32⟩
  | 11 => ⟨S50000x128, .f32⟩
  | 12 => ⟨S50000x128, .f32⟩
  | 13 => ⟨S1x128, .f32⟩
  | 14 => ⟨S50000x128, .f32⟩
  | 15 => ⟨S50000x128, .f32⟩
  | 16 => ⟨S50000x128, .f32⟩
  | 17 => ⟨S50000x128, .f32⟩
  | 18 => ⟨S_, .f32⟩
  | 19 => ⟨S_, .f32⟩
  | 20 => ⟨S50000x128, .f32⟩
  | 21 => ⟨S50000x128, .i1⟩
  | 22 => ⟨S_, .f32⟩
  | 23 => ⟨S50000x128, .f32⟩
  | 24 => ⟨S50000x128, .f32⟩
  | 25 => ⟨S50000x128, .f32⟩
  | 26 => ⟨S_, .f32⟩
  | 27 => ⟨S_, .f32⟩
  | 28 => ⟨S50000x128, .f32⟩
  | 29 => ⟨S50000x128, .i1⟩
  | 30 => ⟨S_, .f32⟩
  | 31 => ⟨S50000x128, .f32⟩
  | 32 => ⟨S50000x128, .f32⟩
  | 33 => ⟨S50000x128, .f32⟩
  | 34 => ⟨S50000x32, .f32⟩
  | 35 => ⟨S1x32, .f32⟩
  | 36 => ⟨S50000x32, .f32⟩
  | 37 => ⟨S50000x32, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_c : Ref sig .tc := ⟨.hbm, 20, rfl⟩
abbrev main_v10 : Ref sig .tc := ⟨.hbm, 21, rfl⟩
abbrev main_v11 : Ref sig .tc := ⟨.hbm, 22, rfl⟩
abbrev main_c_0 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_1 : Ref sig .tc := ⟨.hbm, 33, rfl⟩
abbrev main_v20 : Ref sig .tc := ⟨.hbm, 34, rfl⟩
abbrev main_cst_2 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_3 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_c_4 : Ref sig .tc := ⟨.hbm, 61, rfl⟩
abbrev main_v45 : Ref sig .tc := ⟨.hbm, 62, rfl⟩
abbrev main_v46 : Ref sig .tc := ⟨.hbm, 63, rfl⟩
abbrev main_c_5 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_cst_6 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_cst_7 : Ref sig .tc := ⟨.hbm, 74, rfl⟩
abbrev main_v55 : Ref sig .tc := ⟨.hbm, 75, rfl⟩
abbrev main_cst_8 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_cst_9 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_c_10 : Ref sig .tc := ⟨.hbm, 103, rfl⟩
abbrev main_v81 : Ref sig .tc := ⟨.hbm, 104, rfl⟩
abbrev main_v82 : Ref sig .tc := ⟨.hbm, 105, rfl⟩
abbrev main_c_11 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_cst_12 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_cst_13 : Ref sig .tc := ⟨.hbm, 116, rfl⟩
abbrev main_v91 : Ref sig .tc := ⟨.hbm, 117, rfl⟩
abbrev main_cst_14 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_cst_15 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_cst_16 : Ref sig .tc := ⟨.hbm, 134, rfl⟩
abbrev main_call0_cst : Ref sig .tc := ⟨.hbm, 135, rfl⟩
abbrev main_call0_v0 : Ref sig .tc := ⟨.hbm, 136, rfl⟩
abbrev main_call0_v1 : Ref sig .tc := ⟨.hbm, 137, rfl⟩
abbrev main_call0_v2 : Ref sig .tc := ⟨.hbm, 138, rfl⟩
abbrev main_call0_v3 : Ref sig .tc := ⟨.hbm, 139, rfl⟩
abbrev main_call0_v4 : Ref sig .tc := ⟨.hbm, 140, rfl⟩
abbrev main_v106 : Ref sig .tc := ⟨.hbm, 141, rfl⟩
abbrev main_cst_17 : Ref sig .tc := ⟨.hbm, 142, rfl⟩
abbrev main_call1_cst : Ref sig .tc := ⟨.hbm, 143, rfl⟩
abbrev main_call1_v0 : Ref sig .tc := ⟨.hbm, 144, rfl⟩
abbrev main_call1_v1 : Ref sig .tc := ⟨.hbm, 145, rfl⟩
abbrev main_call1_v2 : Ref sig .tc := ⟨.hbm, 146, rfl⟩
abbrev main_call1_v3 : Ref sig .tc := ⟨.hbm, 147, rfl⟩
abbrev main_call1_v4 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_c_18 : Ref sig .tc := ⟨.hbm, 160, rfl⟩
abbrev main_v118 : Ref sig .tc := ⟨.hbm, 161, rfl⟩
abbrev main_v119 : Ref sig .tc := ⟨.hbm, 162, rfl⟩
abbrev main_c_19 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_cst_20 : Ref sig .tc := ⟨.hbm, 169, rfl⟩
abbrev main_v125 : Ref sig .tc := ⟨.hbm, 170, rfl⟩
abbrev main_v126 : Ref sig .tc := ⟨.hbm, 171, rfl⟩
abbrev main_v127 : Ref sig .tc := ⟨.hbm, 172, rfl⟩
abbrev main_cst_21 : Ref sig .tc := ⟨.hbm, 173, rfl⟩
abbrev main_v128 : Ref sig .tc := ⟨.hbm, 174, rfl⟩
abbrev main_cst_22 : Ref sig .tc := ⟨.hbm, 175, rfl⟩
abbrev main_v129 : Ref sig .tc := ⟨.hbm, 176, rfl⟩
abbrev main_v130 : Ref sig .tc := ⟨.hbm, 177, rfl⟩
abbrev main_v131 : Ref sig .tc := ⟨.hbm, 178, rfl⟩
abbrev main_cst_23 : Ref sig .tc := ⟨.hbm, 179, rfl⟩
abbrev main_v132 : Ref sig .tc := ⟨.hbm, 180, rfl⟩
abbrev main_v133 : Ref sig .tc := ⟨.hbm, 181, rfl⟩
abbrev main_v134 : Ref sig .tc := ⟨.hbm, 182, rfl⟩
abbrev main_v135 : Ref sig .tc := ⟨.hbm, 183, rfl⟩
abbrev main_v136 : Ref sig .tc := ⟨.hbm, 184, rfl⟩
abbrev main_v137 : Ref sig .tc := ⟨.hbm, 185, rfl⟩
abbrev main_v138 : Ref sig .tc := ⟨.hbm, 186, rfl⟩
abbrev main_v139 : Ref sig .tc := ⟨.hbm, 187, rfl⟩
abbrev main_v140 : Ref sig .tc := ⟨.hbm, 188, rfl⟩
abbrev main_v141 : Ref sig .tc := ⟨.hbm, 189, rfl⟩
abbrev main_v142 : Ref sig .tc := ⟨.hbm, 190, rfl⟩
abbrev main_v143 : Ref sig .tc := ⟨.hbm, 191, rfl⟩
abbrev main_v144 : Ref sig .tc := ⟨.hbm, 192, rfl⟩
abbrev main_v145 : Ref sig .tc := ⟨.hbm, 193, rfl⟩
abbrev main_v146 : Ref sig .tc := ⟨.hbm, 194, rfl⟩
abbrev main_v147 : Ref sig .tc := ⟨.hbm, 195, rfl⟩
abbrev main_v148 : Ref sig .tc := ⟨.hbm, 196, rfl⟩
abbrev main_v149 : Ref sig .tc := ⟨.hbm, 197, rfl⟩
abbrev main_v150 : Ref sig .tc := ⟨.hbm, 198, rfl⟩
abbrev main_v151 : Ref sig .tc := ⟨.hbm, 199, rfl⟩
abbrev main_v152 : Ref sig .tc := ⟨.hbm, 200, rfl⟩
abbrev main_c_24 : Ref sig .tc := ⟨.hbm, 201, rfl⟩
abbrev main_v153 : Ref sig .tc := ⟨.hbm, 202, rfl⟩
abbrev main_v154 : Ref sig .tc := ⟨.hbm, 203, rfl⟩
abbrev main_c_25 : Ref sig .tc := ⟨.hbm, 204, rfl⟩
abbrev main_v155 : Ref sig .tc := ⟨.hbm, 205, rfl⟩
abbrev main_v156 : Ref sig .tc := ⟨.hbm, 206, rfl⟩
abbrev main_v157 : Ref sig .tc := ⟨.hbm, 207, rfl⟩
abbrev main_v158 : Ref sig .tc := ⟨.hbm, 208, rfl⟩
abbrev main_v159 : Ref sig .tc := ⟨.hbm, 209, rfl⟩
abbrev main_cst_26 : Ref sig .tc := ⟨.hbm, 210, rfl⟩
abbrev main_v160 : Ref sig .tc := ⟨.hbm, 211, rfl⟩
abbrev main_v161 : Ref sig .tc := ⟨.hbm, 212, rfl⟩
abbrev main_v162 : Ref sig .tc := ⟨.hbm, 213, rfl⟩
abbrev main_cst_27 : Ref sig .tc := ⟨.hbm, 214, rfl⟩
abbrev main_v163 : Ref sig .tc := ⟨.hbm, 215, rfl⟩
abbrev main_cst_28 : Ref sig .tc := ⟨.hbm, 216, rfl⟩
abbrev main_v164 : Ref sig .tc := ⟨.hbm, 217, rfl⟩
abbrev main_v165 : Ref sig .tc := ⟨.hbm, 218, rfl⟩
abbrev main_v166 : Ref sig .tc := ⟨.hbm, 219, rfl⟩
abbrev main_cst_29 : Ref sig .tc := ⟨.hbm, 220, rfl⟩
abbrev main_v167 : Ref sig .tc := ⟨.hbm, 221, rfl⟩
abbrev main_v168 : Ref sig .tc := ⟨.hbm, 222, rfl⟩
abbrev main_v169 : Ref sig .tc := ⟨.hbm, 223, rfl⟩
abbrev main_v170 : Ref sig .tc := ⟨.hbm, 224, rfl⟩
abbrev main_v171 : Ref sig .tc := ⟨.hbm, 225, rfl⟩
abbrev main_v172 : Ref sig .tc := ⟨.hbm, 226, rfl⟩
abbrev main_v173 : Ref sig .tc := ⟨.hbm, 227, rfl⟩
abbrev main_v174 : Ref sig .tc := ⟨.hbm, 228, rfl⟩
abbrev main_v175 : Ref sig .tc := ⟨.hbm, 229, rfl⟩
abbrev main_v176 : Ref sig .tc := ⟨.hbm, 230, rfl⟩
abbrev main_v177 : Ref sig .tc := ⟨.hbm, 231, rfl⟩
abbrev main_v178 : Ref sig .tc := ⟨.hbm, 232, rfl⟩
abbrev main_v179 : Ref sig .tc := ⟨.hbm, 233, rfl⟩
abbrev main_v180 : Ref sig .tc := ⟨.hbm, 234, rfl⟩
abbrev main_v181 : Ref sig .tc := ⟨.hbm, 235, rfl⟩
abbrev main_v182 : Ref sig .tc := ⟨.hbm, 236, rfl⟩
abbrev main_v183 : Ref sig .tc := ⟨.hbm, 237, rfl⟩
abbrev main_v184 : Ref sig .tc := ⟨.hbm, 238, rfl⟩
abbrev main_v185 : Ref sig .tc := ⟨.hbm, 239, rfl⟩
abbrev main_v186 : Ref sig .tc := ⟨.hbm, 240, rfl⟩
abbrev main_v187 : Ref sig .tc := ⟨.hbm, 241, rfl⟩
abbrev main_v188 : Ref sig .tc := ⟨.hbm, 242, rfl⟩
abbrev main_c_30 : Ref sig .tc := ⟨.hbm, 243, rfl⟩
abbrev main_v189 : Ref sig .tc := ⟨.hbm, 244, rfl⟩
abbrev main_v190 : Ref sig .tc := ⟨.hbm, 245, rfl⟩
abbrev main_c_31 : Ref sig .tc := ⟨.hbm, 246, rfl⟩
abbrev main_v191 : Ref sig .tc := ⟨.hbm, 247, rfl⟩
abbrev main_v192 : Ref sig .tc := ⟨.hbm, 248, rfl⟩
abbrev main_v193 : Ref sig .tc := ⟨.hbm, 249, rfl⟩
abbrev main_v194 : Ref sig .tc := ⟨.hbm, 250, rfl⟩
abbrev main_v195 : Ref sig .tc := ⟨.hbm, 251, rfl⟩
abbrev main_cst_32 : Ref sig .tc := ⟨.hbm, 252, rfl⟩
abbrev main_v196 : Ref sig .tc := ⟨.hbm, 253, rfl⟩
abbrev main_v197 : Ref sig .tc := ⟨.hbm, 254, rfl⟩
abbrev main_v198 : Ref sig .tc := ⟨.hbm, 255, rfl⟩
abbrev main_cst_33 : Ref sig .tc := ⟨.hbm, 256, rfl⟩
abbrev main_v199 : Ref sig .tc := ⟨.hbm, 257, rfl⟩
abbrev main_cst_34 : Ref sig .tc := ⟨.hbm, 258, rfl⟩
abbrev main_v200 : Ref sig .tc := ⟨.hbm, 259, rfl⟩
abbrev main_v201 : Ref sig .tc := ⟨.hbm, 260, rfl⟩
abbrev main_v202 : Ref sig .tc := ⟨.hbm, 261, rfl⟩
abbrev main_cst_35 : Ref sig .tc := ⟨.hbm, 262, rfl⟩
abbrev main_v203 : Ref sig .tc := ⟨.hbm, 263, rfl⟩
abbrev main_v204 : Ref sig .tc := ⟨.hbm, 264, rfl⟩
abbrev main_v205 : Ref sig .tc := ⟨.hbm, 265, rfl⟩
abbrev main_v206 : Ref sig .tc := ⟨.hbm, 266, rfl⟩
abbrev main_v207 : Ref sig .tc := ⟨.hbm, 267, rfl⟩
abbrev main_v208 : Ref sig .tc := ⟨.hbm, 268, rfl⟩
abbrev main_v209 : Ref sig .tc := ⟨.hbm, 269, rfl⟩
abbrev main_v210 : Ref sig .tc := ⟨.hbm, 270, rfl⟩
abbrev main_v211 : Ref sig .tc := ⟨.hbm, 271, rfl⟩
abbrev main_v212 : Ref sig .tc := ⟨.hbm, 272, rfl⟩
abbrev main_v213 : Ref sig .tc := ⟨.hbm, 273, rfl⟩
abbrev main_cst_36 : Ref sig .tc := ⟨.hbm, 274, rfl⟩
abbrev main_call2_cst : Ref sig .tc := ⟨.hbm, 275, rfl⟩
abbrev main_call2_v0 : Ref sig .tc := ⟨.hbm, 276, rfl⟩
abbrev main_call2_v1 : Ref sig .tc := ⟨.hbm, 277, rfl⟩
abbrev main_call2_v2 : Ref sig .tc := ⟨.hbm, 278, rfl⟩
abbrev main_call2_v3 : Ref sig .tc := ⟨.hbm, 279, rfl⟩
abbrev main_call2_v4 : Ref sig .tc := ⟨.hbm, 280, rfl⟩
abbrev main_v214 : Ref sig .tc := ⟨.hbm, 281, rfl⟩
abbrev main_cst_37 : Ref sig .tc := ⟨.hbm, 282, rfl⟩
abbrev main_call3_cst : Ref sig .tc := ⟨.hbm, 283, rfl⟩
abbrev main_call3_v0 : Ref sig .tc := ⟨.hbm, 284, rfl⟩
abbrev main_call3_v1 : Ref sig .tc := ⟨.hbm, 285, rfl⟩
abbrev main_call3_v2 : Ref sig .tc := ⟨.hbm, 286, rfl⟩
abbrev main_call3_v3 : Ref sig .tc := ⟨.hbm, 287, rfl⟩
abbrev main_call3_v4 : Ref sig .tc := ⟨.hbm, 288, rfl⟩
abbrev main_v215 : Ref sig .tc := ⟨.hbm, 289, rfl⟩
abbrev main_v216 : Ref sig .tc := ⟨.hbm, 290, rfl⟩
abbrev main_v217 : Ref sig .tc := ⟨.hbm, 291, rfl⟩
abbrev main_v218 : Ref sig .tc := ⟨.hbm, 292, rfl⟩
abbrev main_v219 : Ref sig .tc := ⟨.hbm, 293, rfl⟩

abbrev nD : Nat := 1
abbrev τ : Topo := Topo.v7x

variable {F : FTy → Type} [FloatOps F]

class Facts₀ : Prop where
  slices_S2x3x128x128_S1x1x128x128_0_0_0_0 : S2x3x128x128.Slices ![0, 0, 0, 0] S1x1x128x128
  shapeCasts_S1x1x128x128_S128x128 : S1x1x128x128.ShapeCasts S128x128
  slices_S2x3x128_S1x1x128_0_0_0 : S2x3x128.Slices ![0, 0, 0] S1x1x128
  shapeCasts_S1x1x128_S128 : S1x1x128.ShapeCasts S128
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S2x3x128x128_S1x1x128x128_0_2_0_0 : S2x3x128x128.Slices ![0, 2, 0, 0] S1x1x128x128
  slices_S2x3x128_S1x1x128_0_2_0 : S2x3x128.Slices ![0, 2, 0] S1x1x128
  slices_S2x3x128x128_S1x1x128x128_0_1_0_0 : S2x3x128x128.Slices ![0, 1, 0, 0] S1x1x128x128
  slices_S2x3x128_S1x1x128_0_1_0 : S2x3x128.Slices ![0, 1, 0] S1x1x128
  slices_S2x3x128x128_S1x1x128x128_1_0_0_0 : S2x3x128x128.Slices ![1, 0, 0, 0] S1x1x128x128
  slices_S2x3x128_S1x1x128_1_0_0 : S2x3x128.Slices ![1, 0, 0] S1x1x128
  slices_S2x3x128x128_S1x1x128x128_1_2_0_0 : S2x3x128x128.Slices ![1, 2, 0, 0] S1x1x128x128
  slices_S2x3x128_S1x1x128_1_2_0 : S2x3x128.Slices ![1, 2, 0] S1x1x128
  slices_S2x3x128x128_S1x1x128x128_1_1_0_0 : S2x3x128x128.Slices ![1, 1, 0, 0] S1x1x128x128
  slices_S2x3x128_S1x1x128_1_1_0 : S2x3x128.Slices ![1, 1, 0] S1x1x128
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []
  dot_S50000x128_S128x32_S50000x32_1_0_0_1_n_n_wf : DotDims.WF S50000x128 S128x32 S50000x32 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x32_S50000x32_1_0_0_1_n_n : DotDims S50000x128 S128x32 S50000x32 where
  lhsContracting := [1]
  rhsContracting := [0]
  lhsNonContracting := [0]
  rhsNonContracting := [1]
  lhsBatch := []
  rhsBatch := []
  wf := dot_S50000x128_S128x32_S50000x32_1_0_0_1_n_n_wf

class Facts : Prop extends Facts₀ where

variable [Facts]
-- ==== Proof.KerRun.lean ====
/-
  The idealized kernel's run with its result named.

  The program is three pipelined regions among stretches of host operations. Every weakly fair execution terminates
  without a fault; in the final state the result buffer holds what the buffer contents folded through the six
  segments leave there (the last region's output array after its write-backs), and the argument arrays are as
  launched. The argument is the frame's: the segments' chain, with one more buffer read against the final state.
-/
import proofs.«159525_j9775345565891_2_alg».proof.Proof.Gen.KernelIdeal.Frame

set_option maxRecDepth 16384

noncomputable section

namespace Cert.KernelIdeal.Val

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the library's launch theorem finds its implicit arguments by unifying its conclusion with this one, which takes
-- unfolding plain definitions in a metavariable's type
set_option backward.isDefEq.respectTransparency.types false in
/-- Every weakly fair execution of the program terminates, nothing faulting; the result buffer ends at the last
    boundary's contents and every argument array as launched. -/
theorem run_value : θ_run defs (onTc (τ := τ) (main (F := F))) ⟨m, fun _ => 0, ρ⟩ (fun r => ∀ c : Dev nD,
      r.2.mem ((c.tc : Thread nD τ).loc main_v120) = W6 m ρ c (Proc.devRef .tc main_v120)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v120 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c)⟩)

end Cert.KernelIdeal.Val

end
-- ==== Proof.RefChains.lean ====
/-
  The host-side chains both programs share, as functions of whole arrays.

  An edge list is a [2, E] array of node ids: row 0 the sources, row 1 the destinations. The neighbour sum of a feature
  array along an edge list gathers the source rows (a negative id counted from the end) and adds them into a zero array
  at the destination rows. The degree is the same scatter of ones, floored at one. A layer's weights for one relation
  are one [128, 128] slab of a stacked [2, 3, 128, 128] array, its bias one length-128 line of a [2, 3, 128] array.
  Both programs build these by the same operations, so they are named once here and never opened except where a
  degree has to be seen to be a nonzero real.
-/
import proofs.«159525_j9775345565891_2_alg».proof.ReferenceIdeal

noncomputable section

namespace Cert.ReferenceIdeal.Chain

open Idealize.ShloMosaic Cert.ReferenceIdeal Cert.ReferenceIdeal.Facts₀

variable {F : FTy → Type} [FloatOps F] [Facts]

/-- The source ids of an edge list. -/
def srcIds (e : (⟨S2x800000, .i32⟩ : BufTy).Contents (Elt F)) : (⟨S800000, .i32⟩ : BufTy).Contents (Elt F) :=
  shapeCast S800000 (extractStridedSlice S1x800000 ![0, 0] e slices_S2x800000_S1x800000_0_0) shapeCasts_S1x800000_S800000

/-- The destination ids of an edge list. -/
def dstIds (e : (⟨S2x800000, .i32⟩ : BufTy).Contents (Elt F)) : (⟨S800000, .i32⟩ : BufTy).Contents (Elt F) :=
  shapeCast S800000 (extractStridedSlice S1x800000 ![1, 0] e slices_S2x800000_S1x800000_1_0) shapeCasts_S1x800000_S800000

/-- A negative id counts from the end: id + 50000 where id < 0, id elsewhere. -/
def wrapIds (s : (⟨S800000, .i32⟩ : BufTy).Contents (Elt F)) : (⟨S800000, .i32⟩ : BufTy).Contents (Elt F) :=
  select (cmpi .slt s (broadcastInDim S800000 ![] bcast_S_S800000 (constantI S_ 32 0#32)))
    (addi s (broadcastInDim S800000 ![] bcast_S_S800000 (constantI S_ 32 50000#32))) s

/-- The neighbour sum: the rows of `x` at the edges' sources, added into zero at the edges' destinations. -/
def aggr (x : (⟨S50000x128, .f32⟩ : BufTy).Contents (Elt F)) (e : (⟨S2x800000, .i32⟩ : BufTy).Contents (Elt F)) :
    (⟨S50000x128, .f32⟩ : BufTy).Contents (Elt F) :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 (dstIds e))
    (Host.gather gather_S50000x128_S800000x1_S800000x128_1_0_n_n_0_1_1128 x
      (broadcastInDim S800000x1 ![0] bcast_S800000_S800000x1_0 (wrapIds (srcIds e))))

/-- The in-degree count: ones added into zero at the edges' destinations. -/
def count (e : (⟨S2x800000, .i32⟩ : BufTy).Contents (Elt F)) : (⟨S50000, .f32⟩ : BufTy).Contents (Elt F) :=
  Host.scatterAdd scatter_S50000_S800000x1_S800000_n_0_0_1
    (broadcastInDim S50000 ![] bcast_S_S50000 (constant S_ .f32 0x00000000#32))
    (broadcastInDim S800000x1 ![0] bcast_S800000_S800000x1_0 (dstIds e))
    (broadcastInDim S800000 ![] bcast_S_S800000 (constant S_ .f32 0x3F800000#32))

/-- The in-degree floored at one. -/
def degree (e : (⟨S2x800000, .i32⟩ : BufTy).Contents (Elt F)) : (⟨S50000, .f32⟩ : BufTy).Contents (Elt F) :=
  maximumf (count e) (broadcastInDim S50000 ![] bcast_S_S50000 (constant S_ .f32 0x3F800000#32))

/-- One [128, 128] slab of a stacked weight array, at the offsets `off` (layer, relation, 0, 0). -/
def wmat (off : Fin 4 → Nat) (h : S2x3x128x128.Slices off S1x1x128x128)
    (a : (⟨S2x3x128x128, .f32⟩ : BufTy).Contents (Elt F)) : (⟨S128x128, .f32⟩ : BufTy).Contents (Elt F) :=
  shapeCast S128x128 (extractStridedSlice S1x1x128x128 off a h) shapeCasts_S1x1x128x128_S128x128

/-- One length-128 line of a stacked bias array, at the offsets `off` (layer, relation, 0). -/
def bvec (off : Fin 3 → Nat) (h : S2x3x128.Slices off S1x1x128)
    (a : (⟨S2x3x128, .f32⟩ : BufTy).Contents (Elt F)) : (⟨S128, .f32⟩ : BufTy).Contents (Elt F) :=
  shapeCast S128 (extractStridedSlice S1x1x128 off a h) shapeCasts_S1x1x128_S128

/-- One relation's array: (mean ⬝ Wl + bias) + x ⬝ Wr, the mean the neighbour sum `A` divided row by row by the degree
    `D`, the bias repeated down the rows. -/
def sageArr (A X : (⟨S50000x128, .f32⟩ : BufTy).Contents (Elt F)) (D : (⟨S50000, .f32⟩ : BufTy).Contents (Elt F))
    (Wl Wr : (⟨S128x128, .f32⟩ : BufTy).Contents (Elt F)) (b : (⟨S128, .f32⟩ : BufTy).Contents (Elt F)) :
    (⟨S50000x128, .f32⟩ : BufTy).Contents (Elt F) :=
  addf
    (addf
      (Host.dotGeneral dot_S50000x128_S128x128_S50000x128_1_0_0_1_n_n none
        (Host.divf A (broadcastInDim S50000x128 ![0, 1] bcast_S50000x1_S50000x128_0_1
          (broadcastInDim S50000x1 ![0] bcast_S50000_S50000x1_0 D))) Wl)
      (broadcastInDim S50000x128 ![0, 1] bcast_S1x128_S50000x128_0_1 (broadcastInDim S1x128 ![1] bcast_S128_S1x128_1 b)))
    (Host.dotGeneral dot_S50000x128_S128x128_S50000x128_1_0_0_1_n_n none X Wr)

/-- The leaky rectifier on a whole array: x where x ≥ 0, slope · x elsewhere. -/
def leakyArr (x : (⟨S50000x128, .f32⟩ : BufTy).Contents (Elt F)) : (⟨S50000x128, .f32⟩ : BufTy).Contents (Elt F) :=
  select (cmpf .oge x (broadcastInDim S50000x128 ![] bcast_S_S50000x128 (constant S_ .f32 0x00000000#32))) x
    (mulf (broadcastInDim S50000x128 ![] bcast_S_S50000x128 (id (constant S_ .f32 0x3C23D70A#32))) x)

/-- The output head on a whole array: h ⬝ W plus the bias repeated down the rows. -/
def headArr (H : (⟨S50000x128, .f32⟩ : BufTy).Contents (Elt F)) (W : (⟨S128x32, .f32⟩ : BufTy).Contents (Elt F))
    (b : (⟨S32, .f32⟩ : BufTy).Contents (Elt F)) : (⟨S50000x32, .f32⟩ : BufTy).Contents (Elt F) :=
  addf (Host.dotGeneral dot_S50000x128_S128x32_S50000x32_1_0_0_1_n_n none H W)
    (broadcastInDim S50000x32 ![0, 1] bcast_S1x32_S50000x32_0_1 (broadcastInDim S1x32 ![1] bcast_S32_S1x32_1 b))

end Cert.ReferenceIdeal.Chain

end
-- ==== Proof.KerForms.lean ====
/-
  Three small layouts that only the kernel's host side uses.

  The reciprocal of a degree vector laid as a column: entry (r, 0) is 1 divided by the degree of row r. A length-128
  bias line and a length-32 bias line laid as one-row arrays.
-/
import proofs.«159525_j9775345565891_2_alg».proof.KernelIdeal
import Idealize.ShloMosaic.PureOps.Ideal

noncomputable section

namespace Cert.KernelIdeal.Forms

open Idealize.ShloMosaic Cert.KernelIdeal Cert.KernelIdeal.Facts₀

variable [Facts]

/-- The reciprocal degree column: 1 / D, row by row, as a [50000, 1] array. -/
def recipCol (D : (⟨S50000, .f32⟩ : BufTy).Contents (Elt Ideal)) : (⟨S50000x1, .f32⟩ : BufTy).Contents (Elt Ideal) :=
  broadcastInDim S50000x1 ![0] bcast_S50000_S50000x1_0
    (Host.divf (F := Ideal) (broadcastInDim S50000 ![] bcast_S_S50000 (constant (F := Ideal) S_ .f32 0x3F800000#32)) D)

/-- A length-128 line as a [1, 128] row. -/
def rowOf (b : (⟨S128, .f32⟩ : BufTy).Contents (Elt Ideal)) : (⟨S1x128, .f32⟩ : BufTy).Contents (Elt Ideal) :=
  shapeCast S1x128 b shapeCasts_S128_S1x128

/-- A length-32 line as a [1, 32] row. -/
def rowOf32 (b : (⟨S32, .f32⟩ : BufTy).Contents (Elt Ideal)) : (⟨S1x32, .f32⟩ : BufTy).Contents (Elt Ideal) :=
  shapeCast S1x32 b shapeCasts_S32_S1x32

end Cert.KernelIdeal.Forms

end
-- ==== Proof.LibCat.lean ====
/-
  A concatenation of exactly two arrays, with the two pieces as plain arguments.

  The general concatenation takes its operands as a list of (shape, array) pairs; for two operands the same
  function is written here over the two arrays themselves, so that each can be rewritten on its own.
-/
import Idealize.ShloMosaic.PureOps

noncomputable section

namespace Cert.Cat

open Idealize.ShloMosaic

variable {α : Type}

/-- The concatenation of `a : s₁` and `b : s₂` along axis `d` of the result shape `t`. -/
def cat2 (t : Shape) (d : Fin t.rank) (s₁ s₂ : Shape) (a : s₁.Idx → α) (b : s₂.Idx → α)
    (h : Shape.Concatenates [s₁, s₂] t d) : t.Idx → α :=
  concatenate t d [⟨s₁, a⟩, ⟨s₂, b⟩] h

/-- The two-element list form is the two-argument form. -/
theorem cat2_eq (t : Shape) (d : Fin t.rank) (s₁ s₂ : Shape) (a : s₁.Idx → α) (b : s₂.Idx → α)
    (h : Shape.Concatenates [s₁, s₂] t d) :
    concatenate t d [⟨s₁, a⟩, ⟨s₂, b⟩] h = cat2 t d s₁ s₂ a b h := rfl

end Cert.Cat

end
-- ==== Proof.LibTypedRef.lean ====
/-
  A typed reference's transports cancel.

  A typed reference pairs a buffer with a proof that the buffer's declared type is a given one; a host operation built
  over typed references carries its operands from the buffers' types to the given types and its result back, along
  those equations.  Carrying a value to the buffer's type and back again is the identity, whatever proof of the equation
  the reference holds — so a chain of such operations, each reading what the one before wrote, composes to the plain
  composition of their functions.
-/
import Idealize.ShloMosaic.Lib.StableHlo

namespace Idealize.ShloMosaic.StableHlo.TRef

variable {sig : RefSig} {Val : EltTy → Type} {T : BufTy}

/-- To the buffer's type and back. -/
theorem ofBuf_toBuf (x : TRef sig T) (v : T.Contents Val) : x.ofBuf (x.toBuf v) = v := by
  obtain ⟨r, rfl, _, _⟩ := x
  rfl

/-- From the buffer's type and back. -/
theorem toBuf_ofBuf (x : TRef sig T) (v : x.ref.ty.Contents Val) : x.toBuf (x.ofBuf v) = v := by
  obtain ⟨r, rfl, _, _⟩ := x
  rfl

end Idealize.ShloMosaic.StableHlo.TRef
-- ==== Proof.LibHostLine.lean ====
/-
  A straight line of host operations read as a fold over buffer contents.

  A line cut in two is read piece after piece.  After a line, a buffer holds: if an operation of the line writes it,
  that operation's function of its operands' contents just before it; otherwise what it held at the start.  A
  two-operand concatenation is read over its two pieces, each piece in turn.
-/
import Idealize.ShloMosaic.Lib.StableHlo.Run
import proofs.«159525_j9775345565891_2_alg».proof.Proof.LibCat
import proofs.«159525_j9775345565891_2_alg».proof.Proof.LibTypedRef

namespace Cert.HostRun

open Idealize.ShloMosaic Idealize.ShloMosaic.StableHlo

variable {τ : Topo} {sig : RefSig} {Val : EltTy → Type}

/-- The contents after two lines run one after the other. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- The contents of one buffer after a literal line of operations: each operation's result at the buffer it writes is its
    function of its operands' contents, at any other buffer what was there before it. -/
macro "read_line" : tactic =>
  `(tactic| (simp (disch := decide) only [after_cons, after_nil,
      nullary_result', unary_result', binary_result', ternary_result', quaternary_result', reshape_result',
      nullary_result_ne', unary_result_ne', binary_result_ne', ternary_result_ne', quaternary_result_ne', reshape_result_ne',
      Cert.Cat.cat2_eq, TRef.ofBuf_toBuf]))

/-- A buffer that no operation of a literal line writes keeps its contents: the line's lists are named so that they
    can be opened, and each operation's written buffer is compared with the buffer read. -/
syntax "keep_line" "[" ident,* "]" : tactic
macro_rules
  | `(tactic| keep_line [$ids,*]) =>
    `(tactic| (refine after_of_forall_not_mem _ _ (List.forall_iff_forall_mem.mp ?_)
               simp only [$[$ids:ident],*, List.cons_append, List.nil_append, List.append_nil, List.Forall,
                 nullary_writes, unary_writes, binary_writes, ternary_writes, quaternary_writes, reshape_writes,
                 Finset.mem_singleton]
               repeat' apply And.intro
               all_goals exact devRef_ne_of_ne (by decide)))

end Cert.HostRun
-- ==== Proof.KerHost0a.lean ====
/-
  The first host stretch of the kernel's program, read at the neighbour sums.

  After the stretch, three buffers hold the neighbour sums along the three edge lists: the same gather-and-scatter
  chain the reference applies, of whatever the argument buffers held before the stretch.
-/
import proofs.«159525_j9775345565891_2_alg».proof.Proof.Gen.KernelIdeal.Frame
import proofs.«159525_j9775345565891_2_alg».proof.Proof.Gen.ReferenceIdeal
import proofs.«159525_j9775345565891_2_alg».proof.Proof.RefChains
import proofs.«159525_j9775345565891_2_alg».proof.Proof.KerForms
import proofs.«159525_j9775345565891_2_alg».proof.Proof.LibHostLine
import Idealize.ShloMosaic.PureOps.Ideal

set_option maxRecDepth 16384

noncomputable section

namespace Cert.KernelIdeal.HostSide

open Idealize.ShloMosaic Idealize.ShloMosaic.TcCoe Idealize.ShloMosaic.StableHlo Idealize.SL.Sem
open Cert.KernelIdeal Cert.KernelIdeal.Gen Cert.KernelIdeal.Facts₀ Cert.KernelIdeal.Forms Cert.HostRun
open Cert.ReferenceIdeal.Chain

attribute [local irreducible] Host.gather Host.scatterAdd in
/-- Author rows summed into papers along the author-to-paper edges. -/
theorem ops0_v60 (W : Valuation τ sig (Elt Ideal)) :
    after hostOps0 W (Proc.devRef .tc main_v60) = aggr (W (Proc.devRef .tc main_arg0)) (W (Proc.devRef .tc main_arg2)) := by
  read_line
  rfl

attribute [local irreducible] Host.gather Host.scatterAdd in
/-- Paper rows summed into papers along the paper-to-paper edges. -/
theorem ops0_v74 (W : Valuation τ sig (Elt Ideal)) :
    after hostOps0 W (Proc.devRef .tc main_v74) = aggr (W (Proc.devRef .tc main_arg1)) (W (Proc.devRef .tc main_arg4)) := by
  read_line
  rfl

attribute [local irreducible] Host.gather Host.scatterAdd in
/-- Paper rows summed into authors along the paper-to-author edges. -/
theorem ops0_v46 (W : Valuation τ sig (Elt Ideal)) :
    after hostOps0 W (Proc.devRef .tc main_v46) = aggr (W (Proc.devRef .tc main_arg1)) (W (Proc.devRef .tc main_arg3)) := by
  read_line
  rfl

end Cert.KernelIdeal.HostSide

end
-- ==== Proof.KerHost0b.lean ====
/-
  The first host stretch of the kernel's program, read at the reciprocal degree columns.

  After the stretch, three buffers hold, as [50000, 1] columns, the reciprocals of the in-degrees floored at one along
  the three edge lists.
-/
import proofs.«159525_j9775345565891_2_alg».proof.Proof.Gen.KernelIdeal.Frame
import proofs.«159525_j9775345565891_2_alg».proof.Proof.Gen.ReferenceIdeal
import proofs.«159525_j9775345565891_2_alg».proof.Proof.RefChains
import proofs.«159525_j9775345565891_2_alg».proof.Proof.KerForms
import proofs.«159525_j9775345565891_2_alg».proof.Proof.LibHostLine
import Idealize.ShloMosaic.PureOps.Ideal

set_option maxRecDepth 16384

noncomputable section

namespace Cert.KernelIdeal.HostSide

open Idealize.ShloMosaic Idealize.ShloMosaic.TcCoe Idealize.ShloMosaic.StableHlo Idealize.SL.Sem
open Cert.KernelIdeal Cert.KernelIdeal.Gen Cert.KernelIdeal.Facts₀ Cert.KernelIdeal.Forms Cert.HostRun
open Cert.ReferenceIdeal.Chain

attribute [local irreducible] Host.gather Host.scatterAdd in
/-- Along the author-to-paper edges. -/
theorem ops0_v21 (W : Valuation τ sig (Elt Ideal)) :
    after hostOps0 W (Proc.devRef .tc main_v21) = recipCol (degree (W (Proc.devRef .tc main_arg2))) := by
  read_line
  rfl

attribute [local irreducible] Host.gather Host.scatterAdd in
/-- Along the paper-to-paper edges. -/
theorem ops0_v32 (W : Valuation τ sig (Elt Ideal)) :
    after hostOps0 W (Proc.devRef .tc main_v32) = recipCol (degree (W (Proc.devRef .tc main_arg4))) := by
  read_line
  rfl

attribute [local irreducible] Host.gather Host.scatterAdd in
/-- Along the paper-to-author edges. -/
theorem ops0_v10 (W : Valuation τ sig (Elt Ideal)) :
    after hostOps0 W (Proc.devRef .tc main_v10) = recipCol (degree (W (Proc.devRef .tc main_arg3))) := by
  read_line
  rfl

end Cert.KernelIdeal.HostSide

end
-- ==== Proof.KerHost0c.lean ====
/-
  The first host stretch of the kernel's program, read at the first layer's weights of the two paper relations.

  Each weight buffer is a slab of a stacked weight argument; each bias buffer a line of the stacked bias argument laid
  as a one-row array.
-/
import proofs.«159525_j9775345565891_2_alg».proof.Proof.Gen.KernelIdeal.Frame
import proofs.«159525_j9775345565891_2_alg».proof.Proof.Gen.ReferenceIdeal
import proofs.«159525_j9775345565891_2_alg».proof.Proof.RefChains
import proofs.«159525_j9775345565891_2_alg».proof.Proof.KerForms
import proofs.«159525_j9775345565891_2_alg».proof.Proof.LibHostLine
import Idealize.ShloMosaic.PureOps.Ideal

set_option maxRecDepth 16384

noncomputable section

namespace Cert.KernelIdeal.HostSide

open Idealize.ShloMosaic Idealize.ShloMosaic.TcCoe Idealize.ShloMosaic.StableHlo Idealize.SL.Sem
open Cert.KernelIdeal Cert.KernelIdeal.Gen Cert.KernelIdeal.Facts₀ Cert.KernelIdeal.Forms Cert.HostRun
open Cert.ReferenceIdeal.Chain

/-- Message weights, layer 0, relation 0. -/
theorem ops0_v76 (W : Valuation τ sig (Elt Ideal)) :
    after hostOps0 W (Proc.devRef .tc main_v76) = wmat ![0, 0, 0, 0] Facts₀.slices_S2x3x128x128_S1x1x128x128_0_0_0_0 (W (Proc.devRef .tc main_arg5)) := by
  read_line
  rfl

/-- Bias row, layer 0, relation 0. -/
theorem ops0_v87 (W : Valuation τ sig (Elt Ideal)) :
    after hostOps0 W (Proc.devRef .tc main_v87) = rowOf (bvec ![0, 0, 0] Facts₀.slices_S2x3x128_S1x1x128_0_0_0 (W (Proc.devRef .tc main_arg6))) := by
  read_line
  rfl

/-- Root weights, layer 0, relation 0. -/
theorem ops0_v80 (W : Valuation τ sig (Elt Ideal)) :
    after hostOps0 W (Proc.devRef .tc main_v80) = wmat ![0, 0, 0, 0] Facts₀.slices_S2x3x128x128_S1x1x128x128_0_0_0_0 (W (Proc.devRef .tc main_arg7)) := by
  read_line
  rfl

/-- Message weights, layer 0, relation 2. -/
theorem ops0_v82 (W : Valuation τ sig (Elt Ideal)) :
    after hostOps0 W (Proc.devRef .tc main_v82) = wmat ![0, 2, 0, 0] Facts₀.slices_S2x3x128x128_S1x1x128x128_0_2_0_0 (W (Proc.devRef .tc main_arg5)) := by
  read_line
  rfl

/-- Bias row, layer 0, relation 2. -/
theorem ops0_v88 (W : Valuation τ sig (Elt Ideal)) :
    after hostOps0 W (Proc.devRef .tc main_v88) = rowOf (bvec ![0, 2, 0] Facts₀.slices_S2x3x128_S1x1x128_0_2_0 (W (Proc.devRef .tc main_arg6))) := by
  read_line
  rfl

/-- Root weights, layer 0, relation 2. -/
theorem ops0_v86 (W : Valuation τ sig (Elt Ideal)) :
    after hostOps0 W (Proc.devRef .tc main_v86) = wmat ![0, 2, 0, 0] Facts₀.slices_S2x3x128x128_S1x1x128x128_0_2_0_0 (W (Proc.devRef .tc main_arg7)) := by
  read_line
  rfl

end Cert.KernelIdeal.HostSide

end
-- ==== Proof.KerHost0d.lean ====
/-
  The first host stretch of the kernel's program writes no argument buffer.
-/
import proofs.«159525_j9775345565891_2_alg».proof.Proof.Gen.KernelIdeal.Frame
import proofs.«159525_j9775345565891_2_alg».proof.Proof.Gen.ReferenceIdeal
import proofs.«159525_j9775345565891_2_alg».proof.Proof.RefChains
import proofs.«159525_j9775345565891_2_alg».proof.Proof.KerForms
import proofs.«159525_j9775345565891_2_alg».proof.Proof.LibHostLine
import Idealize.ShloMosaic.PureOps.Ideal

set_option maxRecDepth 16384

noncomputable section

namespace Cert.KernelIdeal.HostSide

open Idealize.ShloMosaic Idealize.ShloMosaic.TcCoe Idealize.ShloMosaic.StableHlo Idealize.SL.Sem
open Cert.KernelIdeal Cert.KernelIdeal.Gen Cert.KernelIdeal.Facts₀ Cert.KernelIdeal.Forms Cert.HostRun
open Cert.ReferenceIdeal.Chain

theorem keep0_arg0 (W : Valuation τ sig (Elt Ideal)) :
    after hostOps0 W (Proc.devRef .tc main_arg0) = W (Proc.devRef .tc main_arg0) := by
  keep_line [hostOps0]

theorem keep0_arg1 (W : Valuation τ sig (Elt Ideal)) :
    after hostOps0 W (Proc.devRef .tc main_arg1) = W (Proc.devRef .tc main_arg1) := by
  keep_line [hostOps0]

theorem keep0_arg3 (W : Valuation τ sig (Elt Ideal)) :
    after hostOps0 W (Proc.devRef .tc main_arg3) = W (Proc.devRef .tc main_arg3) := by
  keep_line [hostOps0]

theorem keep0_arg5 (W : Valuation τ sig (Elt Ideal)) :
    after hostOps0 W (Proc.devRef .tc main_arg5) = W (Proc.devRef .tc main_arg5) := by
  keep_line [hostOps0]

theorem keep0_arg6 (W : Valuation τ sig (Elt Ideal)) :
    after hostOps0 W (Proc.devRef .tc main_arg6) = W (Proc.devRef .tc main_arg6) := by
  keep_line [hostOps0]

theorem keep0_arg7 (W : Valuation τ sig (Elt Ideal)) :
    after hostOps0 W (Proc.devRef .tc main_arg7) = W (Proc.devRef .tc main_arg7) := by
  keep_line [hostOps0]

theorem keep0_arg8 (W : Valuation τ sig (Elt Ideal)) :
    after hostOps0 W (Proc.devRef .tc main_arg8) = W (Proc.devRef .tc main_arg8) := by
  keep_line [hostOps0]

theorem keep0_arg9 (W : Valuation τ sig (Elt Ideal)) :
    after hostOps0 W (Proc.devRef .tc main_arg9) = W (Proc.devRef .tc main_arg9) := by
  keep_line [hostOps0]

end Cert.KernelIdeal.HostSide

end
-- ==== Proof.KerHost12.lean ====
/-
  The second and third host stretches of the kernel's program.

  The second stretch cuts the first layer's author-relation weights out of the stacked arguments. The third gathers
  the updated paper rows along the paper-to-author edges and sums them into authors, cuts the second layer's
  author-relation weights, and lays the output bias as a one-row array. Neither writes a buffer that an earlier
  segment produced.
-/
import proofs.«159525_j9775345565891_2_alg».proof.Proof.Gen.KernelIdeal.Frame
import proofs.«159525_j9775345565891_2_alg».proof.Proof.Gen.ReferenceIdeal
import proofs.«159525_j9775345565891_2_alg».proof.Proof.RefChains
import proofs.«159525_j9775345565891_2_alg».proof.Proof.KerForms
import proofs.«159525_j9775345565891_2_alg».proof.Proof.LibHostLine
import Idealize.ShloMosaic.PureOps.Ideal

set_option maxRecDepth 16384

noncomputable section

namespace Cert.KernelIdeal.HostSide

open Idealize.ShloMosaic Idealize.ShloMosaic.TcCoe Idealize.ShloMosaic.StableHlo Idealize.SL.Sem
open Cert.KernelIdeal Cert.KernelIdeal.Gen Cert.KernelIdeal.Facts₀ Cert.KernelIdeal.Forms Cert.HostRun
open Cert.ReferenceIdeal.Chain

/-- Message weights, layer 0, relation 1. -/
theorem ops1_v91 (W : Valuation τ sig (Elt Ideal)) :
    after hostOps1 W (Proc.devRef .tc main_v91) = wmat ![0, 1, 0, 0] Facts₀.slices_S2x3x128x128_S1x1x128x128_0_1_0_0 (W (Proc.devRef .tc main_arg5)) := by
  read_line
  rfl

/-- Bias row, layer 0, relation 1. -/
theorem ops1_v96 (W : Valuation τ sig (Elt Ideal)) :
    after hostOps1 W (Proc.devRef .tc main_v96) = rowOf (bvec ![0, 1, 0] Facts₀.slices_S2x3x128_S1x1x128_0_1_0 (W (Proc.devRef .tc main_arg6))) := by
  read_line
  rfl

/-- Root weights, layer 0, relation 1. -/
theorem ops1_v95 (W : Valuation τ sig (Elt Ideal)) :
    after hostOps1 W (Proc.devRef .tc main_v95) = wmat ![0, 1, 0, 0] Facts₀.slices_S2x3x128x128_S1x1x128x128_0_1_0_0 (W (Proc.devRef .tc main_arg7)) := by
  read_line
  rfl

theorem keep1_v46 (W : Valuation τ sig (Elt Ideal)) :
    after hostOps1 W (Proc.devRef .tc main_v46) = W (Proc.devRef .tc main_v46) := by
  keep_line [hostOps1]

theorem keep1_v10 (W : Valuation τ sig (Elt Ideal)) :
    after hostOps1 W (Proc.devRef .tc main_v10) = W (Proc.devRef .tc main_v10) := by
  keep_line [hostOps1]

theorem keep1_arg0 (W : Valuation τ sig (Elt Ideal)) :
    after hostOps1 W (Proc.devRef .tc main_arg0) = W (Proc.devRef .tc main_arg0) := by
  keep_line [hostOps1]

theorem keep1_v89 (W : Valuation τ sig (Elt Ideal)) :
    after hostOps1 W (Proc.devRef .tc main_v89) = W (Proc.devRef .tc main_v89) := by
  keep_line [hostOps1]

theorem keep1_arg3 (W : Valuation τ sig (Elt Ideal)) :
    after hostOps1 W (Proc.devRef .tc main_arg3) = W (Proc.devRef .tc main_arg3) := by
  keep_line [hostOps1]

theorem keep1_arg5 (W : Valuation τ sig (Elt Ideal)) :
    after hostOps1 W (Proc.devRef .tc main_arg5) = W (Proc.devRef .tc main_arg5) := by
  keep_line [hostOps1]

theorem keep1_arg6 (W : Valuation τ sig (Elt Ideal)) :
    after hostOps1 W (Proc.devRef .tc main_arg6) = W (Proc.devRef .tc main_arg6) := by
  keep_line [hostOps1]

theorem keep1_arg7 (W : Valuation τ sig (Elt Ideal)) :
    after hostOps1 W (Proc.devRef .tc main_arg7) = W (Proc.devRef .tc main_arg7) := by
  keep_line [hostOps1]

theorem keep1_arg8 (W : Valuation τ sig (Elt Ideal)) :
    after hostOps1 W (Proc.devRef .tc main_arg8) = W (Proc.devRef .tc main_arg8) := by
  keep_line [hostOps1]

theorem keep1_arg9 (W : Valuation τ sig (Elt Ideal)) :
    after hostOps1 W (Proc.devRef .tc main_arg9) = W (Proc.devRef .tc main_arg9) := by
  keep_line [hostOps1]

attribute [local irreducible] Host.gather Host.scatterAdd in
/-- Updated paper rows summed into authors along the paper-to-author edges. -/
theorem ops2_v111 (W : Valuation τ sig (Elt Ideal)) :
    after hostOps2 W (Proc.devRef .tc main_v111) = aggr (W (Proc.devRef .tc main_v89)) (W (Proc.devRef .tc main_arg3)) := by
  read_line
  rfl

/-- Message weights, layer 1, relation 1. -/
theorem ops2_v113 (W : Valuation τ sig (Elt Ideal)) :
    after hostOps2 W (Proc.devRef .tc main_v113) = wmat ![1, 1, 0, 0] Facts₀.slices_S2x3x128x128_S1x1x128x128_1_1_0_0 (W (Proc.devRef .tc main_arg5)) := by
  read_line
  rfl

/-- Bias row, layer 1, relation 1. -/
theorem ops2_v118 (W : Valuation τ sig (Elt Ideal)) :
    after hostOps2 W (Proc.devRef .tc main_v118) = rowOf (bvec ![1, 1, 0] Facts₀.slices_S2x3x128_S1x1x128_1_1_0 (W (Proc.devRef .tc main_arg6))) := by
  read_line
  rfl

/-- Root weights, layer 1, relation 1. -/
theorem ops2_v117 (W : Valuation τ sig (Elt Ideal)) :
    after hostOps2 W (Proc.devRef .tc main_v117) = wmat ![1, 1, 0, 0] Facts₀.slices_S2x3x128x128_S1x1x128x128_1_1_0_0 (W (Proc.devRef .tc main_arg7)) := by
  read_line
  rfl

/-- The output bias as a one-row array. -/
theorem ops2_v119 (W : Valuation τ sig (Elt Ideal)) :
    after hostOps2 W (Proc.devRef .tc main_v119) = rowOf32 (W (Proc.devRef .tc main_arg9)) := by
  read_line
  rfl

theorem keep2_v10 (W : Valuation τ sig (Elt Ideal)) :
    after hostOps2 W (Proc.devRef .tc main_v10) = W (Proc.devRef .tc main_v10) := by
  keep_line [hostOps2]

theorem keep2_v97 (W : Valuation τ sig (Elt Ideal)) :
    after hostOps2 W (Proc.devRef .tc main_v97) = W (Proc.devRef .tc main_v97) := by
  keep_line [hostOps2]

theorem keep2_arg8 (W : Valuation τ sig (Elt Ideal)) :
    after hostOps2 W (Proc.devRef .tc main_arg8) = W (Proc.devRef .tc main_arg8) := by
  keep_line [hostOps2]

end Cert.KernelIdeal.HostSide

end
-- ==== Proof.NetSpec.lean ====
/-
  The formulas of a two-layer heterogeneous graph network at one entry, over the extended reals.

  A destination node's new feature d is, per relation that reaches its node type, the mean of its in-neighbours'
  features sent through the relation's message weights, plus the relation's bias, plus the node's own features sent
  through the relation's root weights; the relations' terms are added and a leaky rectifier is applied. The output
  head is one more product with a bias. The mean is a PARAMETER here: one program divides the neighbour sum by the
  in-degree floored at one, the other multiplies it by the reciprocal of that degree, and the two are compared where
  these formulas are used.
-/
import Idealize.ShloMosaic.PureOps.Ideal
import Idealize.ShloMosaic.Lib.ValueIdx

noncomputable section

open scoped BigOperators

namespace Cert.Net

open Idealize.ShloMosaic

/-- The leaky rectifier, the slope kept as its binary32 word: x where x ≥ 0, slope · x elsewhere. -/
def leaky (x : EReal) : EReal :=
  Scalar.select (FloatOps.cmpf (F := Ideal) (φ := .f32) .oge x (Ideal.ofBits .f32 0x00000000#32)) x
    (Ideal.ofBits .f32 0x3C23D70A#32 * x)

/-- One relation's term at destination row r, feature d: (Σ_k mean r k · Wl k d + b d) + Σ_k x r k · Wr k d. -/
def sage {n : ℕ} (mean x : Fin n → Fin 128 → EReal) (Wl Wr : Fin 128 → Fin 128 → EReal) (b : Fin 128 → EReal)
    (r : Fin n) (d : Fin 128) : EReal :=
  ((∑ k : Fin 128, mean r k * Wl k d) + b d) + ∑ k : Fin 128, x r k * Wr k d

/-- The output head at row r, output o: Σ_k h r k · W k o + b o. -/
def head {n : ℕ} (h : Fin n → Fin 128 → EReal) (W : Fin 128 → Fin 32 → EReal) (b : Fin 32 → EReal)
    (r : Fin n) (o : Fin 32) : EReal :=
  (∑ k : Fin 128, h r k * W k o) + b o

end Cert.Net

end
-- ==== Proof.KerRegion0.lean ====
/-
  The paper update of the first layer, from blocks to the whole array.

  The region walks 25 grid points; point t reads rows 2000·t … 2000·t + 1999 of the two neighbour sums (along the
  author-to-paper and the paper-to-paper edges), of their reciprocal degree columns and of the paper features, the whole
  weight slabs and bias rows of the two relations, and writes the same rows of the result. Entry (r, d) of the result
  is the rectified sum of the two relations' layer terms at (r, d), each mean a neighbour sum times a reciprocal
  degree. The blocks cover the array, so the array after the region is that function everywhere.
-/
import proofs.«159525_j9775345565891_2_alg».proof.Proof.Gen.KernelIdeal.Frame
import proofs.«159525_j9775345565891_2_alg».proof.Proof.NetSpec
import Idealize.ShloMosaic.Lib.Pipeline.Value
import Idealize.ShloMosaic.Lib.ValueIdx

set_option maxRecDepth 16384

noncomputable section

namespace Cert.KernelIdeal.Region0

open Idealize.ShloMosaic Idealize.ShloMosaic.TcCoe Idealize.ShloMosaic.ValueIdx Idealize.SL.Sem
open Cert.KernelIdeal Cert.KernelIdeal.Gen
open Idealize.ShloMosaic.Pipeline (Dat Cfg Window)

variable (V : (c : Dev nD) → (b : Ref sig .tc) → Buf (Elt Ideal) ((c : Thread nD τ).loc b))

/-- The result array as one function of the region's input arrays. -/
def G (A0 : S50000x128.Idx → EReal) (I0 : S50000x1.Idx → EReal) (A2 : S50000x128.Idx → EReal) (I2 : S50000x1.Idx → EReal)
    (X : S50000x128.Idx → EReal) (Wl0 : S128x128.Idx → EReal) (b0 : S1x128.Idx → EReal) (Wr0 : S128x128.Idx → EReal)
    (Wl2 : S128x128.Idx → EReal) (b2 : S1x128.Idx → EReal) (Wr2 : S128x128.Idx → EReal) : S50000x128.Idx → EReal :=
  fun i => Cert.Net.leaky (
    Cert.Net.sage (fun r k => A0 (ix2 r k) * I0 (ix2 r (0 : Fin 1))) (fun r k => X (ix2 r k))
      (fun k d => Wl0 (ix2 k d)) (fun k d => Wr0 (ix2 k d)) (fun d => b0 (ix2 (0 : Fin 1) d)) (i 0) (i 1)
    + Cert.Net.sage (fun r k => A2 (ix2 r k) * I2 (ix2 r (0 : Fin 1))) (fun r k => X (ix2 r k))
      (fun k d => Wl2 (ix2 k d)) (fun k d => Wr2 (ix2 k d)) (fun d => b2 (ix2 (0 : Fin 1) d)) (i 0) (i 1))

/-- The index maps over the grid: the row-tiled windows move with the output's block row, the whole windows stay at
    block (0, 0), and the output's block row is below 25. -/
theorem idx_facts : ∀ t : Fin cfg0.N,
    win0_0.index t (0 : Fin 2) = win0_11.index t (0 : Fin 2) ∧ win0_0.index t (1 : Fin 2) = 0
    ∧ win0_1.index t (0 : Fin 2) = win0_11.index t (0 : Fin 2) ∧ win0_1.index t (1 : Fin 2) = 0
    ∧ win0_2.index t (0 : Fin 2) = win0_11.index t (0 : Fin 2) ∧ win0_2.index t (1 : Fin 2) = 0
    ∧ win0_3.index t (0 : Fin 2) = win0_11.index t (0 : Fin 2) ∧ win0_3.index t (1 : Fin 2) = 0
    ∧ win0_4.index t (0 : Fin 2) = win0_11.index t (0 : Fin 2) ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_11.index t (0 : Fin 2) < 25 ∧ win0_11.index t (1 : Fin 2) = 0 :=
  (by decide +kernel : ∀ t : Fin grid0.N, _)

/-- Every block row below 25 is some point's. -/
theorem idx_onto : ∀ q0 : Fin 25, ∃ t : Fin cfg0.N, win0_11.index t (0 : Fin 2) = q0.val :=
  (by decide +kernel : ∀ q0 : Fin 25, ∃ t : Fin grid0.N, win0_11.index t (0 : Fin 2) = q0.val)

/-- What point `t` writes back is block `t` of `G` of the arrays as the region finds them, given the body's output
    block at an entry as the formula of its input blocks. -/
theorem flushed_eq
    (hbody : ∀ (x0 : Vec Ideal S2000x128 .f32) (x1 : Vec Ideal S2000x1 .f32) (x2 : Vec Ideal S2000x128 .f32) (x3 : Vec Ideal S2000x1 .f32)
      (x4 : Vec Ideal S2000x128 .f32) (x5 : Vec Ideal S128x128 .f32) (x6 : Vec Ideal S1x128 .f32) (x7 : Vec Ideal S128x128 .f32)
      (x8 : Vec Ideal S128x128 .f32) (x9 : Vec Ideal S1x128 .f32) (x10 : Vec Ideal S128x128 .f32) (p : Fin 2000) (q : Fin 128),
      out0_11 (F := Ideal) x0 x1 x2 x3 x4 x5 x6 x7 x8 x9 x10 (ix2 p q)
        = Cert.Net.leaky (
            Cert.Net.sage (fun r k => x0 (ix2 r k) * x1 (ix2 r (0 : Fin 1))) (fun r k => x4 (ix2 r k))
              (fun k d => x5 (ix2 k d)) (fun k d => x7 (ix2 k d)) (fun d => x6 (ix2 (0 : Fin 1) d)) p q
            + Cert.Net.sage (fun r k => x2 (ix2 r k) * x3 (ix2 r (0 : Fin 1))) (fun r k => x4 (ix2 r k))
              (fun k d => x8 (ix2 k d)) (fun k d => x10 (ix2 k d)) (fun d => x9 (ix2 (0 : Fin 1) d)) p q))
    (c : Dev nD) (t : Fin cfg0.N) :
    (dat0 V c).flushed 11 t = ((cfg0.win 11).blk t).view.read (Elt Ideal) (G (V c main_v60) (V c main_v21) (V c main_v74) (V c main_v32) (V c main_arg1) (V c main_v76) (V c main_v87) (V c main_v80) (V c main_v82) (V c main_v88) (V c main_v86)) := by
  show (cfg0.win 11).cut (grid0.coords t) ((dat0 V c).after 11 t) = _
  rw [after0_11]
  funext j
  obtain ⟨p, q, rfl⟩ : ∃ (p : Fin 2000) (q : Fin 128), j = ix2 p q := ⟨j 0, j 1, eq_ix2 j⟩
  show out0_11 (F := Ideal) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (ix2 p q)
    = G (V c main_v60) (V c main_v21) (V c main_v74) (V c main_v32) (V c main_arg1) (V c main_v76) (V c main_v87) (V c main_v80) (V c main_v82) (V c main_v88) (V c main_v86) (((cfg0.win 11).blk t).view.emb (ix2 p q))
  refine (hbody _ _ _ _ _ _ _ _ _ _ _ p q).trans ?_
  obtain ⟨e00, e01, e10, e11, e20, e21, e30, e31, e40, e41, e50, e51, e60, e61, e70, e71, e80, e81, e90, e91, ea0, ea1, eblt, eb1⟩ := idx_facts t
  have hp : p.val < 2000 := p.isLt
  have hR : win0_11.index t (0 : Fin 2) * 2000 + p.val < 50000 := by omega
  have hout : ((cfg0.win 11).blk t).view.emb (ix2 p q) = ix2 (⟨win0_11.index t (0 : Fin 2) * 2000 + p.val, hR⟩ : Fin 50000) q := by
    funext a; apply Fin.ext
    match a with
    | ⟨0, _⟩ => show win0_11.index t (0 : Fin 2) * 2000 + 1 * p.val = win0_11.index t (0 : Fin 2) * 2000 + p.val; omega
    | ⟨1, _⟩ => show win0_11.index t (1 : Fin 2) * 128 + 1 * q.val = q.val; omega
  have r0 : ∀ k : Fin 128, iblk0 V c 0 t (ix2 p k) = V c main_v60 (ix2 (⟨win0_11.index t (0 : Fin 2) * 2000 + p.val, hR⟩ : Fin 50000) k) := fun k => by
    show V c main_v60 (((cfg0.win 0).blk t).view.emb (ix2 p k)) = _
    refine congrArg (V c main_v60) ?_
    funext a; apply Fin.ext
    match a with
    | ⟨0, _⟩ => show win0_0.index t (0 : Fin 2) * 2000 + 1 * p.val = win0_11.index t (0 : Fin 2) * 2000 + p.val; omega
    | ⟨1, _⟩ => show win0_0.index t (1 : Fin 2) * 128 + 1 * k.val = k.val; omega
  have r1 : iblk0 V c 1 t (ix2 p (0 : Fin 1)) = V c main_v21 (ix2 (⟨win0_11.index t (0 : Fin 2) * 2000 + p.val, hR⟩ : Fin 50000) (0 : Fin 1)) := by
    show V c main_v21 (((cfg0.win 1).blk t).view.emb (ix2 p (0 : Fin 1))) = _
    refine congrArg (V c main_v21) ?_
    funext a; apply Fin.ext
    match a with
    | ⟨0, _⟩ => show win0_1.index t (0 : Fin 2) * 2000 + 1 * p.val = win0_11.index t (0 : Fin 2) * 2000 + p.val; omega
    | ⟨1, _⟩ => show win0_1.index t (1 : Fin 2) * 1 + 1 * 0 = 0; omega
  have r2 : ∀ k : Fin 128, iblk0 V c 2 t (ix2 p k) = V c main_v74 (ix2 (⟨win0_11.index t (0 : Fin 2) * 2000 + p.val, hR⟩ : Fin 50000) k) := fun k => by
    show V c main_v74 (((cfg0.win 2).blk t).view.emb (ix2 p k)) = _
    refine congrArg (V c main_v74) ?_
    funext a; apply Fin.ext
    match a with
    | ⟨0, _⟩ => show win0_2.index t (0 : Fin 2) * 2000 + 1 * p.val = win0_11.index t (0 : Fin 2) * 2000 + p.val; omega
    | ⟨1, _⟩ => show win0_2.index t (1 : Fin 2) * 128 + 1 * k.val = k.val; omega
  have r3 : iblk0 V c 3 t (ix2 p (0 : Fin 1)) = V c main_v32 (ix2 (⟨win0_11.index t (0 : Fin 2) * 2000 + p.val, hR⟩ : Fin 50000) (0 : Fin 1)) := by
    show V c main_v32 (((cfg0.win 3).blk t).view.emb (ix2 p (0 : Fin 1))) = _
    refine congrArg (V c main_v32) ?_
    funext a; apply Fin.ext
    match a with
    | ⟨0, _⟩ => show win0_3.index t (0 : Fin 2) * 2000 + 1 * p.val = win0_11.index t (0 : Fin 2) * 2000 + p.val; omega
    | ⟨1, _⟩ => show win0_3.index t (1 : Fin 2) * 1 + 1 * 0 = 0; omega
  have r4 : ∀ k : Fin 128, iblk0 V c 4 t (ix2 p k) = V c main_arg1 (ix2 (⟨win0_11.index t (0 : Fin 2) * 2000 + p.val, hR⟩ : Fin 50000) k) := fun k => by
    show V c main_arg1 (((cfg0.win 4).blk t).view.emb (ix2 p k)) = _
    refine congrArg (V c main_arg1) ?_
    funext a; apply Fin.ext
    match a with
    | ⟨0, _⟩ => show win0_4.index t (0 : Fin 2) * 2000 + 1 * p.val = win0_11.index t (0 : Fin 2) * 2000 + p.val; omega
    | ⟨1, _⟩ => show win0_4.index t (1 : Fin 2) * 128 + 1 * k.val = k.val; omega
  have r5 : ∀ (k : Fin 128) (d : Fin 128), iblk0 V c 5 t (ix2 k d) = V c main_v76 (ix2 k d) := fun k d => by
    show V c main_v76 (((cfg0.win 5).blk t).view.emb (ix2 k d)) = _
    refine congrArg (V c main_v76) ?_
    funext a; apply Fin.ext
    match a with
    | ⟨0, _⟩ => show win0_5.index t (0 : Fin 2) * 128 + 1 * k.val = k.val; omega
    | ⟨1, _⟩ => show win0_5.index t (1 : Fin 2) * 128 + 1 * d.val = d.val; omega
  have r6 : ∀ d : Fin 128, iblk0 V c 6 t (ix2 (0 : Fin 1) d) = V c main_v87 (ix2 (0 : Fin 1) d) := fun d => by
    show V c main_v87 (((cfg0.win 6).blk t).view.emb (ix2 (0 : Fin 1) d)) = _
    refine congrArg (V c main_v87) ?_
    funext a; apply Fin.ext
    match a with
    | ⟨0, _⟩ => show win0_6.index t (0 : Fin 2) * 1 + 1 * 0 = 0; omega
    | ⟨1, _⟩ => show win0_6.index t (1 : Fin 2) * 128 + 1 * d.val = d.val; omega
  have r7 : ∀ (k : Fin 128) (d : Fin 128), iblk0 V c 7 t (ix2 k d) = V c main_v80 (ix2 k d) := fun k d => by
    show V c main_v80 (((cfg0.win 7).blk t).view.emb (ix2 k d)) = _
    refine congrArg (V c main_v80) ?_
    funext a; apply Fin.ext
    match a with
    | ⟨0, _⟩ => show win0_7.index t (0 : Fin 2) * 128 + 1 * k.val = k.val; omega
    | ⟨1, _⟩ => show win0_7.index t (1 : Fin 2) * 128 + 1 * d.val = d.val; omega
  have r8 : ∀ (k : Fin 128) (d : Fin 128), iblk0 V c 8 t (ix2 k d) = V c main_v82 (ix2 k d) := fun k d => by
    show V c main_v82 (((cfg0.win 8).blk t).view.emb (ix2 k d)) = _
    refine congrArg (V c main_v82) ?_
    funext a; apply Fin.ext
    match a with
    | ⟨0, _⟩ => show win0_8.index t (0 : Fin 2) * 128 + 1 * k.val = k.val; omega
    | ⟨1, _⟩ => show win0_8.index t (1 : Fin 2) * 128 + 1 * d.val = d.val; omega
  have r9 : ∀ d : Fin 128, iblk0 V c 9 t (ix2 (0 : Fin 1) d) = V c main_v88 (ix2 (0 : Fin 1) d) := fun d => by
    show V c main_v88 (((cfg0.win 9).blk t).view.emb (ix2 (0 : Fin 1) d)) = _
    refine congrArg (V c main_v88) ?_
    funext a; apply Fin.ext
    match a with
    | ⟨0, _⟩ => show win0_9.index t (0 : Fin 2) * 1 + 1 * 0 = 0; omega
    | ⟨1, _⟩ => show win0_9.index t (1 : Fin 2) * 128 + 1 * d.val = d.val; omega
  have r10 : ∀ (k : Fin 128) (d : Fin 128), iblk0 V c 10 t (ix2 k d) = V c main_v86 (ix2 k d) := fun k d => by
    show V c main_v86 (((cfg0.win 10).blk t).view.emb (ix2 k d)) = _
    refine congrArg (V c main_v86) ?_
    funext a; apply Fin.ext
    match a with
    | ⟨0, _⟩ => show win0_10.index t (0 : Fin 2) * 128 + 1 * k.val = k.val; omega
    | ⟨1, _⟩ => show win0_10.index t (1 : Fin 2) * 128 + 1 * d.val = d.val; omega
  rw [hout]
  unfold G
  refine congrArg Cert.Net.leaky ?_
  simp only [Cert.Net.sage, r0, r1, r2, r3, r4, r5, r6, r7, r8, r9, r10]

/-- An index of the array is in point `t`'s block iff each coordinate is in the block's range on its axis. -/
theorem mem_blk (t : Fin cfg0.N) (i : S50000x128.Idx) :
    i ∈ ((cfg0.win 11).blk t).view.set ↔ ∀ a : Fin 2, win0_11.index t a * S2000x128.size a ≤ (i a).val ∧ (i a).val < win0_11.index t a * S2000x128.size a + S2000x128.size a := by
  show i ∈ ((View.whole main_v89).slice (win0_11.rect t)).set ↔ _
  rw [View.set_slice_whole, Rect.mem_set_unit]
  exact Iff.rfl

/-- Every entry of the array lies in the block of the point whose block row is the entry's row divided by 2000. -/
theorem cover (i : S50000x128.Idx) : ∃ t : Fin cfg0.N, (cfg0.win 11).flush t = true ∧ i ∈ ((cfg0.win 11).blk t).view.set := by
  have hi0 : (i 0).val < 50000 := (i 0).isLt
  have hi1 : (i 1).val < 128 := (i 1).isLt
  obtain ⟨t, ht⟩ := idx_onto ⟨(i 0).val / 2000, by omega⟩
  have q0 : win0_11.index t (0 : Fin 2) = (i 0).val / 2000 := ht
  have eb1 : win0_11.index t (1 : Fin 2) = 0 := (idx_facts t).2.2.2.2.2.2.2.2.2.2.2.2.2.2.2.2.2.2.2.2.2.2.2
  refine ⟨t, flush0_11 t, ?_⟩
  rw [mem_blk]
  intro a
  match a with
  | ⟨0, _⟩ => show win0_11.index t (0 : Fin 2) * 2000 ≤ (i 0).val ∧ (i 0).val < win0_11.index t (0 : Fin 2) * 2000 + 2000; omega
  | ⟨1, _⟩ => show win0_11.index t (1 : Fin 2) * 128 ≤ (i 1).val ∧ (i 1).val < win0_11.index t (1 : Fin 2) * 128 + 128; omega

/-- The result array after the region is `G` of the arrays as the region finds them. -/
theorem final
    (hbody : ∀ (x0 : Vec Ideal S2000x128 .f32) (x1 : Vec Ideal S2000x1 .f32) (x2 : Vec Ideal S2000x128 .f32) (x3 : Vec Ideal S2000x1 .f32)
      (x4 : Vec Ideal S2000x128 .f32) (x5 : Vec Ideal S128x128 .f32) (x6 : Vec Ideal S1x128 .f32) (x7 : Vec Ideal S128x128 .f32)
      (x8 : Vec Ideal S128x128 .f32) (x9 : Vec Ideal S1x128 .f32) (x10 : Vec Ideal S128x128 .f32) (p : Fin 2000) (q : Fin 128),
      out0_11 (F := Ideal) x0 x1 x2 x3 x4 x5 x6 x7 x8 x9 x10 (ix2 p q)
        = Cert.Net.leaky (
            Cert.Net.sage (fun r k => x0 (ix2 r k) * x1 (ix2 r (0 : Fin 1))) (fun r k => x4 (ix2 r k))
              (fun k d => x5 (ix2 k d)) (fun k d => x7 (ix2 k d)) (fun d => x6 (ix2 (0 : Fin 1) d)) p q
            + Cert.Net.sage (fun r k => x2 (ix2 r k) * x3 (ix2 r (0 : Fin 1))) (fun r k => x4 (ix2 r k))
              (fun k d => x8 (ix2 k d)) (fun k d => x10 (ix2 k d)) (fun d => x9 (ix2 (0 : Fin 1) d)) p q))
    (c : Dev nD) :
    (dat0 V c).arrAt 11 cfg0.N = G (V c main_v60) (V c main_v21) (V c main_v74) (V c main_v32) (V c main_arg1) (V c main_v76) (V c main_v87) (V c main_v80) (V c main_v82) (V c main_v88) (V c main_v86) :=
  (dat0 V c).arrAt_eq_of_cover 11 _ (fun t _ => flushed_eq V hbody c t) cover

end Cert.KernelIdeal.Region0

end
-- ==== Proof.KerRegion1.lean ====
/-
  The author update of the first layer, from blocks to the whole array.

  The region walks 25 grid points; point t reads rows 2000·t … 2000·t + 1999 of the neighbour sum, of the reciprocal
  degree column and of the node features, the whole weight slabs and bias row, and writes the same rows of the result.
  So entry (r, d) of the result array depends only on row r of the row-tiled inputs: it is the layer formula at (r, d),
  the mean being the neighbour sum times the reciprocal degree. The blocks cover the array, so the array after the
  region is that function everywhere.
-/
import proofs.«159525_j9775345565891_2_alg».proof.Proof.Gen.KernelIdeal.Frame
import proofs.«159525_j9775345565891_2_alg».proof.Proof.NetSpec
import Idealize.ShloMosaic.Lib.Pipeline.Value
import Idealize.ShloMosaic.Lib.ValueIdx

set_option maxRecDepth 16384

noncomputable section

namespace Cert.KernelIdeal.Region1

open Idealize.ShloMosaic Idealize.ShloMosaic.TcCoe Idealize.ShloMosaic.ValueIdx Idealize.SL.Sem
open Cert.KernelIdeal Cert.KernelIdeal.Gen
open Idealize.ShloMosaic.Pipeline (Dat Cfg Window)

variable (V : (c : Dev nD) → (b : Ref sig .tc) → Buf (Elt Ideal) ((c : Thread nD τ).loc b))

/-- The result array as one function of the region's input arrays: at (r, d) the rectified layer term whose mean is
    row r of the neighbour sum `A` times the reciprocal degree `I` of row r. -/
def G (A : S50000x128.Idx → EReal) (I : S50000x1.Idx → EReal) (X : S50000x128.Idx → EReal)
    (Wl : S128x128.Idx → EReal) (b : S1x128.Idx → EReal) (Wr : S128x128.Idx → EReal) : S50000x128.Idx → EReal :=
  fun i => Cert.Net.leaky (Cert.Net.sage (fun r k => A (ix2 r k) * I (ix2 r (0 : Fin 1))) (fun r k => X (ix2 r k))
    (fun k d => Wl (ix2 k d)) (fun k d => Wr (ix2 k d)) (fun d => b (ix2 (0 : Fin 1) d)) (i 0) (i 1))

/-- The index maps over the grid: the row-tiled windows move with the output's block row, the whole windows stay at
    block (0, 0), and the output's block row is below 25. -/
theorem idx_facts : ∀ t : Fin cfg1.N,
    win1_0.index t (0 : Fin 2) = win1_6.index t (0 : Fin 2) ∧ win1_0.index t (1 : Fin 2) = 0
    ∧ win1_1.index t (0 : Fin 2) = win1_6.index t (0 : Fin 2) ∧ win1_1.index t (1 : Fin 2) = 0
    ∧ win1_2.index t (0 : Fin 2) = win1_6.index t (0 : Fin 2) ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) < 25 ∧ win1_6.index t (1 : Fin 2) = 0 :=
  (by decide +kernel : ∀ t : Fin grid1.N, _)

/-- Every block row below 25 is some point's. -/
theorem idx_onto : ∀ q0 : Fin 25, ∃ t : Fin cfg1.N, win1_6.index t (0 : Fin 2) = q0.val :=
  (by decide +kernel : ∀ q0 : Fin 25, ∃ t : Fin grid1.N, win1_6.index t (0 : Fin 2) = q0.val)

/-- What point `t` writes back is block `t` of `G` of the arrays as the region finds them, given the body's output
    block at an entry as the layer formula of its input blocks. -/
theorem flushed_eq
    (hbody : ∀ (x0 : Vec Ideal S2000x128 .f32) (x1 : Vec Ideal S2000x1 .f32) (x2 : Vec Ideal S2000x128 .f32)
      (x3 : Vec Ideal S128x128 .f32) (x4 : Vec Ideal S1x128 .f32) (x5 : Vec Ideal S128x128 .f32) (p : Fin 2000) (q : Fin 128),
      out1_6 (F := Ideal) x0 x1 x2 x3 x4 x5 (ix2 p q)
        = Cert.Net.leaky (Cert.Net.sage (fun r k => x0 (ix2 r k) * x1 (ix2 r (0 : Fin 1))) (fun r k => x2 (ix2 r k))
            (fun k d => x3 (ix2 k d)) (fun k d => x5 (ix2 k d)) (fun d => x4 (ix2 (0 : Fin 1) d)) p q))
    (c : Dev nD) (t : Fin cfg1.N) :
    (dat1 V c).flushed 6 t = ((cfg1.win 6).blk t).view.read (Elt Ideal)
      (G (V c main_v46) (V c main_v10) (V c main_arg0) (V c main_v91) (V c main_v96) (V c main_v95)) := by
  show (cfg1.win 6).cut (grid1.coords t) ((dat1 V c).after 6 t) = _
  rw [after1_6]
  funext j
  obtain ⟨p, q, rfl⟩ : ∃ (p : Fin 2000) (q : Fin 128), j = ix2 p q := ⟨j 0, j 1, eq_ix2 j⟩
  show out1_6 (F := Ideal) (iblk1 V c 0 t) (iblk1 V c 1 t) (iblk1 V c 2 t) (iblk1 V c 3 t) (iblk1 V c 4 t) (iblk1 V c 5 t) (ix2 p q)
    = G (V c main_v46) (V c main_v10) (V c main_arg0) (V c main_v91) (V c main_v96) (V c main_v95) (((cfg1.win 6).blk t).view.emb (ix2 p q))
  refine (hbody _ _ _ _ _ _ p q).trans ?_
  obtain ⟨e00, e01, e10, e11, e20, e21, e30, e31, e40, e41, e50, e51, e6lt, e61⟩ := idx_facts t
  have hp : p.val < 2000 := p.isLt
  have hR : win1_6.index t (0 : Fin 2) * 2000 + p.val < 50000 := by omega
  have hout : ((cfg1.win 6).blk t).view.emb (ix2 p q) = ix2 (⟨win1_6.index t (0 : Fin 2) * 2000 + p.val, hR⟩ : Fin 50000) q := by
    funext a; apply Fin.ext
    match a with
    | ⟨0, _⟩ => show win1_6.index t (0 : Fin 2) * 2000 + 1 * p.val = win1_6.index t (0 : Fin 2) * 2000 + p.val; omega
    | ⟨1, _⟩ => show win1_6.index t (1 : Fin 2) * 128 + 1 * q.val = q.val; omega
  have r0 : ∀ k : Fin 128, iblk1 V c 0 t (ix2 p k) = V c main_v46 (ix2 (⟨win1_6.index t (0 : Fin 2) * 2000 + p.val, hR⟩ : Fin 50000) k) := fun k => by
    show V c main_v46 (((cfg1.win 0).blk t).view.emb (ix2 p k)) = _
    refine congrArg (V c main_v46) ?_
    funext a; apply Fin.ext
    match a with
    | ⟨0, _⟩ => show win1_0.index t (0 : Fin 2) * 2000 + 1 * p.val = win1_6.index t (0 : Fin 2) * 2000 + p.val; omega
    | ⟨1, _⟩ => show win1_0.index t (1 : Fin 2) * 128 + 1 * k.val = k.val; omega
  have r1 : iblk1 V c 1 t (ix2 p (0 : Fin 1)) = V c main_v10 (ix2 (⟨win1_6.index t (0 : Fin 2) * 2000 + p.val, hR⟩ : Fin 50000) (0 : Fin 1)) := by
    show V c main_v10 (((cfg1.win 1).blk t).view.emb (ix2 p (0 : Fin 1))) = _
    refine congrArg (V c main_v10) ?_
    funext a; apply Fin.ext
    match a with
    | ⟨0, _⟩ => show win1_1.index t (0 : Fin 2) * 2000 + 1 * p.val = win1_6.index t (0 : Fin 2) * 2000 + p.val; omega
    | ⟨1, _⟩ => show win1_1.index t (1 : Fin 2) * 1 + 1 * 0 = 0; omega
  have r2 : ∀ k : Fin 128, iblk1 V c 2 t (ix2 p k) = V c main_arg0 (ix2 (⟨win1_6.index t (0 : Fin 2) * 2000 + p.val, hR⟩ : Fin 50000) k) := fun k => by
    show V c main_arg0 (((cfg1.win 2).blk t).view.emb (ix2 p k)) = _
    refine congrArg (V c main_arg0) ?_
    funext a; apply Fin.ext
    match a with
    | ⟨0, _⟩ => show win1_2.index t (0 : Fin 2) * 2000 + 1 * p.val = win1_6.index t (0 : Fin 2) * 2000 + p.val; omega
    | ⟨1, _⟩ => show win1_2.index t (1 : Fin 2) * 128 + 1 * k.val = k.val; omega
  have r3 : ∀ (k d : Fin 128), iblk1 V c 3 t (ix2 k d) = V c main_v91 (ix2 k d) := fun k d => by
    show V c main_v91 (((cfg1.win 3).blk t).view.emb (ix2 k d)) = _
    refine congrArg (V c main_v91) ?_
    funext a; apply Fin.ext
    match a with
    | ⟨0, _⟩ => show win1_3.index t (0 : Fin 2) * 128 + 1 * k.val = k.val; omega
    | ⟨1, _⟩ => show win1_3.index t (1 : Fin 2) * 128 + 1 * d.val = d.val; omega
  have r4 : ∀ d : Fin 128, iblk1 V c 4 t (ix2 (0 : Fin 1) d) = V c main_v96 (ix2 (0 : Fin 1) d) := fun d => by
    show V c main_v96 (((cfg1.win 4).blk t).view.emb (ix2 (0 : Fin 1) d)) = _
    refine congrArg (V c main_v96) ?_
    funext a; apply Fin.ext
    match a with
    | ⟨0, _⟩ => show win1_4.index t (0 : Fin 2) * 1 + 1 * 0 = 0; omega
    | ⟨1, _⟩ => show win1_4.index t (1 : Fin 2) * 128 + 1 * d.val = d.val; omega
  have r5 : ∀ (k d : Fin 128), iblk1 V c 5 t (ix2 k d) = V c main_v95 (ix2 k d) := fun k d => by
    show V c main_v95 (((cfg1.win 5).blk t).view.emb (ix2 k d)) = _
    refine congrArg (V c main_v95) ?_
    funext a; apply Fin.ext
    match a with
    | ⟨0, _⟩ => show win1_5.index t (0 : Fin 2) * 128 + 1 * k.val = k.val; omega
    | ⟨1, _⟩ => show win1_5.index t (1 : Fin 2) * 128 + 1 * d.val = d.val; omega
  rw [hout]
  unfold G
  refine congrArg Cert.Net.leaky ?_
  simp only [Cert.Net.sage, r0, r1, r2, r3, r4, r5]

/-- An index of the array is in point `t`'s block iff each coordinate is in the block's range on its axis. -/
theorem mem_blk (t : Fin cfg1.N) (i : S50000x128.Idx) :
    i ∈ ((cfg1.win 6).blk t).view.set ↔ ∀ a : Fin 2, win1_6.index t a * S2000x128.size a ≤ (i a).val ∧ (i a).val < win1_6.index t a * S2000x128.size a + S2000x128.size a := by
  show i ∈ ((View.whole main_v97).slice (win1_6.rect t)).set ↔ _
  rw [View.set_slice_whole, Rect.mem_set_unit]
  exact Iff.rfl

/-- Every entry of the array lies in the block of the point whose block row is the entry's row divided by 2000. -/
theorem cover (i : S50000x128.Idx) : ∃ t : Fin cfg1.N, (cfg1.win 6).flush t = true ∧ i ∈ ((cfg1.win 6).blk t).view.set := by
  have hi0 : (i 0).val < 50000 := (i 0).isLt
  have hi1 : (i 1).val < 128 := (i 1).isLt
  obtain ⟨t, ht⟩ := idx_onto ⟨(i 0).val / 2000, by omega⟩
  have q0 : win1_6.index t (0 : Fin 2) = (i 0).val / 2000 := ht
  obtain ⟨-, -, -, -, -, -, -, -, -, -, -, -, -, e61⟩ := idx_facts t
  refine ⟨t, flush1_6 t, ?_⟩
  rw [mem_blk]
  intro a
  match a with
  | ⟨0, _⟩ => show win1_6.index t (0 : Fin 2) * 2000 ≤ (i 0).val ∧ (i 0).val < win1_6.index t (0 : Fin 2) * 2000 + 2000; omega
  | ⟨1, _⟩ => show win1_6.index t (1 : Fin 2) * 128 ≤ (i 1).val ∧ (i 1).val < win1_6.index t (1 : Fin 2) * 128 + 128; omega

/-- The result array after the region is `G` of the arrays as the region finds them. -/
theorem final
    (hbody : ∀ (x0 : Vec Ideal S2000x128 .f32) (x1 : Vec Ideal S2000x1 .f32) (x2 : Vec Ideal S2000x128 .f32)
      (x3 : Vec Ideal S128x128 .f32) (x4 : Vec Ideal S1x128 .f32) (x5 : Vec Ideal S128x128 .f32) (p : Fin 2000) (q : Fin 128),
      out1_6 (F := Ideal) x0 x1 x2 x3 x4 x5 (ix2 p q)
        = Cert.Net.leaky (Cert.Net.sage (fun r k => x0 (ix2 r k) * x1 (ix2 r (0 : Fin 1))) (fun r k => x2 (ix2 r k))
            (fun k d => x3 (ix2 k d)) (fun k d => x5 (ix2 k d)) (fun d => x4 (ix2 (0 : Fin 1) d)) p q))
    (c : Dev nD) :
    (dat1 V c).arrAt 6 cfg1.N = G (V c main_v46) (V c main_v10) (V c main_arg0) (V c main_v91) (V c main_v96) (V c main_v95) :=
  (dat1 V c).arrAt_eq_of_cover 6 _ (fun t _ => flushed_eq V hbody c t) cover

end Cert.KernelIdeal.Region1

end
-- ==== Proof.KerRegion2.lean ====
/-
  The author update of the last layer with the output head, from blocks to the whole array.

  The region walks 25 grid points; point t reads rows 2000·t … 2000·t + 1999 of the neighbour sum, of the reciprocal
  degree column and of the author features, the whole weight slabs and bias rows, and writes rows 2000·t … of the
  [50000, 32] result. Entry (r, o) of the result is the head applied to row r of the rectified layer term. The blocks
  cover the array, so the array after the region is that function everywhere.
-/
import proofs.«159525_j9775345565891_2_alg».proof.Proof.Gen.KernelIdeal.Frame
import proofs.«159525_j9775345565891_2_alg».proof.Proof.NetSpec
import Idealize.ShloMosaic.Lib.Pipeline.Value
import Idealize.ShloMosaic.Lib.ValueIdx

set_option maxRecDepth 16384

noncomputable section

namespace Cert.KernelIdeal.Region2

open Idealize.ShloMosaic Idealize.ShloMosaic.TcCoe Idealize.ShloMosaic.ValueIdx Idealize.SL.Sem
open Cert.KernelIdeal Cert.KernelIdeal.Gen
open Idealize.ShloMosaic.Pipeline (Dat Cfg Window)

variable (V : (c : Dev nD) → (b : Ref sig .tc) → Buf (Elt Ideal) ((c : Thread nD τ).loc b))

/-- The result array as one function of the region's input arrays. -/
def G (A : S50000x128.Idx → EReal) (I : S50000x1.Idx → EReal) (X : S50000x128.Idx → EReal)
    (Wl : S128x128.Idx → EReal) (b : S1x128.Idx → EReal) (Wr : S128x128.Idx → EReal)
    (LW : S128x32.Idx → EReal) (lb : S1x32.Idx → EReal) : S50000x32.Idx → EReal :=
  fun i => Cert.Net.head (fun r k => Cert.Net.leaky (Cert.Net.sage (fun r k => A (ix2 r k) * I (ix2 r (0 : Fin 1))) (fun r k => X (ix2 r k))
      (fun k d => Wl (ix2 k d)) (fun k d => Wr (ix2 k d)) (fun d => b (ix2 (0 : Fin 1) d)) r k))
    (fun k o => LW (ix2 k o)) (fun o => lb (ix2 (0 : Fin 1) o)) (i 0) (i 1)

/-- The index maps over the grid: the row-tiled windows move with the output's block row, the whole windows stay at
    block (0, 0), and the output's block row is below 25. -/
theorem idx_facts : ∀ t : Fin cfg2.N,
    win2_0.index t (0 : Fin 2) = win2_8.index t (0 : Fin 2) ∧ win2_0.index t (1 : Fin 2) = 0
    ∧ win2_1.index t (0 : Fin 2) = win2_8.index t (0 : Fin 2) ∧ win2_1.index t (1 : Fin 2) = 0
    ∧ win2_2.index t (0 : Fin 2) = win2_8.index t (0 : Fin 2) ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0
    ∧ win2_8.index t (0 : Fin 2) < 25 ∧ win2_8.index t (1 : Fin 2) = 0 :=
  (by decide +kernel : ∀ t : Fin grid2.N, _)

/-- Every block row below 25 is some point's. -/
theorem idx_onto : ∀ q0 : Fin 25, ∃ t : Fin cfg2.N, win2_8.index t (0 : Fin 2) = q0.val :=
  (by decide +kernel : ∀ q0 : Fin 25, ∃ t : Fin grid2.N, win2_8.index t (0 : Fin 2) = q0.val)

/-- What point `t` writes back is block `t` of `G` of the arrays as the region finds them, given the body's output
    block at an entry as the formula of its input blocks. -/
theorem flushed_eq
    (hbody : ∀ (x0 : Vec Ideal S2000x128 .f32) (x1 : Vec Ideal S2000x1 .f32) (x2 : Vec Ideal S2000x128 .f32)
      (x3 : Vec Ideal S128x128 .f32) (x4 : Vec Ideal S1x128 .f32) (x5 : Vec Ideal S128x128 .f32)
      (x6 : Vec Ideal S128x32 .f32) (x7 : Vec Ideal S1x32 .f32) (p : Fin 2000) (o : Fin 32),
      out2_8 (F := Ideal) x0 x1 x2 x3 x4 x5 x6 x7 (ix2 p o)
        = Cert.Net.head (fun r k => Cert.Net.leaky (Cert.Net.sage (fun r k => x0 (ix2 r k) * x1 (ix2 r (0 : Fin 1))) (fun r k => x2 (ix2 r k))
            (fun k d => x3 (ix2 k d)) (fun k d => x5 (ix2 k d)) (fun d => x4 (ix2 (0 : Fin 1) d)) r k))
            (fun k o => x6 (ix2 k o)) (fun o => x7 (ix2 (0 : Fin 1) o)) p o)
    (c : Dev nD) (t : Fin cfg2.N) :
    (dat2 V c).flushed 8 t = ((cfg2.win 8).blk t).view.read (Elt Ideal) (G (V c main_v111) (V c main_v10) (V c main_v97) (V c main_v113) (V c main_v118) (V c main_v117) (V c main_arg8) (V c main_v119)) := by
  show (cfg2.win 8).cut (grid2.coords t) ((dat2 V c).after 8 t) = _
  rw [after2_8]
  funext j
  obtain ⟨p, q, rfl⟩ : ∃ (p : Fin 2000) (q : Fin 32), j = ix2 p q := ⟨j 0, j 1, eq_ix2 j⟩
  show out2_8 (F := Ideal) (iblk2 V c 0 t) (iblk2 V c 1 t) (iblk2 V c 2 t) (iblk2 V c 3 t) (iblk2 V c 4 t) (iblk2 V c 5 t) (iblk2 V c 6 t) (iblk2 V c 7 t) (ix2 p q)
    = G (V c main_v111) (V c main_v10) (V c main_v97) (V c main_v113) (V c main_v118) (V c main_v117) (V c main_arg8) (V c main_v119) (((cfg2.win 8).blk t).view.emb (ix2 p q))
  refine (hbody _ _ _ _ _ _ _ _ p q).trans ?_
  obtain ⟨e00, e01, e10, e11, e20, e21, e30, e31, e40, e41, e50, e51, e60, e61, e70, e71, e8lt, e81⟩ := idx_facts t
  have hp : p.val < 2000 := p.isLt
  have hR : win2_8.index t (0 : Fin 2) * 2000 + p.val < 50000 := by omega
  have hout : ((cfg2.win 8).blk t).view.emb (ix2 p q) = ix2 (⟨win2_8.index t (0 : Fin 2) * 2000 + p.val, hR⟩ : Fin 50000) q := by
    funext a; apply Fin.ext
    match a with
    | ⟨0, _⟩ => show win2_8.index t (0 : Fin 2) * 2000 + 1 * p.val = win2_8.index t (0 : Fin 2) * 2000 + p.val; omega
    | ⟨1, _⟩ => show win2_8.index t (1 : Fin 2) * 32 + 1 * q.val = q.val; omega
  have r0 : ∀ k : Fin 128, iblk2 V c 0 t (ix2 p k) = V c main_v111 (ix2 (⟨win2_8.index t (0 : Fin 2) * 2000 + p.val, hR⟩ : Fin 50000) k) := fun k => by
    show V c main_v111 (((cfg2.win 0).blk t).view.emb (ix2 p k)) = _
    refine congrArg (V c main_v111) ?_
    funext a; apply Fin.ext
    match a with
    | ⟨0, _⟩ => show win2_0.index t (0 : Fin 2) * 2000 + 1 * p.val = win2_8.index t (0 : Fin 2) * 2000 + p.val; omega
    | ⟨1, _⟩ => show win2_0.index t (1 : Fin 2) * 128 + 1 * k.val = k.val; omega
  have r1 : iblk2 V c 1 t (ix2 p (0 : Fin 1)) = V c main_v10 (ix2 (⟨win2_8.index t (0 : Fin 2) * 2000 + p.val, hR⟩ : Fin 50000) (0 : Fin 1)) := by
    show V c main_v10 (((cfg2.win 1).blk t).view.emb (ix2 p (0 : Fin 1))) = _
    refine congrArg (V c main_v10) ?_
    funext a; apply Fin.ext
    match a with
    | ⟨0, _⟩ => show win2_1.index t (0 : Fin 2) * 2000 + 1 * p.val = win2_8.index t (0 : Fin 2) * 2000 + p.val; omega
    | ⟨1, _⟩ => show win2_1.index t (1 : Fin 2) * 1 + 1 * 0 = 0; omega
  have r2 : ∀ k : Fin 128, iblk2 V c 2 t (ix2 p k) = V c main_v97 (ix2 (⟨win2_8.index t (0 : Fin 2) * 2000 + p.val, hR⟩ : Fin 50000) k) := fun k => by
    show V c main_v97 (((cfg2.win 2).blk t).view.emb (ix2 p k)) = _
    refine congrArg (V c main_v97) ?_
    funext a; apply Fin.ext
    match a with
    | ⟨0, _⟩ => show win2_2.index t (0 : Fin 2) * 2000 + 1 * p.val = win2_8.index t (0 : Fin 2) * 2000 + p.val; omega
    | ⟨1, _⟩ => show win2_2.index t (1 : Fin 2) * 128 + 1 * k.val = k.val; omega
  have r3 : ∀ (k : Fin 128) (d : Fin 128), iblk2 V c 3 t (ix2 k d) = V c main_v113 (ix2 k d) := fun k d => by
    show V c main_v113 (((cfg2.win 3).blk t).view.emb (ix2 k d)) = _
    refine congrArg (V c main_v113) ?_
    funext a; apply Fin.ext
    match a with
    | ⟨0, _⟩ => show win2_3.index t (0 : Fin 2) * 128 + 1 * k.val = k.val; omega
    | ⟨1, _⟩ => show win2_3.index t (1 : Fin 2) * 128 + 1 * d.val = d.val; omega
  have r4 : ∀ d : Fin 128, iblk2 V c 4 t (ix2 (0 : Fin 1) d) = V c main_v118 (ix2 (0 : Fin 1) d) := fun d => by
    show V c main_v118 (((cfg2.win 4).blk t).view.emb (ix2 (0 : Fin 1) d)) = _
    refine congrArg (V c main_v118) ?_
    funext a; apply Fin.ext
    match a with
    | ⟨0, _⟩ => show win2_4.index t (0 : Fin 2) * 1 + 1 * 0 = 0; omega
    | ⟨1, _⟩ => show win2_4.index t (1 : Fin 2) * 128 + 1 * d.val = d.val; omega
  have r5 : ∀ (k : Fin 128) (d : Fin 128), iblk2 V c 5 t (ix2 k d) = V c main_v117 (ix2 k d) := fun k d => by
    show V c main_v117 (((cfg2.win 5).blk t).view.emb (ix2 k d)) = _
    refine congrArg (V c main_v117) ?_
    funext a; apply Fin.ext
    match a with
    | ⟨0, _⟩ => show win2_5.index t (0 : Fin 2) * 128 + 1 * k.val = k.val; omega
    | ⟨1, _⟩ => show win2_5.index t (1 : Fin 2) * 128 + 1 * d.val = d.val; omega
  have r6 : ∀ (k : Fin 128) (d : Fin 32), iblk2 V c 6 t (ix2 k d) = V c main_arg8 (ix2 k d) := fun k d => by
    show V c main_arg8 (((cfg2.win 6).blk t).view.emb (ix2 k d)) = _
    refine congrArg (V c main_arg8) ?_
    funext a; apply Fin.ext
    match a with
    | ⟨0, _⟩ => show win2_6.index t (0 : Fin 2) * 128 + 1 * k.val = k.val; omega
    | ⟨1, _⟩ => show win2_6.index t (1 : Fin 2) * 32 + 1 * d.val = d.val; omega
  have r7 : ∀ d : Fin 32, iblk2 V c 7 t (ix2 (0 : Fin 1) d) = V c main_v119 (ix2 (0 : Fin 1) d) := fun d => by
    show V c main_v119 (((cfg2.win 7).blk t).view.emb (ix2 (0 : Fin 1) d)) = _
    refine congrArg (V c main_v119) ?_
    funext a; apply Fin.ext
    match a with
    | ⟨0, _⟩ => show win2_7.index t (0 : Fin 2) * 1 + 1 * 0 = 0; omega
    | ⟨1, _⟩ => show win2_7.index t (1 : Fin 2) * 32 + 1 * d.val = d.val; omega
  rw [hout]
  unfold G
  simp only [Cert.Net.head, Cert.Net.sage, r0, r1, r2, r3, r4, r5, r6, r7]

/-- An index of the array is in point `t`'s block iff each coordinate is in the block's range on its axis. -/
theorem mem_blk (t : Fin cfg2.N) (i : S50000x32.Idx) :
    i ∈ ((cfg2.win 8).blk t).view.set ↔ ∀ a : Fin 2, win2_8.index t a * S2000x32.size a ≤ (i a).val ∧ (i a).val < win2_8.index t a * S2000x32.size a + S2000x32.size a := by
  show i ∈ ((View.whole main_v120).slice (win2_8.rect t)).set ↔ _
  rw [View.set_slice_whole, Rect.mem_set_unit]
  exact Iff.rfl

/-- Every entry of the array lies in the block of the point whose block row is the entry's row divided by 2000. -/
theorem cover (i : S50000x32.Idx) : ∃ t : Fin cfg2.N, (cfg2.win 8).flush t = true ∧ i ∈ ((cfg2.win 8).blk t).view.set := by
  have hi0 : (i 0).val < 50000 := (i 0).isLt
  have hi1 : (i 1).val < 32 := (i 1).isLt
  obtain ⟨t, ht⟩ := idx_onto ⟨(i 0).val / 2000, by omega⟩
  have q0 : win2_8.index t (0 : Fin 2) = (i 0).val / 2000 := ht
  have e81 : win2_8.index t (1 : Fin 2) = 0 := (idx_facts t).2.2.2.2.2.2.2.2.2.2.2.2.2.2.2.2.2
  refine ⟨t, flush2_8 t, ?_⟩
  rw [mem_blk]
  intro a
  match a with
  | ⟨0, _⟩ => show win2_8.index t (0 : Fin 2) * 2000 ≤ (i 0).val ∧ (i 0).val < win2_8.index t (0 : Fin 2) * 2000 + 2000; omega
  | ⟨1, _⟩ => show win2_8.index t (1 : Fin 2) * 32 ≤ (i 1).val ∧ (i 1).val < win2_8.index t (1 : Fin 2) * 32 + 32; omega

/-- The result array after the region is `G` of the arrays as the region finds them. -/
theorem final
    (hbody : ∀ (x0 : Vec Ideal S2000x128 .f32) (x1 : Vec Ideal S2000x1 .f32) (x2 : Vec Ideal S2000x128 .f32)
      (x3 : Vec Ideal S128x128 .f32) (x4 : Vec Ideal S1x128 .f32) (x5 : Vec Ideal S128x128 .f32)
      (x6 : Vec Ideal S128x32 .f32) (x7 : Vec Ideal S1x32 .f32) (p : Fin 2000) (o : Fin 32),
      out2_8 (F := Ideal) x0 x1 x2 x3 x4 x5 x6 x7 (ix2 p o)
        = Cert.Net.head (fun r k => Cert.Net.leaky (Cert.Net.sage (fun r k => x0 (ix2 r k) * x1 (ix2 r (0 : Fin 1))) (fun r k => x2 (ix2 r k))
            (fun k d => x3 (ix2 k d)) (fun k d => x5 (ix2 k d)) (fun d => x4 (ix2 (0 : Fin 1) d)) r k))
            (fun k o => x6 (ix2 k o)) (fun o => x7 (ix2 (0 : Fin 1) o)) p o)
    (c : Dev nD) :
    (dat2 V c).arrAt 8 cfg2.N = G (V c main_v111) (V c main_v10) (V c main_v97) (V c main_v113) (V c main_v118) (V c main_v117) (V c main_arg8) (V c main_v119) :=
  (dat2 V c).arrAt_eq_of_cover 8 _ (fun t _ => flushed_eq V hbody c t) cover

end Cert.KernelIdeal.Region2

end
-- ==== Proof.LibPlainDot.lean ====
/-
  A matrix product with ONE contracted axis, read at an output entry over the extended reals.

  For a product of an [A, K] array by a [K, B] array whose dimension numbers send output entry (p, c) and contraction
  position k to the operand entries (p, k) and (k, c), the accelerator's matmul into a zero accumulator and the host's
  dot_general are both the plain sum  Σ_k lhs[p, k] · rhs[k, c]  — no rounding and no order of summation is left at the
  exact instance. The four coordinate facts are taken as hypotheses, so that one statement serves every such record.
-/
import Idealize.ShloMosaic.PureOps.Ideal.Laws
import Idealize.ShloMosaic.Lib.ValueIdx

noncomputable section

open scoped BigOperators

namespace Idealize.ShloMosaic.PlainDot

open Idealize.ShloMosaic Idealize.ShloMosaic.ValueIdx

variable {A K B : Nat} {φ₁ φ₂ : FTy}

/-- The contraction sum re-indexed by the one contracted coordinate, the operand entries written out. -/
theorem contr_sum (d : DotDims ⟨2, ![A, K]⟩ ⟨2, ![K, B]⟩ ⟨2, ![A, B]⟩)
    (hr : d.contr.rank = 1) (hs : d.contr.size ⟨0, by omega⟩ = K)
    (hl0 : ∀ j q, (d.lhsIdx j q 0).val = (j 0).val) (hl1 : ∀ j q, (d.lhsIdx j q 1).val = (q ⟨0, by omega⟩).val)
    (hr0 : ∀ j q, (d.rhsIdx j q 0).val = (q ⟨0, by omega⟩).val) (hr1 : ∀ j q, (d.rhsIdx j q 1).val = (j 1).val)
    (lhs : FVec Ideal ⟨2, ![A, K]⟩ φ₁) (rhs : FVec Ideal ⟨2, ![K, B]⟩ φ₂) (p : Fin A) (c : Fin B) :
    (∑ q : d.contr.Idx, lhs (d.lhsIdx (ix2 p c) q) * rhs (d.rhsIdx (ix2 p c) q))
      = ∑ k : Fin K, lhs (ix2 p k) * rhs (ix2 k c) := by
  rw [← Equiv.sum_comp (contrEquiv1 d K hr hs).symm]
  refine Finset.sum_congr rfl fun k _ => ?_
  have hk := contrEquiv1_symm_val d K hr hs k
  have el : d.lhsIdx (ix2 p c) ((contrEquiv1 d K hr hs).symm k) = ix2 p k := funext fun a => Fin.ext (by
    match a with
    | ⟨0, _⟩ => exact hl0 _ _
    | ⟨1, _⟩ => exact (hl1 _ _).trans hk)
  have er : d.rhsIdx (ix2 p c) ((contrEquiv1 d K hr hs).symm k) = ix2 k c := funext fun a => Fin.ext (by
    match a with
    | ⟨0, _⟩ => exact (hr0 _ _).trans hk
    | ⟨1, _⟩ => exact hr1 _ _)
  rw [el, er]

/-- The matmul into the zero accumulator at entry (p, c) is Σ_k lhs[p, k] · rhs[k, c]. -/
theorem matmul_zero_apply (d : DotDims ⟨2, ![A, K]⟩ ⟨2, ![K, B]⟩ ⟨2, ![A, B]⟩) (prec : Option ContractPrecision)
    (hr : d.contr.rank = 1) (hs : d.contr.size ⟨0, by omega⟩ = K)
    (hl0 : ∀ j q, (d.lhsIdx j q 0).val = (j 0).val) (hl1 : ∀ j q, (d.lhsIdx j q 1).val = (q ⟨0, by omega⟩).val)
    (hr0 : ∀ j q, (d.rhsIdx j q 0).val = (q ⟨0, by omega⟩).val) (hr1 : ∀ j q, (d.rhsIdx j q 1).val = (j 1).val)
    (lhs : FVec Ideal ⟨2, ![A, K]⟩ φ₁) (rhs : FVec Ideal ⟨2, ![K, B]⟩ φ₂) (p : Fin A) (c : Fin B) :
    FloatOps.matmul d prec lhs rhs (constant (F := Ideal) ⟨2, ![A, B]⟩ .f32 0x00000000#32) (ix2 p c)
      = ∑ k : Fin K, lhs (ix2 p k) * rhs (ix2 k c) :=
  (Ideal.matmul_constant_zero_apply d prec lhs rhs (ix2 p c)).trans (contr_sum d hr hs hl0 hl1 hr0 hr1 lhs rhs p c)

/-- The host's dot_general at entry (p, c) is the same sum. -/
theorem dotGeneral_apply (d : DotDims ⟨2, ![A, K]⟩ ⟨2, ![K, B]⟩ ⟨2, ![A, B]⟩) (prec : Option ContractPrecision)
    (sched : HostSchedule)
    (hr : d.contr.rank = 1) (hs : d.contr.size ⟨0, by omega⟩ = K)
    (hl0 : ∀ j q, (d.lhsIdx j q 0).val = (j 0).val) (hl1 : ∀ j q, (d.lhsIdx j q 1).val = (q ⟨0, by omega⟩).val)
    (hr0 : ∀ j q, (d.rhsIdx j q 0).val = (q ⟨0, by omega⟩).val) (hr1 : ∀ j q, (d.rhsIdx j q 1).val = (j 1).val)
    (lhs : FVec Ideal ⟨2, ![A, K]⟩ φ₁) (rhs : FVec Ideal ⟨2, ![K, B]⟩ φ₂) (p : Fin A) (c : Fin B) :
    FloatOps.dotGeneral d prec sched lhs rhs (ix2 p c) = ∑ k : Fin K, lhs (ix2 p k) * rhs (ix2 k c) :=
  (Ideal.dotGeneral_apply d prec sched lhs rhs (ix2 p c)).trans (contr_sum d hr hs hl0 hl1 hr0 hr1 lhs rhs p c)

end Idealize.ShloMosaic.PlainDot

end
-- ==== Proof.Bodies.lean ====
/-
  The three kernel bodies of the graph network, read at one entry of their output block over the extended reals.

  Each body loads its whole input blocks, computes one payload and stores it over its whole output block, so the
  output block IS the payload of the input blocks. At the exact instance a change of float format and a cast to the
  same shape are the identity, a [n, 1] column broadcast along the second axis reads the row's one entry, a [1, m] row
  broadcast down the first axis reads the column's one entry, and a matrix product into the zero accumulator is the
  plain sum over the contracted coordinate. What is left at entry (p, q) is the network's formula: per relation
  (Σ_k (agg[p,k] · inv[p]) · Wl[k,q] + b[q]) + Σ_k x[p,k] · Wr[k,q], the relations added, the leaky rectifier
  applied, and for the last body one more product with a bias.
-/
import proofs.«159525_j9775345565891_2_alg».proof.Proof.Gen.KernelIdeal.Frame
import proofs.«159525_j9775345565891_2_alg».proof.Proof.NetSpec
import proofs.«159525_j9775345565891_2_alg».proof.Proof.LibPlainDot
import Idealize.ShloMosaic.Lib.ValueLayout

noncomputable section

open scoped BigOperators

namespace Cert.KernelIdeal.Body

open Idealize.ShloMosaic Idealize.ShloMosaic.ValueIdx Cert.KernelIdeal Cert.KernelIdeal.Gen

/-! ## Layout operations and the rectifier at an entry -/

/-- An [a, 1] column broadcast to [a, b] reads, at (p, c), the column's entry of row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The leaky rectifier as the body writes it — select (s ≥ 0) s (slope · s) over a whole block — at one entry. -/
theorem leaky_apply {s : Shape} (v : FVec Ideal s .f32) (i : s.Idx) (X : EReal) (hX : v i = X) :
    select (cmpf .oge v (broadcast s (Scalar.ofBits (F := Ideal) .f32 0x00000000#32))) v
        (mulf (broadcast s (Scalar.ofBits (F := Ideal) .f32 0x3C23D70A#32)) v) i
      = Cert.Net.leaky X := by
  subst hX; rfl

/-! ## The two products' dimension numbers -/

section Dots

local notation "D128" => dot_S2000x128_S128x128_S2000x128_1_0_0_1_n_n
local notation "D32" => dot_S2000x128_S128x32_S2000x32_1_0_0_1_n_n

/-- [2000, 128] · [128, 128] into zero, at (p, q): Σ_k lhs[p, k] · rhs[k, q]. -/
theorem matmul128_apply {φ₁ φ₂ : FTy} (lhs : FVec Ideal S2000x128 φ₁) (rhs : FVec Ideal S128x128 φ₂) (p : Fin 2000) (q : Fin 128) :
    matmul D128 none lhs rhs (constant (F := Ideal) S2000x128 .f32 0x00000000#32) (ix2 p q)
      = ∑ k : Fin 128, lhs (ix2 p k) * rhs (ix2 k q) :=
  PlainDot.matmul_zero_apply (A := 2000) (K := 128) (B := 128) D128 none rfl rfl
    (fun j k => rfl) (fun j k => DotDims.lhsIdx_val_of_single D128 (cl := 1) rfl j k)
    (fun j k => DotDims.rhsIdx_val_of_single D128 (cr := 0) rfl j k) (fun j k => rfl) lhs rhs p q

/-- [2000, 128] · [128, 32] into zero, at (p, o): Σ_k lhs[p, k] · rhs[k, o]. -/
theorem matmul32_apply {φ₁ φ₂ : FTy} (lhs : FVec Ideal S2000x128 φ₁) (rhs : FVec Ideal S128x32 φ₂) (p : Fin 2000) (o : Fin 32) :
    matmul D32 none lhs rhs (constant (F := Ideal) S2000x32 .f32 0x00000000#32) (ix2 p o)
      = ∑ k : Fin 128, lhs (ix2 p k) * rhs (ix2 k o) :=
  PlainDot.matmul_zero_apply (A := 2000) (K := 128) (B := 32) D32 none rfl rfl
    (fun j k => rfl) (fun j k => DotDims.lhsIdx_val_of_single D32 (cl := 1) rfl j k)
    (fun j k => DotDims.rhsIdx_val_of_single D32 (cr := 0) rfl j k) (fun j k => rfl) lhs rhs p o

end Dots

/-! ## The author update -/

/-- The zero offsets of a whole-block rectangle, as a function. -/
theorem off_zero : (![0, 0] : Fin 2 → Nat) = fun _ => 0 := by
  funext a; match a with | ⟨0, _⟩ => rfl | ⟨1, _⟩ => rfl

/-- The author update's payload at (p, q): the rectifier of the one relation's term. -/
theorem k1_pay1_apply (v0 : Vec Ideal S2000x128 .f32) (v2 : Vec Ideal S2000x1 .f32) (v7 : Vec Ideal S2000x128 .f32)
    (v9 v12 : Vec Ideal S128x128 .f32) (v16 : Vec Ideal S1x128 .f32) (p : Fin 2000) (q : Fin 128) :
    k1_pay1 (F := Ideal) v0 v2 v7 v9 v12 v16 (ix2 p q)
      = Cert.Net.leaky (Cert.Net.sage (fun r k => v0 (ix2 r k) * v2 (ix2 r (0 : Fin 1))) (fun r k => v7 (ix2 r k))
          (fun k d => v9 (ix2 k d)) (fun k d => v12 (ix2 k d)) (fun d => v16 (ix2 (0 : Fin 1) d)) p q) := by
  unfold k1_pay1
  simp only [shapeCast_self]
  refine leaky_apply _ _ _ ?_
  unfold Cert.Net.sage
  rw [addf_apply, addf_apply, matmul128_apply, matmul128_apply, broadcastTo_1b_ab_apply]
  simp only [truncf_apply, mulf_apply, broadcastTo_a1_ab_apply]

theorem author_body (x0 : Vec Ideal S2000x128 .f32) (x1 : Vec Ideal S2000x1 .f32) (x2 : Vec Ideal S2000x128 .f32)
    (x3 : Vec Ideal S128x128 .f32) (x4 : Vec Ideal S1x128 .f32) (x5 : Vec Ideal S128x128 .f32) (p : Fin 2000) (q : Fin 128) :
    out1_6 (F := Ideal) x0 x1 x2 x3 x4 x5 (ix2 p q)
      = Cert.Net.leaky (Cert.Net.sage (fun r k => x0 (ix2 r k) * x1 (ix2 r (0 : Fin 1))) (fun r k => x2 (ix2 r k))
          (fun k d => x3 (ix2 k d)) (fun k d => x5 (ix2 k d)) (fun d => x4 (ix2 (0 : Fin 1) d)) p q) := by
  unfold out1_6
  rw [View.canon_unit_zero off_zero]
  simp only [View.ld_unit_zero (S := S2000x128) off_zero, View.ld_unit_zero (S := S2000x1) off_zero,
    View.ld_unit_zero (S := S128x128) off_zero, View.ld_unit_zero (S := S1x128) off_zero]
  exact k1_pay1_apply x0 x1 x2 x3 x5 x4 p q

/-! ## The paper update -/

/-- The narrowed own-feature block is the block. -/
theorem k0_pay2_apply (v14 : Vec Ideal S2000x128 .f32) (i : S2000x128.Idx) : k0_pay2 (F := Ideal) v14 i = v14 i := rfl

/-- The narrowed weight block is the block. -/
theorem k0_pay3_apply (v25 : Vec Ideal S128x128 .f32) (i : S128x128.Idx) : k0_pay3 (F := Ideal) v25 i = v25 i := by
  unfold k0_pay3
  simp only [shapeCast_self, truncf_apply]

/-- The first relation's term at (p, q). -/
theorem k0_pay4_apply (v0 : Vec Ideal S2000x128 .f32) (v2 : Vec Ideal S2000x1 .f32) (v14 : Vec Ideal S2000x128 .f32)
    (v16 v22 : Vec Ideal S128x128 .f32) (v29 : Vec Ideal S1x128 .f32) (p : Fin 2000) (q : Fin 128) :
    k0_pay4 (F := Ideal) v0 v2 v14 v16 v22 v29 (ix2 p q)
      = Cert.Net.sage (fun r k => v0 (ix2 r k) * v2 (ix2 r (0 : Fin 1))) (fun r k => v14 (ix2 r k))
          (fun k d => v16 (ix2 k d)) (fun k d => v22 (ix2 k d)) (fun d => v29 (ix2 (0 : Fin 1) d)) p q := by
  unfold k0_pay4
  simp only [shapeCast_self]
  unfold Cert.Net.sage
  rw [addf_apply, addf_apply, matmul128_apply, matmul128_apply, broadcastTo_1b_ab_apply]
  simp only [k0_pay2_apply, truncf_apply, mulf_apply, broadcastTo_a1_ab_apply]

/-- The second relation's message product at (p, q). -/
theorem k0_pay5_apply (v7 : Vec Ideal S2000x128 .f32) (v9 : Vec Ideal S2000x1 .f32) (v19 : Vec Ideal S128x128 .f32)
    (p : Fin 2000) (q : Fin 128) :
    k0_pay5 (F := Ideal) v7 v9 v19 (ix2 p q) = ∑ k : Fin 128, (v7 (ix2 p k) * v9 (ix2 p (0 : Fin 1))) * v19 (ix2 k q) := by
  unfold k0_pay5
  simp only [shapeCast_self]
  rw [matmul128_apply]
  simp only [truncf_apply, mulf_apply, broadcastTo_a1_ab_apply]

/-- The paper update's last payload at (p, q): the rectifier of the first term plus
    ((message product + bias) + root product). -/
theorem k0_pay1_apply (v15 : FVec Ideal S2000x128 .bf16) (v27 : FVec Ideal S128x128 .bf16) (v34 v35 : FVec Ideal S2000x128 .f32)
    (v36 : Vec Ideal S1x128 .f32) (p : Fin 2000) (q : Fin 128) :
    k0_pay1 (F := Ideal) v15 v27 v34 v35 v36 (ix2 p q)
      = Cert.Net.leaky (v34 (ix2 p q)
          + ((v35 (ix2 p q) + v36 (ix2 (0 : Fin 1) q)) + ∑ k : Fin 128, v15 (ix2 p k) * v27 (ix2 k q))) := by
  unfold k0_pay1
  simp only [shapeCast_self]
  refine leaky_apply _ _ _ ?_
  rw [addf_apply, addf_apply, addf_apply, matmul128_apply, broadcastTo_1b_ab_apply]

theorem paper_body (x0 : Vec Ideal S2000x128 .f32) (x1 : Vec Ideal S2000x1 .f32) (x2 : Vec Ideal S2000x128 .f32) (x3 : Vec Ideal S2000x1 .f32)
    (x4 : Vec Ideal S2000x128 .f32) (x5 : Vec Ideal S128x128 .f32) (x6 : Vec Ideal S1x128 .f32) (x7 : Vec Ideal S128x128 .f32)
    (x8 : Vec Ideal S128x128 .f32) (x9 : Vec Ideal S1x128 .f32) (x10 : Vec Ideal S128x128 .f32) (p : Fin 2000) (q : Fin 128) :
    out0_11 (F := Ideal) x0 x1 x2 x3 x4 x5 x6 x7 x8 x9 x10 (ix2 p q)
      = Cert.Net.leaky (
          Cert.Net.sage (fun r k => x0 (ix2 r k) * x1 (ix2 r (0 : Fin 1))) (fun r k => x4 (ix2 r k))
            (fun k d => x5 (ix2 k d)) (fun k d => x7 (ix2 k d)) (fun d => x6 (ix2 (0 : Fin 1) d)) p q
          + Cert.Net.sage (fun r k => x2 (ix2 r k) * x3 (ix2 r (0 : Fin 1))) (fun r k => x4 (ix2 r k))
            (fun k d => x8 (ix2 k d)) (fun k d => x10 (ix2 k d)) (fun d => x9 (ix2 (0 : Fin 1) d)) p q) := by
  unfold out0_11
  rw [View.canon_unit_zero off_zero]
  simp only [View.ld_unit_zero (S := S2000x128) off_zero, View.ld_unit_zero (S := S2000x1) off_zero,
    View.ld_unit_zero (S := S128x128) off_zero, View.ld_unit_zero (S := S1x128) off_zero]
  rw [k0_pay1_apply, k0_pay4_apply, k0_pay5_apply]
  unfold Cert.Net.sage
  simp only [k0_pay2_apply, k0_pay3_apply]

/-! ## The last author update, fused with the output head -/

/-- The fused payload at (p, o): the head's product of the rectified hidden row p with the head weights, plus its bias. -/
theorem k2_pay1_apply (v0 : Vec Ideal S2000x128 .f32) (v2 : Vec Ideal S2000x1 .f32) (v7 : Vec Ideal S2000x128 .f32)
    (v10 v13 : Vec Ideal S128x128 .f32) (v17 : Vec Ideal S1x128 .f32) (v29 : Vec Ideal S128x32 .f32) (v32 : Vec Ideal S1x32 .f32)
    (p : Fin 2000) (o : Fin 32) :
    k2_pay1 (F := Ideal) v0 v2 v7 v10 v13 v17 v29 v32 (ix2 p o)
      = Cert.Net.head (fun r k => Cert.Net.leaky (Cert.Net.sage (fun r k => v0 (ix2 r k) * v2 (ix2 r (0 : Fin 1)))
          (fun r k => v7 (ix2 r k)) (fun k d => v10 (ix2 k d)) (fun k d => v13 (ix2 k d)) (fun d => v17 (ix2 (0 : Fin 1) d)) r k))
          (fun k o => v29 (ix2 k o)) (fun o => v32 (ix2 (0 : Fin 1) o)) p o := by
  unfold k2_pay1
  simp only [shapeCast_self]
  unfold Cert.Net.head
  rw [addf_apply, matmul32_apply, broadcastTo_1b_ab_apply]
  refine congrArg₂ (· + ·) (Finset.sum_congr rfl fun k _ => ?_) rfl
  rw [truncf_apply, truncf_apply]
  refine congrArg₂ (· * ·) (leaky_apply _ _ _ ?_) rfl
  unfold Cert.Net.sage
  rw [addf_apply, addf_apply, matmul128_apply, matmul128_apply, broadcastTo_1b_ab_apply]
  simp only [truncf_apply, mulf_apply, broadcastTo_a1_ab_apply]

theorem final_body (x0 : Vec Ideal S2000x128 .f32) (x1 : Vec Ideal S2000x1 .f32) (x2 : Vec Ideal S2000x128 .f32)
    (x3 : Vec Ideal S128x128 .f32) (x4 : Vec Ideal S1x128 .f32) (x5 : Vec Ideal S128x128 .f32)
    (x6 : Vec Ideal S128x32 .f32) (x7 : Vec Ideal S1x32 .f32) (p : Fin 2000) (o : Fin 32) :
    out2_8 (F := Ideal) x0 x1 x2 x3 x4 x5 x6 x7 (ix2 p o)
      = Cert.Net.head (fun r k => Cert.Net.leaky (Cert.Net.sage (fun r k => x0 (ix2 r k) * x1 (ix2 r (0 : Fin 1))) (fun r k => x2 (ix2 r k))
          (fun k d => x3 (ix2 k d)) (fun k d => x5 (ix2 k d)) (fun d => x4 (ix2 (0 : Fin 1) d)) r k))
          (fun k o => x6 (ix2 k o)) (fun o => x7 (ix2 (0 : Fin 1) o)) p o := by
  unfold out2_8
  rw [View.canon_unit_zero off_zero]
  simp only [View.ld_unit_zero (S := S2000x128) off_zero, View.ld_unit_zero (S := S2000x1) off_zero,
    View.ld_unit_zero (S := S128x128) off_zero, View.ld_unit_zero (S := S1x128) off_zero,
    View.ld_unit_zero (S := S128x32) off_zero, View.ld_unit_zero (S := S1x32) off_zero]
  exact k2_pay1_apply x0 x1 x2 x3 x5 x4 x6 x7 p o

end Cert.KernelIdeal.Body

end
-- ==== Proof.KerWalk.lean ====
/-
  The kernel's buffers at each region's entry, walked back to the launch memory.

  The program's contents fold through six segments: host stretch, region, host stretch, region, host stretch, region.
  A region changes only its output array; a host stretch changes only the buffers it writes. So each array a region
  reads is, at the region's entry, a host chain applied to the launched arguments and to the arrays the earlier regions
  produced: the first region's result `P1` (the updated paper rows), the second's `A1` (the updated author rows), and
  the program's result is the third region's array.
-/
import proofs.«159525_j9775345565891_2_alg».proof.Proof.Gen.KernelIdeal.Frame
import proofs.«159525_j9775345565891_2_alg».proof.Proof.KerHost0a
import proofs.«159525_j9775345565891_2_alg».proof.Proof.KerHost0b
import proofs.«159525_j9775345565891_2_alg».proof.Proof.KerHost0c
import proofs.«159525_j9775345565891_2_alg».proof.Proof.KerHost0d
import proofs.«159525_j9775345565891_2_alg».proof.Proof.KerHost12
import proofs.«159525_j9775345565891_2_alg».proof.Proof.KerRegion0
import proofs.«159525_j9775345565891_2_alg».proof.Proof.KerRegion1
import proofs.«159525_j9775345565891_2_alg».proof.Proof.KerRegion2
import proofs.«159525_j9775345565891_2_alg».proof.Proof.Bodies

set_option maxRecDepth 16384

noncomputable section

namespace Cert.KernelIdeal.Walk

open Idealize.ShloMosaic Idealize.ShloMosaic.TcCoe Idealize.ShloMosaic.StableHlo Idealize.SL.Sem
open Cert.KernelIdeal Cert.KernelIdeal.Gen Cert.KernelIdeal.Facts₀ Cert.KernelIdeal.Forms Cert.KernelIdeal.HostSide
open Cert.ReferenceIdeal.Chain

variable (m : (ℓ : Loc nD τ sig) → Buf (Elt Ideal) ℓ) (ρ : Dev nD → PrngReg) (c : Dev nD)

/-! ## The arguments at the second and fourth boundaries -/

theorem W2_arg0 : W2 m ρ c (Proc.devRef .tc main_arg0) = (m ((c : Thread nD τ).loc main_arg0)) :=
  (W2_of_ne m ρ c main_arg0 (by decide)).trans (keep0_arg0 (W0 m ρ c))
theorem W2_arg3 : W2 m ρ c (Proc.devRef .tc main_arg3) = (m ((c : Thread nD τ).loc main_arg3)) :=
  (W2_of_ne m ρ c main_arg3 (by decide)).trans (keep0_arg3 (W0 m ρ c))
theorem W2_arg5 : W2 m ρ c (Proc.devRef .tc main_arg5) = (m ((c : Thread nD τ).loc main_arg5)) :=
  (W2_of_ne m ρ c main_arg5 (by decide)).trans (keep0_arg5 (W0 m ρ c))
theorem W2_arg6 : W2 m ρ c (Proc.devRef .tc main_arg6) = (m ((c : Thread nD τ).loc main_arg6)) :=
  (W2_of_ne m ρ c main_arg6 (by decide)).trans (keep0_arg6 (W0 m ρ c))
theorem W2_arg7 : W2 m ρ c (Proc.devRef .tc main_arg7) = (m ((c : Thread nD τ).loc main_arg7)) :=
  (W2_of_ne m ρ c main_arg7 (by decide)).trans (keep0_arg7 (W0 m ρ c))
theorem W2_arg8 : W2 m ρ c (Proc.devRef .tc main_arg8) = (m ((c : Thread nD τ).loc main_arg8)) :=
  (W2_of_ne m ρ c main_arg8 (by decide)).trans (keep0_arg8 (W0 m ρ c))
theorem W2_arg9 : W2 m ρ c (Proc.devRef .tc main_arg9) = (m ((c : Thread nD τ).loc main_arg9)) :=
  (W2_of_ne m ρ c main_arg9 (by decide)).trans (keep0_arg9 (W0 m ρ c))

theorem W4_arg3 : W4 m ρ c (Proc.devRef .tc main_arg3) = (m ((c : Thread nD τ).loc main_arg3)) :=
  (W4_of_ne m ρ c main_arg3 (by decide)).trans ((keep1_arg3 (W2 m ρ c)).trans (W2_arg3 m ρ c))
theorem W4_arg5 : W4 m ρ c (Proc.devRef .tc main_arg5) = (m ((c : Thread nD τ).loc main_arg5)) :=
  (W4_of_ne m ρ c main_arg5 (by decide)).trans ((keep1_arg5 (W2 m ρ c)).trans (W2_arg5 m ρ c))
theorem W4_arg6 : W4 m ρ c (Proc.devRef .tc main_arg6) = (m ((c : Thread nD τ).loc main_arg6)) :=
  (W4_of_ne m ρ c main_arg6 (by decide)).trans ((keep1_arg6 (W2 m ρ c)).trans (W2_arg6 m ρ c))
theorem W4_arg7 : W4 m ρ c (Proc.devRef .tc main_arg7) = (m ((c : Thread nD τ).loc main_arg7)) :=
  (W4_of_ne m ρ c main_arg7 (by decide)).trans ((keep1_arg7 (W2 m ρ c)).trans (W2_arg7 m ρ c))
theorem W4_arg8 : W4 m ρ c (Proc.devRef .tc main_arg8) = (m ((c : Thread nD τ).loc main_arg8)) :=
  (W4_of_ne m ρ c main_arg8 (by decide)).trans ((keep1_arg8 (W2 m ρ c)).trans (W2_arg8 m ρ c))
theorem W4_arg9 : W4 m ρ c (Proc.devRef .tc main_arg9) = (m ((c : Thread nD τ).loc main_arg9)) :=
  (W4_of_ne m ρ c main_arg9 (by decide)).trans ((keep1_arg9 (W2 m ρ c)).trans (W2_arg9 m ρ c))

/-! ## The first region: the paper update -/

theorem V1_v60 : V1 m ρ c main_v60 = aggr (m ((c : Thread nD τ).loc main_arg0)) (m ((c : Thread nD τ).loc main_arg2)) := ops0_v60 (W0 m ρ c)
theorem V1_v21 : V1 m ρ c main_v21 = recipCol (degree (m ((c : Thread nD τ).loc main_arg2))) := ops0_v21 (W0 m ρ c)
theorem V1_v74 : V1 m ρ c main_v74 = aggr (m ((c : Thread nD τ).loc main_arg1)) (m ((c : Thread nD τ).loc main_arg4)) := ops0_v74 (W0 m ρ c)
theorem V1_v32 : V1 m ρ c main_v32 = recipCol (degree (m ((c : Thread nD τ).loc main_arg4))) := ops0_v32 (W0 m ρ c)
theorem V1_arg1 : V1 m ρ c main_arg1 = (m ((c : Thread nD τ).loc main_arg1)) := keep0_arg1 (W0 m ρ c)
theorem V1_v76 : V1 m ρ c main_v76 = wmat ![0, 0, 0, 0] Facts₀.slices_S2x3x128x128_S1x1x128x128_0_0_0_0 (m ((c : Thread nD τ).loc main_arg5)) := ops0_v76 (W0 m ρ c)
theorem V1_v87 : V1 m ρ c main_v87 = rowOf (bvec ![0, 0, 0] Facts₀.slices_S2x3x128_S1x1x128_0_0_0 (m ((c : Thread nD τ).loc main_arg6))) := ops0_v87 (W0 m ρ c)
theorem V1_v80 : V1 m ρ c main_v80 = wmat ![0, 0, 0, 0] Facts₀.slices_S2x3x128x128_S1x1x128x128_0_0_0_0 (m ((c : Thread nD τ).loc main_arg7)) := ops0_v80 (W0 m ρ c)
theorem V1_v82 : V1 m ρ c main_v82 = wmat ![0, 2, 0, 0] Facts₀.slices_S2x3x128x128_S1x1x128x128_0_2_0_0 (m ((c : Thread nD τ).loc main_arg5)) := ops0_v82 (W0 m ρ c)
theorem V1_v88 : V1 m ρ c main_v88 = rowOf (bvec ![0, 2, 0] Facts₀.slices_S2x3x128_S1x1x128_0_2_0 (m ((c : Thread nD τ).loc main_arg6))) := ops0_v88 (W0 m ρ c)
theorem V1_v86 : V1 m ρ c main_v86 = wmat ![0, 2, 0, 0] Facts₀.slices_S2x3x128x128_S1x1x128x128_0_2_0_0 (m ((c : Thread nD τ).loc main_arg7)) := ops0_v86 (W0 m ρ c)

/-- The updated paper rows: what the first region leaves in its output array. -/
def P1 : S50000x128.Idx → EReal :=
  Region0.G (V1 m ρ c main_v60) (V1 m ρ c main_v21) (V1 m ρ c main_v74) (V1 m ρ c main_v32) (V1 m ρ c main_arg1)
    (V1 m ρ c main_v76) (V1 m ρ c main_v87) (V1 m ρ c main_v80) (V1 m ρ c main_v82) (V1 m ρ c main_v88) (V1 m ρ c main_v86)

theorem W2_v89 : W2 m ρ c (Proc.devRef .tc main_v89) = P1 m ρ c :=
  (W2_arr m ρ c 11).trans (Region0.final (V1 m ρ) Cert.KernelIdeal.Body.paper_body c)

/-! ## The second region: the author update -/

theorem V3_v46 : V3 m ρ c main_v46 = aggr (m ((c : Thread nD τ).loc main_arg1)) (m ((c : Thread nD τ).loc main_arg3)) :=
  (keep1_v46 (W2 m ρ c)).trans ((W2_of_ne m ρ c main_v46 (by decide)).trans (ops0_v46 (W0 m ρ c)))
theorem V3_v10 : V3 m ρ c main_v10 = recipCol (degree (m ((c : Thread nD τ).loc main_arg3))) :=
  (keep1_v10 (W2 m ρ c)).trans ((W2_of_ne m ρ c main_v10 (by decide)).trans (ops0_v10 (W0 m ρ c)))
theorem V3_arg0 : V3 m ρ c main_arg0 = (m ((c : Thread nD τ).loc main_arg0)) := (keep1_arg0 (W2 m ρ c)).trans (W2_arg0 m ρ c)
theorem V3_v91 : V3 m ρ c main_v91 = wmat ![0, 1, 0, 0] Facts₀.slices_S2x3x128x128_S1x1x128x128_0_1_0_0 (m ((c : Thread nD τ).loc main_arg5)) :=
  (ops1_v91 (W2 m ρ c)).trans (congrArg (wmat ![0, 1, 0, 0] Facts₀.slices_S2x3x128x128_S1x1x128x128_0_1_0_0) (W2_arg5 m ρ c))
theorem V3_v96 : V3 m ρ c main_v96 = rowOf (bvec ![0, 1, 0] Facts₀.slices_S2x3x128_S1x1x128_0_1_0 (m ((c : Thread nD τ).loc main_arg6))) :=
  (ops1_v96 (W2 m ρ c)).trans (congrArg (fun a => rowOf (bvec ![0, 1, 0] Facts₀.slices_S2x3x128_S1x1x128_0_1_0 a)) (W2_arg6 m ρ c))
theorem V3_v95 : V3 m ρ c main_v95 = wmat ![0, 1, 0, 0] Facts₀.slices_S2x3x128x128_S1x1x128x128_0_1_0_0 (m ((c : Thread nD τ).loc main_arg7)) :=
  (ops1_v95 (W2 m ρ c)).trans (congrArg (wmat ![0, 1, 0, 0] Facts₀.slices_S2x3x128x128_S1x1x128x128_0_1_0_0) (W2_arg7 m ρ c))

/-- The updated author rows: what the second region leaves in its output array. -/
def A1 : S50000x128.Idx → EReal :=
  Region1.G (V3 m ρ c main_v46) (V3 m ρ c main_v10) (V3 m ρ c main_arg0) (V3 m ρ c main_v91) (V3 m ρ c main_v96) (V3 m ρ c main_v95)

theorem W4_v97 : W4 m ρ c (Proc.devRef .tc main_v97) = A1 m ρ c :=
  (W4_arr m ρ c 6).trans (Region1.final (V3 m ρ) Cert.KernelIdeal.Body.author_body c)

theorem W4_v89 : W4 m ρ c (Proc.devRef .tc main_v89) = P1 m ρ c :=
  (W4_of_ne m ρ c main_v89 (by decide)).trans ((keep1_v89 (W2 m ρ c)).trans (W2_v89 m ρ c))

theorem W4_v10 : W4 m ρ c (Proc.devRef .tc main_v10) = recipCol (degree (m ((c : Thread nD τ).loc main_arg3))) :=
  ((W4_arr m ρ c 1).trans (((dat1 (V3 m ρ) c).arrAt_in 1 rfl _).trans (A_eq1 (V3 m ρ) c 1))).trans (V3_v10 m ρ c)

/-! ## The third region: the last author update and the head -/

theorem V5_v111 : V5 m ρ c main_v111 = aggr (P1 m ρ c) (m ((c : Thread nD τ).loc main_arg3)) :=
  (ops2_v111 (W4 m ρ c)).trans (congrArg₂ aggr (W4_v89 m ρ c) (W4_arg3 m ρ c))
theorem V5_v10 : V5 m ρ c main_v10 = recipCol (degree (m ((c : Thread nD τ).loc main_arg3))) := (keep2_v10 (W4 m ρ c)).trans (W4_v10 m ρ c)
theorem V5_v97 : V5 m ρ c main_v97 = A1 m ρ c := (keep2_v97 (W4 m ρ c)).trans (W4_v97 m ρ c)
theorem V5_v113 : V5 m ρ c main_v113 = wmat ![1, 1, 0, 0] Facts₀.slices_S2x3x128x128_S1x1x128x128_1_1_0_0 (m ((c : Thread nD τ).loc main_arg5)) :=
  (ops2_v113 (W4 m ρ c)).trans (congrArg (wmat ![1, 1, 0, 0] Facts₀.slices_S2x3x128x128_S1x1x128x128_1_1_0_0) (W4_arg5 m ρ c))
theorem V5_v118 : V5 m ρ c main_v118 = rowOf (bvec ![1, 1, 0] Facts₀.slices_S2x3x128_S1x1x128_1_1_0 (m ((c : Thread nD τ).loc main_arg6))) :=
  (ops2_v118 (W4 m ρ c)).trans (congrArg (fun a => rowOf (bvec ![1, 1, 0] Facts₀.slices_S2x3x128_S1x1x128_1_1_0 a)) (W4_arg6 m ρ c))
theorem V5_v117 : V5 m ρ c main_v117 = wmat ![1, 1, 0, 0] Facts₀.slices_S2x3x128x128_S1x1x128x128_1_1_0_0 (m ((c : Thread nD τ).loc main_arg7)) :=
  (ops2_v117 (W4 m ρ c)).trans (congrArg (wmat ![1, 1, 0, 0] Facts₀.slices_S2x3x128x128_S1x1x128x128_1_1_0_0) (W4_arg7 m ρ c))
theorem V5_arg8 : V5 m ρ c main_arg8 = (m ((c : Thread nD τ).loc main_arg8)) := (keep2_arg8 (W4 m ρ c)).trans (W4_arg8 m ρ c)
theorem V5_v119 : V5 m ρ c main_v119 = rowOf32 (m ((c : Thread nD τ).loc main_arg9)) :=
  (ops2_v119 (W4 m ρ c)).trans (congrArg rowOf32 (W4_arg9 m ρ c))

/-- The program's result: what the third region leaves in its output array. -/
theorem W6_v120 : W6 m ρ c (Proc.devRef .tc main_v120)
    = Region2.G (V5 m ρ c main_v111) (V5 m ρ c main_v10) (V5 m ρ c main_v97) (V5 m ρ c main_v113) (V5 m ρ c main_v118)
        (V5 m ρ c main_v117) (V5 m ρ c main_arg8) (V5 m ρ c main_v119) :=
  (W6_arr m ρ c 8).trans (Region2.final (V5 m ρ) Cert.KernelIdeal.Body.final_body c)

end Cert.KernelIdeal.Walk

end
-- ==== Proof.RefStages.lean ====
/-
  Three whole-array compositions of host operations, each read at one entry as a plain formula over the extended reals.

  Every operation in them but the two products is pointwise, or repeats a smaller array along new axes: a scalar
  repeated everywhere reads the scalar; a length-n vector stood up as a column and repeated along the columns reads,
  at (r, k), the vector at r; a length-n vector laid down as a row and repeated down the rows reads, at (r, t), the
  vector at t. A product of an [A, K] array by a [K, B] array that contracts the left operand's axis 1 with the right
  operand's axis 0 reads, at (p, c), the sum over k of lhs[p, k] · rhs[k, c]: nothing of an order of summation or of a
  rounding is left at the exact instance.
-/
import proofs.«159525_j9775345565891_2_alg».proof.Proof.RefChains
import proofs.«159525_j9775345565891_2_alg».proof.Proof.NetSpec
import proofs.«159525_j9775345565891_2_alg».proof.Proof.LibPlainDot
import Idealize.ShloMosaic.Lib.IdealHost
import Idealize.ShloMosaic.Lib.KernelVsHost

noncomputable section

open scoped BigOperators

namespace Cert.ReferenceIdeal.Stage

open Idealize.ShloMosaic Idealize.ShloMosaic.ValueIdx Cert.ReferenceIdeal Cert.ReferenceIdeal.Chain

/-! ## A vector repeated along a new axis -/

section Repeat

variable {α : Type}

/-- A length-n vector stood up as an [n, 1] column and repeated along m columns reads, at (r, k), the vector at r. -/
theorem broadcast_column_apply {n m : Nat}
    (h1 : (⟨1, ![n]⟩ : Shape).BroadcastsInDim ⟨2, ![n, 1]⟩ ![0])
    (h2 : (⟨2, ![n, 1]⟩ : Shape).BroadcastsInDim ⟨2, ![n, m]⟩ ![0, 1])
    (x : (⟨1, ![n]⟩ : Shape).Idx → α) (r : Fin n) (k : Fin m) :
    broadcastInDim ⟨2, ![n, m]⟩ ![0, 1] h2 (broadcastInDim ⟨2, ![n, 1]⟩ ![0] h1 x) (ix2 r k) = x (ix1 r) := by
  have e2 : broadcastInDim ⟨2, ![n, m]⟩ ![0, 1] h2 (broadcastInDim ⟨2, ![n, 1]⟩ ![0] h1 x) (ix2 r k)
      = broadcastInDim ⟨2, ![n, 1]⟩ ![0] h1 x (ix2 r (0 : Fin 1)) := by
    refine broadcastInDim_apply ![0, 1] h2 _ (ix2 r k) (ix2 r (0 : Fin 1)) (fun a => ?_)
    fin_cases a
    · show r.val = if n = 1 then 0 else r.val
      split_ifs with hn
      · have := r.isLt; omega
      · rfl
    · show (0 : ℕ) = if (1 : ℕ) = 1 then 0 else _
      simp
  have e1 : broadcastInDim ⟨2, ![n, 1]⟩ ![0] h1 x (ix2 r (0 : Fin 1)) = x (ix1 r) := by
    refine broadcastInDim_apply ![0] h1 x (ix2 r (0 : Fin 1)) (ix1 r) (fun a => ?_)
    fin_cases a
    show r.val = if n = 1 then 0 else r.val
    split_ifs with hn
    · have := r.isLt; omega
    · rfl
  exact e2.trans e1

/-- A length-n vector laid down as a [1, n] row and repeated down m rows reads, at (r, t), the vector at t. -/
theorem broadcast_row_apply {m n : Nat}
    (h1 : (⟨1, ![n]⟩ : Shape).BroadcastsInDim ⟨2, ![1, n]⟩ ![1])
    (h2 : (⟨2, ![1, n]⟩ : Shape).BroadcastsInDim ⟨2, ![m, n]⟩ ![0, 1])
    (x : (⟨1, ![n]⟩ : Shape).Idx → α) (r : Fin m) (t : Fin n) :
    broadcastInDim ⟨2, ![m, n]⟩ ![0, 1] h2 (broadcastInDim ⟨2, ![1, n]⟩ ![1] h1 x) (ix2 r t) = x (ix1 t) := by
  rw [broadcastInDim_oneRow_apply]
  refine broadcastInDim_apply ![1] h1 x (ix2 (0 : Fin 1) t) (ix1 t) (fun a => ?_)
  fin_cases a
  show t.val = if n = 1 then 0 else t.val
  split_ifs with hn
  · have := t.isLt; omega
  · rfl

end Repeat

variable [Cert.ReferenceIdeal.Facts]

/-! ## The leaky rectifier -/

/-- The rectifier on a whole array reads, at every entry, the rectifier of that entry. -/
theorem leakyArr_apply (x : FVec Ideal S50000x128 .f32) (i : S50000x128.Idx) :
    leakyArr (F := Ideal) x i = Cert.Net.leaky (x i) := by
  unfold leakyArr Cert.Net.leaky
  rw [select_apply, cmpf_apply, mulf_apply, broadcastInDim_scalar_apply, broadcastInDim_scalar_apply]
  rfl

/-! ## The two products -/

/-- The [50000, 128] by [128, 128] product at (p, c) is Σ_k lhs[p, k] · rhs[k, c]. -/
theorem dot128_apply (lhs : FVec Ideal S50000x128 .f32) (rhs : FVec Ideal S128x128 .f32) (p : Fin 50000) (c : Fin 128) :
    Host.dotGeneral dot_S50000x128_S128x128_S50000x128_1_0_0_1_n_n none lhs rhs (ix2 p c)
      = ∑ k : Fin 128, lhs (ix2 p k) * rhs (ix2 k c) := by
  have hr : (dot_S50000x128_S128x128_S50000x128_1_0_0_1_n_n).contr.rank = 1 := rfl
  have hs : (dot_S50000x128_S128x128_S50000x128_1_0_0_1_n_n).contr.size ⟨0, by omega⟩ = 128 := rfl
  exact PlainDot.dotGeneral_apply (A := 50000) (K := 128) (B := 128) dot_S50000x128_S128x128_S50000x128_1_0_0_1_n_n none .single hr hs
    (fun j q => rfl)
    (fun j q => DotDims.lhsIdx_val_of_single _ (cl := 1) rfl j q)
    (fun j q => DotDims.rhsIdx_val_of_single _ (cr := 0) rfl j q)
    (fun j q => rfl) lhs rhs p c

/-- The [50000, 128] by [128, 32] product at (p, c) is Σ_k lhs[p, k] · rhs[k, c]. -/
theorem dot32_apply (lhs : FVec Ideal S50000x128 .f32) (rhs : FVec Ideal S128x32 .f32) (p : Fin 50000) (c : Fin 32) :
    Host.dotGeneral dot_S50000x128_S128x32_S50000x32_1_0_0_1_n_n none lhs rhs (ix2 p c)
      = ∑ k : Fin 128, lhs (ix2 p k) * rhs (ix2 k c) := by
  have hr : (dot_S50000x128_S128x32_S50000x32_1_0_0_1_n_n).contr.rank = 1 := rfl
  have hs : (dot_S50000x128_S128x32_S50000x32_1_0_0_1_n_n).contr.size ⟨0, by omega⟩ = 128 := rfl
  exact PlainDot.dotGeneral_apply (A := 50000) (K := 128) (B := 32) dot_S50000x128_S128x32_S50000x32_1_0_0_1_n_n none .single hr hs
    (fun j q => rfl)
    (fun j q => DotDims.lhsIdx_val_of_single _ (cl := 1) rfl j q)
    (fun j q => DotDims.rhsIdx_val_of_single _ (cr := 0) rfl j q)
    (fun j q => rfl) lhs rhs p c

/-! ## One relation's term of a layer, and the output head -/

/-- One relation's array at (r, d): the neighbour sum divided row by row by the degree, sent through the message
    weights, plus the bias at d, plus the node's own row sent through the root weights. -/
theorem sageArr_apply (A X : FVec Ideal S50000x128 .f32) (D : FVec Ideal S50000 .f32) (Wl Wr : FVec Ideal S128x128 .f32)
    (b : FVec Ideal S128 .f32) (r : Fin 50000) (d : Fin 128) :
    sageArr (F := Ideal) A X D Wl Wr b (ix2 r d)
      = Cert.Net.sage (fun r k => Ideal.div (A (ix2 r k)) (D (ix1 r))) (fun r k => X (ix2 r k)) (fun k d => Wl (ix2 k d))
          (fun k d => Wr (ix2 k d)) (fun d => b (ix1 d)) r d := by
  unfold sageArr Cert.Net.sage
  rw [addf_apply, addf_apply, dot128_apply, dot128_apply, broadcast_row_apply]
  refine congrArg (· + _) (congrArg (· + _) (Finset.sum_congr rfl fun k _ => ?_))
  rw [hostDivf_apply, broadcast_column_apply]

/-- The output head's array at (r, o): the row of h sent through the head's weights, plus the bias at o. -/
theorem headArr_apply (H : FVec Ideal S50000x128 .f32) (W : FVec Ideal S128x32 .f32) (b : FVec Ideal S32 .f32)
    (r : Fin 50000) (o : Fin 32) :
    headArr (F := Ideal) H W b (ix2 r o)
      = Cert.Net.head (fun r k => H (ix2 r k)) (fun k o => W (ix2 k o)) (fun o => b (ix1 o)) r o := by
  unfold headArr Cert.Net.head
  rw [addf_apply, dot32_apply, broadcast_row_apply]

end Cert.ReferenceIdeal.Stage

end
-- ==== Proof.LibSegmentMean.lean ====
/-
  A graph's segment sum read at an index. Edge `e` has a source row and a destination row, read off two integer index
  columns `[E, 1]`. A gather of rows takes row `src(e)` of a node matrix `[N, C]` (the start index read signed and clamped
  into `[0, N − 1]`); a scatter-add of rows adds edge row `e` of `[E, C]` into node row `dst(e)` (the start index read signed,
  not clamped: an edge whose index leaves `[0, N)` lands nowhere). Read at `(i, q)`, the scatter-add of the gathered rows is
  the sum, over the edges whose destination is `i`, of the entries `(src(e), q)`; this sum is linear in the matrix, so it
  commutes with a product by a matrix on the right, and so does its quotient by a nonzero real. The scatter-add of ones
  counts the edges into a node: a nonnegative real, at least one after the maximum with one.
-/
import Idealize.ShloMosaic.PureOps.Ideal.Laws
import Idealize.ShloMosaic.Lib.ValueIdx
import Idealize.ShloMosaic.Lib.Pipeline.Value

noncomputable section

open scoped BigOperators

namespace Cert.SegmentMean

open Idealize.ShloMosaic Idealize.ShloMosaic.ValueIdx

/-! ## The dimension numbers -/

/-- Scatter of rows: updates `[E, C]` into an operand `[N, C]` at the row indices `[E, 1]`. -/
abbrev rowScatter (N E C : ℕ) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- Scatter of scalars: updates `[E]` into an operand `[N]` at the indices `[E, 1]`. -/
abbrev vecScatter (N E : ℕ) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- Gather of rows: result `[E, C]` out of an operand `[N, C]` at the row indices `[E, 1]`. -/
abbrev rowGather (N E C : ℕ) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row edge `e` reads: its start index, read signed and clamped into `[0, N − 1]`. A function of the index column and
    the edge alone, the same for every column count. -/
def rowOf {N E w : ℕ} (hN : 0 < N) (idx : IVec ⟨2, ![E, 1]⟩ w) (e : Fin E) : Fin N :=
  ⟨min (idx (ix2 e (0 : Fin 1))).toInt.toNat (N - 1), by omega⟩

/-! ## The gather of rows at an index -/

section Gather
variable {α : Type}

/-- The gather of rows at `(e, q)` is the operand at `(rowOf e, q)`: row the clamped signed start index of edge `e`, column `q`. -/
theorem rowGather_apply {N E C w : ℕ} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (q : Fin C) :
    Host.gather (rowGather N E C wf) x idx (ix2 e q) = x (ix2 (rowOf hN idx e) q) := by
  unfold Host.gather
  congr 1
  funext a
  refine Fin.ext ?_
  match a with
  | ⟨0, _⟩ =>
    show (rowGather N E C wf).start (ix2 e q) idx 0 + (rowGather N E C wf).batchCoord (ix2 e q) 0
      + (rowGather N E C wf).offCoord (ix2 e q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather N E C wf).startIndexMap from List.mem_singleton.mpr rfl)]
    have hsi : (rowGather N E C wf).siIdx (ix2 e q) ⟨List.idxOf (0 : Fin 2) (rowGather N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGather N E C wf).start (ix2 e q) idx 1 + (rowGather N E C wf).batchCoord (ix2 e q) 1
      + (rowGather N E C wf).offCoord (ix2 e q) 1 = q.val
    rw [GatherDims.batchCoord_eq_zero _ _ _ List.not_mem_nil]
    have hst : (rowGather N E C wf).start (ix2 e q) idx 1 = 0 := by
      unfold GatherDims.start
      rw [dif_neg (show (1 : Fin 2) ∉ [(0 : Fin 2)] by decide)]
    rw [hst]
    simp only [Nat.add_zero, Nat.zero_add]
    unfold GatherDims.offCoord
    rw [dif_pos ((GatherDims.mem_sKept _ _).2 ⟨show (1 : Fin 2) ∉ [(0 : Fin 2)] by decide, List.not_mem_nil⟩)]
    rfl

end Gather

/-! ## The scatter-add of rows at an index -/

/-- Update entry `(e, q')` of a scatter of rows lands on `(i, q)` exactly when the columns agree and the signed start
    index of edge `e` is `i`. -/
theorem rowScatter_resultIdx?_eq_some {N E C w : ℕ}
    (wf : ScatterDims.WF ⟨2, ![N, C]⟩ ⟨2, ![E, 1]⟩ ⟨2, ![E, C]⟩ [1] [0] [0] 1)
    (idx : IVec ⟨2, ![E, 1]⟩ w) (e : Fin E) (q' : Fin C) (i : Fin N) (q : Fin C) :
    (rowScatter N E C wf).resultIdx? (ix2 e q') idx = some (ix2 i q)
      ↔ q' = q ∧ (idx (ix2 e (0 : Fin 1))).toInt = (i.val : ℤ) := by
  have hs0 : (rowScatter N E C wf).start (ix2 e q') idx 0 = (idx (ix2 e (0 : Fin 1))).toInt := by
    unfold ScatterDims.start
    rw [dif_pos (show (0 : Fin 2) ∈ (rowScatter N E C wf).scatterDimsToOperandDims from List.mem_singleton.mpr rfl)]
    have hsi : (rowScatter N E C wf).siIdx (ix2 e q') ⟨List.idxOf (0 : Fin 2) (rowScatter N E C wf).scatterDimsToOperandDims,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hs1 : (rowScatter N E C wf).start (ix2 e q') idx 1 = 0 := by
    unfold ScatterDims.start
    rw [dif_neg (show (1 : Fin 2) ∉ [(0 : Fin 2)] by decide)]
  have hw0 : (rowScatter N E C wf).window (ix2 e q') 0 = 0 := by
    unfold ScatterDims.window
    rw [dif_neg (show (0 : Fin 2) ∉ Shape.kept (⟨2, ![N, C]⟩ : Shape) [(0 : Fin 2)] by simp [Shape.kept])]
  have hw1 : (rowScatter N E C wf).window (ix2 e q') 1 = q'.val := by
    unfold ScatterDims.window
    rw [dif_pos (show (1 : Fin 2) ∈ Shape.kept (⟨2, ![N, C]⟩ : Shape) [(0 : Fin 2)] by simp [Shape.kept])]
    rfl
  have hi := i.isLt
  have hq := q.isLt
  have hq' := q'.isLt
  unfold ScatterDims.resultIdx?
  split
  · rename_i h
    have h0 := (h 0).1
    rw [hs0, hw0] at h0
    rw [Option.some.injEq]
    constructor
    · intro hf
      have e0 := congrArg Fin.val (congrFun hf 0)
      have e1 := congrArg Fin.val (congrFun hf 1)
      change ((rowScatter N E C wf).start (ix2 e q') idx 0 + ((rowScatter N E C wf).window (ix2 e q') 0 : ℕ)).toNat = i.val at e0
      change ((rowScatter N E C wf).start (ix2 e q') idx 1 + ((rowScatter N E C wf).window (ix2 e q') 1 : ℕ)).toNat = q.val at e1
      rw [hs0, hw0] at e0
      rw [hs1, hw1] at e1
      refine ⟨Fin.ext (by omega), by omega⟩
    · rintro ⟨rfl, hP⟩
      funext a
      refine Fin.ext ?_
      match a with
      | ⟨0, _⟩ =>
        show ((rowScatter N E C wf).start (ix2 e q') idx 0 + ((rowScatter N E C wf).window (ix2 e q') 0 : ℕ)).toNat = i.val
        rw [hs0, hw0]; omega
      | ⟨1, _⟩ =>
        show ((rowScatter N E C wf).start (ix2 e q') idx 1 + ((rowScatter N E C wf).window (ix2 e q') 1 : ℕ)).toNat = q'.val
        rw [hs1, hw1]; omega
  · rename_i h
    constructor
    · intro hf; exact absurd hf (by simp)
    · rintro ⟨rfl, hP⟩
      exfalso
      apply h
      intro a
      match a with
      | ⟨0, _⟩ =>
        show 0 ≤ (rowScatter N E C wf).start (ix2 e q') idx 0 + ((rowScatter N E C wf).window (ix2 e q') 0 : ℕ)
          ∧ (rowScatter N E C wf).start (ix2 e q') idx 0 + ((rowScatter N E C wf).window (ix2 e q') 0 : ℕ) < (N : ℤ)
        rw [hs0, hw0]; omega
      | ⟨1, _⟩ =>
        show 0 ≤ (rowScatter N E C wf).start (ix2 e q') idx 1 + ((rowScatter N E C wf).window (ix2 e q') 1 : ℕ)
          ∧ (rowScatter N E C wf).start (ix2 e q') idx 1 + ((rowScatter N E C wf).window (ix2 e q') 1 : ℕ) < (C : ℤ)
        rw [hs1, hw1]; omega

/-- THE SCATTER-ADD OF ROWS AT `(i, q)`: the operand's entry plus the sum of the update entries `(e, q)` over the edges `e`
    whose signed start index is `i`. -/
theorem rowScatter_apply {N E C w : ℕ}
    (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w) (upd : (⟨2, ![E, C]⟩ : Shape).Idx → EReal)
    (i : Fin N) (q : Fin C) :
    Ideal.hostScatterAdd (rowScatter N E C wf) x idx upd (ix2 i q)
      = x (ix2 i q) + ∑ e ∈ Finset.univ.filter (fun e : Fin E => (idx (ix2 e (0 : Fin 1))).toInt = (i.val : ℤ)), upd (ix2 e q) := by
  unfold Ideal.hostScatterAdd
  congr 1
  rw [Finset.sum_filter, sum_idx2, Finset.sum_filter]
  refine Finset.sum_congr rfl fun e _ => ?_
  by_cases hP : (idx (ix2 e (0 : Fin 1))).toInt = (i.val : ℤ)
  · rw [if_pos hP, Finset.sum_eq_single q]
    · rw [if_pos ((rowScatter_resultIdx?_eq_some wf idx e q i q).2 ⟨rfl, hP⟩)]
    · intro b _ hb
      rw [if_neg fun h => hb ((rowScatter_resultIdx?_eq_some wf idx e b i q).1 h).1]
    · intro h; exact absurd (Finset.mem_univ q) h
  · rw [if_neg hP]
    exact Finset.sum_eq_zero fun b _ => if_neg fun h => hP ((rowScatter_resultIdx?_eq_some wf idx e b i q).1 h).2

/-! ## The scatter-add of scalars at an index -/

/-- Update entry `e` of a scatter of scalars lands on `i` exactly when the signed start index of edge `e` is `i`. -/
theorem vecScatter_resultIdx?_eq_some {N E w : ℕ}
    (wf : ScatterDims.WF ⟨1, ![N]⟩ ⟨2, ![E, 1]⟩ ⟨1, ![E]⟩ [] [0] [0] 1)
    (idx : IVec ⟨2, ![E, 1]⟩ w) (e : Fin E) (i : Fin N) :
    (vecScatter N E wf).resultIdx? (ix1 e) idx = some (ix1 i) ↔ (idx (ix2 e (0 : Fin 1))).toInt = (i.val : ℤ) := by
  have hs0 : (vecScatter N E wf).start (ix1 e) idx 0 = (idx (ix2 e (0 : Fin 1))).toInt := by
    unfold ScatterDims.start
    rw [dif_pos (show (0 : Fin 1) ∈ (vecScatter N E wf).scatterDimsToOperandDims from List.mem_singleton.mpr rfl)]
    have hsi : (vecScatter N E wf).siIdx (ix1 e) ⟨List.idxOf (0 : Fin 1) (vecScatter N E wf).scatterDimsToOperandDims,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hw0 : (vecScatter N E wf).window (ix1 e) 0 = 0 := by
    unfold ScatterDims.window
    rw [dif_neg (show (0 : Fin 1) ∉ Shape.kept (⟨1, ![N]⟩ : Shape) [(0 : Fin 1)] by simp [Shape.kept])]
  have hi := i.isLt
  unfold ScatterDims.resultIdx?
  split
  · rename_i h
    have h0 := (h 0).1
    rw [hs0, hw0] at h0
    rw [Option.some.injEq]
    constructor
    · intro hf
      have e0 := congrArg Fin.val (congrFun hf 0)
      change ((vecScatter N E wf).start (ix1 e) idx 0 + ((vecScatter N E wf).window (ix1 e) 0 : ℕ)).toNat = i.val at e0
      rw [hs0, hw0] at e0
      omega
    · intro hP
      funext a
      refine Fin.ext ?_
      match a with
      | ⟨0, _⟩ =>
        show ((vecScatter N E wf).start (ix1 e) idx 0 + ((vecScatter N E wf).window (ix1 e) 0 : ℕ)).toNat = i.val
        rw [hs0, hw0]; omega
  · rename_i h
    constructor
    · intro hf; exact absurd hf (by simp)
    · intro hP
      exfalso
      apply h
      intro a
      match a with
      | ⟨0, _⟩ =>
        show 0 ≤ (vecScatter N E wf).start (ix1 e) idx 0 + ((vecScatter N E wf).window (ix1 e) 0 : ℕ)
          ∧ (vecScatter N E wf).start (ix1 e) idx 0 + ((vecScatter N E wf).window (ix1 e) 0 : ℕ) < (N : ℤ)
        rw [hs0, hw0]; omega

/-- A rank-1 index set is its coordinate's range, so a sum over it is the sum over the coordinate. -/
theorem sum_idx1 {M : Type*} [AddCommMonoid M] {n : ℕ} (f : (⟨1, ![n]⟩ : Shape).Idx → M) :
    ∑ j, f j = ∑ a : Fin n, f (ix1 a) := by
  refine Fintype.sum_equiv ⟨fun j => j 0, fun a => ix1 a, fun j => (eq_ix1 j).symm, fun _ => rfl⟩ _ _ fun j => ?_
  exact congrArg f (eq_ix1 j)

/-- THE SCATTER-ADD OF SCALARS AT `i`: the operand's entry plus the sum of the update entries `e` over the edges `e` whose
    signed start index is `i`. -/
theorem vecScatter_apply {N E w : ℕ}
    (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w) (upd : (⟨1, ![E]⟩ : Shape).Idx → EReal) (i : Fin N) :
    Ideal.hostScatterAdd (vecScatter N E wf) x idx upd (ix1 i)
      = x (ix1 i) + ∑ e ∈ Finset.univ.filter (fun e : Fin E => (idx (ix2 e (0 : Fin 1))).toInt = (i.val : ℤ)), upd (ix1 e) := by
  unfold Ideal.hostScatterAdd
  congr 1
  rw [Finset.sum_filter, sum_idx1, Finset.sum_filter]
  refine Finset.sum_congr rfl fun e _ => ?_
  by_cases hP : (idx (ix2 e (0 : Fin 1))).toInt = (i.val : ℤ)
  · rw [if_pos hP, if_pos ((vecScatter_resultIdx?_eq_some wf idx e i).2 hP)]
  · rw [if_neg hP, if_neg fun h => hP ((vecScatter_resultIdx?_eq_some wf idx e i).1 h)]

/-! ## The segment sum of gathered rows, its linearity, and the degree -/

/-- The coercion of a finite sum of reals into the extended reals is the sum of the coercions. -/
theorem coe_sum {ι : Type*} (s : Finset ι) (f : ι → ℝ) : ((∑ i ∈ s, f i : ℝ) : EReal) = ∑ i ∈ s, (f i : EReal) := by
  classical
  refine Finset.induction_on s ?_ ?_
  · rw [Finset.sum_empty, Finset.sum_empty, EReal.coe_zero]
  · intro a s ha ih
    rw [Finset.sum_insert ha, Finset.sum_insert ha, EReal.coe_add, ih]

/-- THE SEGMENT SUM AT `(i, q)`: rows of `M` gathered at the sources and scatter-added from zero at the destinations give the
    sum, over the edges whose destination is `i`, of the entries `(rowOf src e, q)` of `M`. -/
theorem segmentSum_apply {N E C w : ℕ} (hN : 0 < N)
    (wfs : ScatterDims.WF ⟨2, ![N, C]⟩ ⟨2, ![E, 1]⟩ ⟨2, ![E, C]⟩ [1] [0] [0] 1)
    (wfg : GatherDims.WF ⟨2, ![N, C]⟩ ⟨2, ![E, 1]⟩ ⟨2, ![E, C]⟩ [1] [0] [] [0] [] 1 ![1, C])
    (M : (⟨2, ![N, C]⟩ : Shape).Idx → EReal) (src dst : IVec ⟨2, ![E, 1]⟩ w) (i : Fin N) (q : Fin C) :
    Ideal.hostScatterAdd (rowScatter N E C wfs) (fun _ => 0) dst (Host.gather (rowGather N E C wfg) M src) (ix2 i q)
      = ∑ e ∈ Finset.univ.filter (fun e : Fin E => (dst (ix2 e (0 : Fin 1))).toInt = (i.val : ℤ)),
          M (ix2 (rowOf hN src e) q) := by
  rw [rowScatter_apply, zero_add]
  exact Finset.sum_congr rfl fun e _ => rowGather_apply hN wfg M src e q

/-- THE SEGMENT MEAN IS LINEAR: over real data, the segment sum of the rows of a product `P = X · W`, divided by a nonzero
    real, is the segment sum of the rows of `X` divided by it, times `W`. -/
theorem segmentMean_mul {N E K C w : ℕ}
    (wfs : ScatterDims.WF ⟨2, ![N, C]⟩ ⟨2, ![E, 1]⟩ ⟨2, ![E, C]⟩ [1] [0] [0] 1)
    (wfg : GatherDims.WF ⟨2, ![N, C]⟩ ⟨2, ![E, 1]⟩ ⟨2, ![E, C]⟩ [1] [0] [] [0] [] 1 ![1, C])
    (wfs' : ScatterDims.WF ⟨2, ![N, K]⟩ ⟨2, ![E, 1]⟩ ⟨2, ![E, K]⟩ [1] [0] [0] 1)
    (wfg' : GatherDims.WF ⟨2, ![N, K]⟩ ⟨2, ![E, 1]⟩ ⟨2, ![E, K]⟩ [1] [0] [] [0] [] 1 ![1, K])
    (X : (⟨2, ![N, K]⟩ : Shape).Idx → EReal) (W : (⟨2, ![K, C]⟩ : Shape).Idx → EReal)
    (P : (⟨2, ![N, C]⟩ : Shape).Idx → EReal)
    (hX : ∀ j, ∃ r : ℝ, X j = (r : EReal)) (hW : ∀ j, ∃ r : ℝ, W j = (r : EReal))
    (hP : ∀ (n : Fin N) (q : Fin C), P (ix2 n q) = ∑ k : Fin K, X (ix2 n k) * W (ix2 k q))
    (src dst : IVec ⟨2, ![E, 1]⟩ w) (c : EReal) (hc : ∃ r : ℝ, r ≠ 0 ∧ c = (r : EReal)) (i : Fin N) (q : Fin C) :
    Ideal.div (Ideal.hostScatterAdd (rowScatter N E C wfs) (fun _ => 0) dst
        (Host.gather (rowGather N E C wfg) P src) (ix2 i q)) c
      = ∑ k : Fin K, Ideal.div (Ideal.hostScatterAdd (rowScatter N E K wfs') (fun _ => 0) dst
          (Host.gather (rowGather N E K wfg') X src) (ix2 i k)) c * W (ix2 k q) := by
  have hN : 0 < N := Nat.lt_of_le_of_lt (Nat.zero_le _) i.isLt
  choose xr hxr using hX
  choose wr hwr using hW
  obtain ⟨r, hr, rfl⟩ := hc
  simp only [segmentSum_apply hN, Ideal.div_coe hr, hP, hxr, hwr]
  simp only [← EReal.coe_mul, ← coe_sum]
  rw [EReal.coe_eq_coe_iff]
  simp only [Finset.sum_mul]
  refine Finset.sum_comm.trans ?_
  refine Finset.sum_congr rfl fun k _ => Finset.sum_congr rfl fun e _ => ?_
  ring

/-- THE DEGREE, FLOORED AT ONE, IS A NONZERO REAL: the scatter-add of ones from zero counts the edges into node `i`, and
    the maximum of that count and one is a real number, at least one. -/
theorem degree_max_one {N E w : ℕ}
    (wf : ScatterDims.WF ⟨1, ![N]⟩ ⟨2, ![E, 1]⟩ ⟨1, ![E]⟩ [] [0] [0] 1)
    (dst : IVec ⟨2, ![E, 1]⟩ w) (one : EReal) (h1 : one = ((1 : ℝ) : EReal)) (i : Fin N) :
    ∃ r : ℝ, r ≠ 0 ∧
      max (Ideal.hostScatterAdd (vecScatter N E wf) (fun _ => 0) dst (fun _ => one) (ix1 i)) one = (r : EReal) := by
  subst h1
  simp only [vecScatter_apply, zero_add]
  have hsum : ∑ _e ∈ Finset.univ.filter (fun e : Fin E => (dst (ix2 e (0 : Fin 1))).toInt = (i.val : ℤ)), ((1 : ℝ) : EReal)
      = (((Finset.univ.filter (fun e : Fin E => (dst (ix2 e (0 : Fin 1))).toInt = (i.val : ℤ))).card : ℝ) : EReal) := by
    rw [← coe_sum _ (fun _ => (1 : ℝ)), Finset.sum_const, nsmul_eq_mul, mul_one]
  rw [hsum]
  refine ⟨max ((Finset.univ.filter (fun e : Fin E => (dst (ix2 e (0 : Fin 1))).toInt = (i.val : ℤ))).card : ℝ) 1, ?_, ?_⟩
  · exact ne_of_gt (lt_of_lt_of_le one_pos (le_max_right _ _))
  · exact (EReal.coe_strictMono.monotone.map_max).symm

end Cert.SegmentMean

end
-- ==== Proof.DegreeReal.lean ====
/-
  The in-degree floored at one is a nonzero real, and dividing by it is multiplying by its reciprocal.

  The in-degree of node r is the number of edges whose destination is r: ones added into a zero array at the
  destination ids. A count is a natural number, so its maximum with one is a real number that is at least one, hence
  not zero. Division by a nonzero real c is multiplication by the real 1 / c, at the infinities too, and the word
  0x3F800000 denotes the real one; so a · (1 / d) and a / d are the same extended real when d is such a degree.
-/
import proofs.«159525_j9775345565891_2_alg».proof.Proof.Gen.ReferenceIdeal
import proofs.«159525_j9775345565891_2_alg».proof.Proof.RefChains
import proofs.«159525_j9775345565891_2_alg».proof.Proof.LibSegmentMean

noncomputable section

namespace Cert.Net.Degree

open Idealize.ShloMosaic Idealize.ShloMosaic.ValueIdx Cert.ReferenceIdeal Cert.ReferenceIdeal.Facts₀

/-- The binary32 word 0x3F800000 denotes one. -/
theorem ofBits_one : Ideal.ofBits .f32 0x3F800000#32 = 1 := by
  simp [Ideal.ofBits, Ideal.ieee, -EReal.coe_mul]; norm_num

/-- … the real one, as an extended real. -/
theorem ofBits_one_real : Ideal.ofBits .f32 0x3F800000#32 = ((1 : ℝ) : EReal) :=
  ofBits_one.trans EReal.coe_one.symm

/-- The zero array the count starts from. -/
theorem zeros_eq : (broadcastInDim S50000 ![] bcast_S_S50000 (constant (F := Ideal) S_ .f32 0x00000000#32))
    = fun _ => (0 : EReal) := funext fun _ => Ideal.ofBits_zero_f32

/-- The array of ones added per edge. -/
theorem ones_eq : (broadcastInDim S800000 ![] bcast_S_S800000 (constant (F := Ideal) S_ .f32 0x3F800000#32))
    = fun _ => Ideal.ofBits .f32 0x3F800000#32 := rfl

/-- The count's dimension numbers are those of a scatter of scalars into a vector. -/
theorem rec_eq : scatter_S50000_S800000x1_S800000_n_0_0_1
    = Cert.SegmentMean.vecScatter 50000 800000 scatter_S50000_S800000x1_S800000_n_0_0_1_wf := rfl

/-- The in-degree count is the scatter-add of ones from zero at the destination ids. -/
theorem count_eq (e : (⟨Cert.ReferenceIdeal.S2x800000, .i32⟩ : BufTy).Contents (Elt Ideal)) :
    Chain.count (F := Ideal) e
      = Ideal.hostScatterAdd (Cert.SegmentMean.vecScatter 50000 800000 scatter_S50000_S800000x1_S800000_n_0_0_1_wf)
          (fun _ => 0) (broadcastInDim S800000x1 ![0] bcast_S800000_S800000x1_0 (Chain.dstIds (F := Ideal) e))
          (fun _ => Ideal.ofBits .f32 0x3F800000#32) := by
  unfold Chain.count Host.scatterAdd
  rw [Ideal.hostScatterAdd_def, zeros_eq, ones_eq, rec_eq]

/-- The floored in-degree of node r is a nonzero real. -/
theorem degree_real (e : (⟨Cert.ReferenceIdeal.S2x800000, .i32⟩ : BufTy).Contents (Elt Ideal)) (r : Fin 50000) :
    ∃ c : ℝ, c ≠ 0 ∧ Cert.ReferenceIdeal.Chain.degree (F := Ideal) e (ix1 r) = (c : EReal) := by
  obtain ⟨c, hc, hmax⟩ := Cert.SegmentMean.degree_max_one (N := 50000) (E := 800000)
    scatter_S50000_S800000x1_S800000_n_0_0_1_wf
    (broadcastInDim S800000x1 ![0] bcast_S800000_S800000x1_0 (Chain.dstIds (F := Ideal) e))
    (Ideal.ofBits .f32 0x3F800000#32) ofBits_one_real r
  refine ⟨c, hc, ?_⟩
  have hone : broadcastInDim S50000 ![] bcast_S_S50000 (constant (F := Ideal) S_ .f32 0x3F800000#32) (ix1 r)
      = Ideal.ofBits .f32 0x3F800000#32 := rfl
  unfold Chain.degree
  rw [maximumf_apply, count_eq, hone]
  with_reducible exact hmax

/-- Multiplying by the reciprocal of a nonzero real is dividing by it. -/
theorem mul_recip_eq_div (a d : EReal) (c : ℝ) (hc : c ≠ 0) (hd : d = (c : EReal)) :
    a * Ideal.div (Ideal.ofBits .f32 0x3F800000#32) d = Ideal.div a d := by
  subst hd
  rw [Ideal.div_coe hc, Ideal.div_coe hc, ofBits_one, one_mul]

end Cert.Net.Degree

end
-- ==== Proof.KerFormsApply.lean ====
/-
  Three small layouts read at one entry over the extended reals.

  A length-n vector stood up as an [n, 1] column reads, at (r, 0), the vector at r; so the reciprocal degree column at
  (r, 0) is one divided by the degree of row r, the one being a scalar repeated along the rows. A length-n line laid
  as a [1, n] row by a change of shape keeps its row-major order, so it reads, at (0, c), the line at c.
-/
import proofs.«159525_j9775345565891_2_alg».proof.Proof.KerForms
import Idealize.ShloMosaic.Lib.IdealHost
import Idealize.ShloMosaic.Lib.ValueLayout

noncomputable section

namespace Cert.KernelIdeal.Forms

open Idealize.ShloMosaic Idealize.ShloMosaic.ValueIdx Cert.KernelIdeal

/-- A length-n vector stood up as an [n, 1] column reads, at (r, u), the vector at r. -/
theorem column_apply {α : Type} {n : Nat} (h : (⟨1, ![n]⟩ : Shape).BroadcastsInDim ⟨2, ![n, 1]⟩ ![0])
    (x : (⟨1, ![n]⟩ : Shape).Idx → α) (r : Fin n) (u : Fin 1) :
    broadcastInDim ⟨2, ![n, 1]⟩ ![0] h x (ix2 r u) = x (ix1 r) := by
  refine broadcastInDim_apply ![0] h x (ix2 r u) (ix1 r) (fun a => ?_)
  fin_cases a
  show r.val = if n = 1 then 0 else r.val
  split_ifs with hn
  · have := r.isLt; omega
  · rfl

variable [Facts]

/-- The reciprocal degree column at (r, 0) is one divided by the degree of row r. -/
theorem recipCol_apply (D : FVec Ideal S50000 .f32) (r : Fin 50000) :
    recipCol D (ix2 r (0 : Fin 1)) = Ideal.div (Ideal.ofBits .f32 0x3F800000#32) (D (ix1 r)) := by
  unfold recipCol
  rw [column_apply, hostDivf_apply, broadcastInDim_scalar_apply]
  rfl

/-- A length-128 line laid as a row reads, at (0, d), the line at d. -/
theorem rowOf_apply (b : FVec Ideal S128 .f32) (d : Fin 128) : rowOf b (ix2 (0 : Fin 1) d) = b (ix1 d) := by
  unfold rowOf
  exact shapeCast_a_1a_apply b _ 0 d

/-- A length-32 line laid as a row reads, at (0, o), the line at o. -/
theorem rowOf32_apply (b : FVec Ideal S32 .f32) (o : Fin 32) : rowOf32 b (ix2 (0 : Fin 1) o) = b (ix1 o) := by
  unfold rowOf32
  exact shapeCast_a_1a_apply b _ 0 o

end Cert.KernelIdeal.Forms

end
-- ==== Proof.Bridge.lean ====
/-
  The kernel's three region results are the reference's arrays.

  Both programs build each layer's term for a destination row r from the same neighbour sum A, the same degree D
  (floored at one), the same weight slabs and bias line. The reference divides: mean r k = A r k / D r. The kernel
  multiplies by a reciprocal computed once: mean r k = A r k · (1 / D r). The degree is a count of edges floored at one,
  a nonzero real, and on the extended reals dividing by a nonzero real IS multiplying by its reciprocal, whatever the
  dividend. Everything else in the two terms is the same sum in the same order, so the arrays agree entry by entry;
  the second layer's neighbour sum is then taken of equal arrays.
-/
import proofs.«159525_j9775345565891_2_alg».proof.Proof.KerWalk
import proofs.«159525_j9775345565891_2_alg».proof.Proof.RefStages
import proofs.«159525_j9775345565891_2_alg».proof.Proof.DegreeReal
import proofs.«159525_j9775345565891_2_alg».proof.Proof.KerFormsApply
import proofs.«159525_j9775345565891_2_alg».proof.Proof.NetSpec

set_option maxRecDepth 16384

noncomputable section

open scoped BigOperators

namespace Cert.Bridge

open Idealize.ShloMosaic Idealize.ShloMosaic.TcCoe Idealize.ShloMosaic.ValueIdx Idealize.SL.Sem
open Cert.KernelIdeal Cert.KernelIdeal.Gen Cert.KernelIdeal.Forms Cert.KernelIdeal.Walk
open Cert.ReferenceIdeal.Chain Cert.ReferenceIdeal.Stage

/-! ## The reference's arrays as functions of the arguments -/

/-- The paper rows after the first layer: the rectified sum of the author-to-paper and the paper-to-paper relations' terms. -/
def refP1 (a0 a1 : (⟨Cert.ReferenceIdeal.S50000x128, .f32⟩ : BufTy).Contents (Elt Ideal)) (e2 e4 : (⟨Cert.ReferenceIdeal.S2x800000, .i32⟩ : BufTy).Contents (Elt Ideal))
    (a5 a7 : (⟨Cert.ReferenceIdeal.S2x3x128x128, .f32⟩ : BufTy).Contents (Elt Ideal)) (a6 : (⟨Cert.ReferenceIdeal.S2x3x128, .f32⟩ : BufTy).Contents (Elt Ideal)) : (⟨Cert.ReferenceIdeal.S50000x128, .f32⟩ : BufTy).Contents (Elt Ideal) :=
  leakyArr (addf (sageArr (aggr a0 e2) a1 (degree e2) (wmat ![0, 0, 0, 0] Cert.ReferenceIdeal.Facts₀.slices_S2x3x128x128_S1x1x128x128_0_0_0_0 a5) (wmat ![0, 0, 0, 0] Cert.ReferenceIdeal.Facts₀.slices_S2x3x128x128_S1x1x128x128_0_0_0_0 a7) (bvec ![0, 0, 0] Cert.ReferenceIdeal.Facts₀.slices_S2x3x128_S1x1x128_0_0_0 a6))
    (sageArr (aggr a1 e4) a1 (degree e4) (wmat ![0, 2, 0, 0] Cert.ReferenceIdeal.Facts₀.slices_S2x3x128x128_S1x1x128x128_0_2_0_0 a5) (wmat ![0, 2, 0, 0] Cert.ReferenceIdeal.Facts₀.slices_S2x3x128x128_S1x1x128x128_0_2_0_0 a7) (bvec ![0, 2, 0] Cert.ReferenceIdeal.Facts₀.slices_S2x3x128_S1x1x128_0_2_0 a6)))

/-- The author rows after the first layer: the rectified paper-to-author relation's term. -/
def refA1 (a0 a1 : (⟨Cert.ReferenceIdeal.S50000x128, .f32⟩ : BufTy).Contents (Elt Ideal)) (e3 : (⟨Cert.ReferenceIdeal.S2x800000, .i32⟩ : BufTy).Contents (Elt Ideal))
    (a5 a7 : (⟨Cert.ReferenceIdeal.S2x3x128x128, .f32⟩ : BufTy).Contents (Elt Ideal)) (a6 : (⟨Cert.ReferenceIdeal.S2x3x128, .f32⟩ : BufTy).Contents (Elt Ideal)) : (⟨Cert.ReferenceIdeal.S50000x128, .f32⟩ : BufTy).Contents (Elt Ideal) :=
  leakyArr (sageArr (aggr a1 e3) a0 (degree e3) (wmat ![0, 1, 0, 0] Cert.ReferenceIdeal.Facts₀.slices_S2x3x128x128_S1x1x128x128_0_1_0_0 a5) (wmat ![0, 1, 0, 0] Cert.ReferenceIdeal.Facts₀.slices_S2x3x128x128_S1x1x128x128_0_1_0_0 a7) (bvec ![0, 1, 0] Cert.ReferenceIdeal.Facts₀.slices_S2x3x128_S1x1x128_0_1_0 a6))

/-- The result: the head over the author rows after the second layer, whose neighbour sum is of the first layer's
    paper rows `P` and whose own features are the first layer's author rows `A`. -/
def refOut (P A : (⟨Cert.ReferenceIdeal.S50000x128, .f32⟩ : BufTy).Contents (Elt Ideal)) (e3 : (⟨Cert.ReferenceIdeal.S2x800000, .i32⟩ : BufTy).Contents (Elt Ideal))
    (a5 a7 : (⟨Cert.ReferenceIdeal.S2x3x128x128, .f32⟩ : BufTy).Contents (Elt Ideal)) (a6 : (⟨Cert.ReferenceIdeal.S2x3x128, .f32⟩ : BufTy).Contents (Elt Ideal))
    (a8 : (⟨Cert.ReferenceIdeal.S128x32, .f32⟩ : BufTy).Contents (Elt Ideal)) (a9 : (⟨Cert.ReferenceIdeal.S32, .f32⟩ : BufTy).Contents (Elt Ideal)) : (⟨Cert.ReferenceIdeal.S50000x32, .f32⟩ : BufTy).Contents (Elt Ideal) :=
  headArr (leakyArr (sageArr (aggr P e3) A (degree e3) (wmat ![1, 1, 0, 0] Cert.ReferenceIdeal.Facts₀.slices_S2x3x128x128_S1x1x128x128_1_1_0_0 a5) (wmat ![1, 1, 0, 0] Cert.ReferenceIdeal.Facts₀.slices_S2x3x128x128_S1x1x128x128_1_1_0_0 a7) (bvec ![1, 1, 0] Cert.ReferenceIdeal.Facts₀.slices_S2x3x128_S1x1x128_1_1_0 a6))) a8 a9

/-! ## Two terms with equal ingredients at a row are equal -/

theorem sage_congr {n : ℕ} {mean mean' x x' : Fin n → Fin 128 → EReal} {Wl Wl' Wr Wr' : Fin 128 → Fin 128 → EReal}
    {b b' : Fin 128 → EReal} (r : Fin n) (d : Fin 128) (hm : ∀ k, mean r k = mean' r k) (hx : ∀ k, x r k = x' r k)
    (hWl : ∀ k, Wl k d = Wl' k d) (hWr : ∀ k, Wr k d = Wr' k d) (hb : b d = b' d) :
    Cert.Net.sage mean x Wl Wr b r d = Cert.Net.sage mean' x' Wl' Wr' b' r d := by
  unfold Cert.Net.sage
  have h1 : (∑ k : Fin 128, mean r k * Wl k d) = ∑ k : Fin 128, mean' r k * Wl' k d :=
    Finset.sum_congr rfl fun k _ => by rw [hm k, hWl k]
  have h2 : (∑ k : Fin 128, x r k * Wr k d) = ∑ k : Fin 128, x' r k * Wr' k d :=
    Finset.sum_congr rfl fun k _ => by rw [hx k, hWr k]
  rw [h1, h2, hb]

theorem head_congr {n : ℕ} {h h' : Fin n → Fin 128 → EReal} {W W' : Fin 128 → Fin 32 → EReal} {b b' : Fin 32 → EReal}
    (r : Fin n) (o : Fin 32) (hh : ∀ k, h r k = h' r k) (hW : ∀ k, W k o = W' k o) (hb : b o = b' o) :
    Cert.Net.head h W b r o = Cert.Net.head h' W' b' r o := by
  unfold Cert.Net.head
  have h1 : (∑ k : Fin 128, h r k * W k o) = ∑ k : Fin 128, h' r k * W' k o :=
    Finset.sum_congr rfl fun k _ => by rw [hh k, hW k]
  rw [h1, hb]

/-- The kernel's mean is the reference's: a neighbour-sum entry times the reciprocal of the row's degree is that entry
    divided by the degree, the degree being a nonzero real. -/
theorem mean_eq (A : (⟨Cert.ReferenceIdeal.S50000x128, .f32⟩ : BufTy).Contents (Elt Ideal)) (e : (⟨Cert.ReferenceIdeal.S2x800000, .i32⟩ : BufTy).Contents (Elt Ideal)) (r : Fin 50000) (k : Fin 128) :
    A (ix2 r k) * recipCol (degree e) (ix2 r (0 : Fin 1)) = Ideal.div (A (ix2 r k)) (degree e (ix1 r)) := by
  rw [recipCol_apply]
  obtain ⟨c', hc, hd⟩ := Cert.Net.Degree.degree_real e r
  exact Cert.Net.Degree.mul_recip_eq_div _ _ c' hc hd

/-- One relation's term at (r, d): the kernel's ingredients (neighbour sum, reciprocal degree column, one-row bias)
    against the reference's (neighbour sum, degree vector, bias line). -/
theorem term_eq (A X : (⟨Cert.ReferenceIdeal.S50000x128, .f32⟩ : BufTy).Contents (Elt Ideal)) (e : (⟨Cert.ReferenceIdeal.S2x800000, .i32⟩ : BufTy).Contents (Elt Ideal)) (Wl Wr : (⟨Cert.ReferenceIdeal.S128x128, .f32⟩ : BufTy).Contents (Elt Ideal))
    (b : (⟨Cert.ReferenceIdeal.S128, .f32⟩ : BufTy).Contents (Elt Ideal)) (r : Fin 50000) (d : Fin 128) :
    Cert.Net.sage (fun r k => A (ix2 r k) * recipCol (degree e) (ix2 r (0 : Fin 1))) (fun r k => X (ix2 r k))
        (fun k d => Wl (ix2 k d)) (fun k d => Wr (ix2 k d)) (fun d => rowOf b (ix2 (0 : Fin 1) d)) r d
      = sageArr A X (degree e) Wl Wr b (ix2 r d) := by
  rw [sageArr_apply]
  exact sage_congr r d (fun k => mean_eq A e r k) (fun _ => rfl) (fun _ => rfl) (fun _ => rfl) (rowOf_apply b d)

variable (m : (ℓ : Loc nD τ sig) → Buf (Elt Ideal) ℓ) (ρ : Dev nD → PrngReg) (c : Dev nD)

/-! ## The three regions -/

theorem A1_eq : A1 m ρ c = refA1 (m ((c : Thread nD τ).loc main_arg0)) (m ((c : Thread nD τ).loc main_arg1)) (m ((c : Thread nD τ).loc main_arg3)) (m ((c : Thread nD τ).loc main_arg5)) (m ((c : Thread nD τ).loc main_arg7)) (m ((c : Thread nD τ).loc main_arg6)) := by
  funext i
  obtain ⟨r, d, rfl⟩ : ∃ (r : Fin 50000) (d : Fin 128), i = ix2 r d := ⟨i 0, i 1, eq_ix2 i⟩
  unfold A1 Region1.G refA1
  rw [V3_v46, V3_v10, V3_arg0, V3_v91, V3_v96, V3_v95, leakyArr_apply]
  exact congrArg Cert.Net.leaky (term_eq _ _ _ _ _ _ r d)

theorem P1_eq : P1 m ρ c = refP1 (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg7)) (m ((c : Thread nD τ).loc main_arg6)) := by
  funext i
  obtain ⟨r, d, rfl⟩ : ∃ (r : Fin 50000) (d : Fin 128), i = ix2 r d := ⟨i 0, i 1, eq_ix2 i⟩
  unfold P1 Region0.G refP1
  rw [V1_v60, V1_v21, V1_v74, V1_v32, V1_arg1, V1_v76, V1_v87, V1_v80, V1_v82, V1_v88, V1_v86, leakyArr_apply]
  refine congrArg Cert.Net.leaky ?_
  exact (congrArg₂ (· + ·) (term_eq _ _ _ _ _ _ r d) (term_eq _ _ _ _ _ _ r d)).trans (addf_apply _ _ _).symm

theorem out_eq : W6 m ρ c (Proc.devRef .tc main_v120)
    = refOut (refP1 (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg7)) (m ((c : Thread nD τ).loc main_arg6)))
        (refA1 (m ((c : Thread nD τ).loc main_arg0)) (m ((c : Thread nD τ).loc main_arg1)) (m ((c : Thread nD τ).loc main_arg3)) (m ((c : Thread nD τ).loc main_arg5)) (m ((c : Thread nD τ).loc main_arg7)) (m ((c : Thread nD τ).loc main_arg6)))
        (m ((c : Thread nD τ).loc main_arg3)) (m ((c : Thread nD τ).loc main_arg5)) (m ((c : Thread nD τ).loc main_arg7)) (m ((c : Thread nD τ).loc main_arg6)) (m ((c : Thread nD τ).loc main_arg8)) (m ((c : Thread nD τ).loc main_arg9)) := by
  rw [W6_v120]
  funext i
  obtain ⟨r, o, rfl⟩ : ∃ (r : Fin 50000) (o : Fin 32), i = ix2 r o := ⟨i 0, i 1, eq_ix2 i⟩
  unfold Region2.G refOut
  rw [V5_v111, V5_v10, V5_v97, V5_v113, V5_v118, V5_v117, V5_arg8, V5_v119, P1_eq, A1_eq, headArr_apply]
  refine head_congr r o (fun k => ?_) (fun _ => rfl) (rowOf32_apply _ o)
  rw [leakyArr_apply]
  exact congrArg Cert.Net.leaky (term_eq _ _ _ _ _ _ r k)

end Cert.Bridge

end
-- ==== Proof.RefOps.lean ====
/-
  The reference program's @main as a straight line of host operations, and its run.

  @main is 260 statements and a return: 256 tensor operations and four calls of the leaky rectifier, whose body is six
  operations and a call of the select that is one more. A call executes the callee's body on the operands, so each call
  is written here as those seven operations over the call's own buffers. The line is cut where the first layer ends
  (the rectified paper rows, the last value of `opsA`), because the second layer reads the first only through the two
  rectified arrays; within each half it is cut where the printed program cuts its windows, so that each window is seen
  to be its piece of the line by unfolding alone.

  Running a straight line of operations from a memory leaves every buffer at the fold of the operations' results over
  the launch contents: that is the library's statement for such programs, used here once for the whole line.
-/
import proofs.«159525_j9775345565891_2_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! ## The operations, in order -/

/-- @main's statements 1 to 60. -/
abbrev opsA1 : List (HloOp τ sig (Elt F)) :=
  [ unary main_arg5 main_v0 ((extractStridedSlice S1x1x128x128 ![0, 0, 0, 0] · slices_S2x3x128x128_S1x1x128x128_0_0_0_0) : (⟨S2x3x128x128, .f32⟩ : BufTy).Contents (Elt F) → (⟨S1x1x128x128, .f32⟩ : BufTy).Contents (Elt F)),
    reshape main_v0 main_v1 rfl shapeCasts_S1x1x128x128_S128x128,
    unary main_arg6 main_v2 ((extractStridedSlice S1x1x128 ![0, 0, 0] · slices_S2x3x128_S1x1x128_0_0_0) : (⟨S2x3x128, .f32⟩ : BufTy).Contents (Elt F) → (⟨S1x1x128, .f32⟩ : BufTy).Contents (Elt F)),
    reshape main_v2 main_v3 rfl shapeCasts_S1x1x128_S128,
    unary main_arg7 main_v4 ((extractStridedSlice S1x1x128x128 ![0, 0, 0, 0] · slices_S2x3x128x128_S1x1x128x128_0_0_0_0) : (⟨S2x3x128x128, .f32⟩ : BufTy).Contents (Elt F) → (⟨S1x1x128x128, .f32⟩ : BufTy).Contents (Elt F)),
    reshape main_v4 main_v5 rfl shapeCasts_S1x1x128x128_S128x128,
    unary main_arg2 main_v6 ((extractStridedSlice S1x800000 ![0, 0] · slices_S2x800000_S1x800000_0_0) : (⟨S2x800000, .i32⟩ : BufTy).Contents (Elt F) → (⟨S1x800000, .i32⟩ : BufTy).Contents (Elt F)),
    reshape main_v6 main_v7 rfl shapeCasts_S1x800000_S800000,
    unary main_arg2 main_v8 ((extractStridedSlice S1x800000 ![1, 0] · slices_S2x800000_S1x800000_1_0) : (⟨S2x800000, .i32⟩ : BufTy).Contents (Elt F) → (⟨S1x800000, .i32⟩ : BufTy).Contents (Elt F)),
    reshape main_v8 main_v9 rfl shapeCasts_S1x800000_S800000,
    nullary main_c (constantI S_ 32 0#32),
    unary main_c main_v10 (broadcastInDim S800000 ![] bcast_S_S800000 : (⟨S_, .i32⟩ : BufTy).Contents (Elt F) → (⟨S800000, .i32⟩ : BufTy).Contents (Elt F)),
    binary main_v7 main_v10 main_v11 (cmpi .slt : (⟨S800000, .i32⟩ : BufTy).Contents (Elt F) → (⟨S800000, .i32⟩ : BufTy).Contents (Elt F) → (⟨S800000, .i1⟩ : BufTy).Contents (Elt F)),
    nullary main_c_0 (constantI S_ 32 50000#32),
    unary main_c_0 main_v12 (broadcastInDim S800000 ![] bcast_S_S800000 : (⟨S_, .i32⟩ : BufTy).Contents (Elt F) → (⟨S800000, .i32⟩ : BufTy).Contents (Elt F)),
    binary main_v7 main_v12 main_v13 (addi : (⟨S800000, .i32⟩ : BufTy).Contents (Elt F) → (⟨S800000, .i32⟩ : BufTy).Contents (Elt F) → (⟨S800000, .i32⟩ : BufTy).Contents (Elt F)),
    ternary main_v11 main_v13 main_v7 main_v14 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v14 main_v15 (broadcastInDim S800000x1 ![0] bcast_S800000_S800000x1_0 : (⟨S800000, .i32⟩ : BufTy).Contents (Elt F) → (⟨S800000x1, .i32⟩ : BufTy).Contents (Elt F)),
    binary main_arg0 main_v15 main_v16 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_cst (constant S_ .f32 0x00000000#32),
    unary main_cst main_v17 (broadcastInDim S50000x128 ![] bcast_S_S50000x128 : (⟨S_, .f32⟩ : BufTy).Contents (Elt F) → (⟨S50000x128, .f32⟩ : BufTy).Contents (Elt F)),
    unary main_v9 main_v18 (broadcastInDim S800000x1 ![0] bcast_S800000_S800000x1_0 : (⟨S800000, .i32⟩ : BufTy).Contents (Elt F) → (⟨S800000x1, .i32⟩ : BufTy).Contents (Elt F)),
    ternary main_v17 main_v18 main_v16 main_v19 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    nullary main_cst_1 (constant S_ .f32 0x3F800000#32),
    unary main_cst_1 main_v20 (broadcastInDim S800000 ![] bcast_S_S800000 : (⟨S_, .f32⟩ : BufTy).Contents (Elt F) → (⟨S800000, .f32⟩ : BufTy).Contents (Elt F)),
    nullary main_cst_2 (constant S_ .f32 0x00000000#32),
    unary main_cst_2 main_v21 (broadcastInDim S50000 ![] bcast_S_S50000 : (⟨S_, .f32⟩ : BufTy).Contents (Elt F) → (⟨S50000, .f32⟩ : BufTy).Contents (Elt F)),
    unary main_v9 main_v22 (broadcastInDim S800000x1 ![0] bcast_S800000_S800000x1_0 : (⟨S800000, .i32⟩ : BufTy).Contents (Elt F) → (⟨S800000x1, .i32⟩ : BufTy).Contents (Elt F)),
    ternary main_v21 main_v22 main_v20 main_v23 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_3 (constant S_ .f32 0x3F800000#32),
    unary main_cst_3 main_v24 (broadcastInDim S50000 ![] bcast_S_S50000 : (⟨S_, .f32⟩ : BufTy).Contents (Elt F) → (⟨S50000, .f32⟩ : BufTy).Contents (Elt F)),
    binary main_v23 main_v24 main_v25 (maximumf : (⟨S50000, .f32⟩ : BufTy).Contents (Elt F) → (⟨S50000, .f32⟩ : BufTy).Contents (Elt F) → (⟨S50000, .f32⟩ : BufTy).Contents (Elt F)),
    unary main_v25 main_v26 (broadcastInDim S50000x1 ![0] bcast_S50000_S50000x1_0 : (⟨S50000, .f32⟩ : BufTy).Contents (Elt F) → (⟨S50000x1, .f32⟩ : BufTy).Contents (Elt F)),
    unary main_v26 main_v27 (broadcastInDim S50000x128 ![0, 1] bcast_S50000x1_S50000x128_0_1 : (⟨S50000x1, .f32⟩ : BufTy).Contents (Elt F) → (⟨S50000x128, .f32⟩ : BufTy).Contents (Elt F)),
    binary main_v19 main_v27 main_v28 (Host.divf : (⟨S50000x128, .f32⟩ : BufTy).Contents (Elt F) → (⟨S50000x128, .f32⟩ : BufTy).Contents (Elt F) → (⟨S50000x128, .f32⟩ : BufTy).Contents (Elt F)),
    binary main_v28 main_v1 main_v29 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_v3 main_v30 (broadcastInDim S1x128 ![1] bcast_S128_S1x128_1 : (⟨S128, .f32⟩ : BufTy).Contents (Elt F) → (⟨S1x128, .f32⟩ : BufTy).Contents (Elt F)),
    unary main_v30 main_v31 (broadcastInDim S50000x128 ![0, 1] bcast_S1x128_S50000x128_0_1 : (⟨S1x128, .f32⟩ : BufTy).Contents (Elt F) → (⟨S50000x128, .f32⟩ : BufTy).Contents (Elt F)),
    binary main_v29 main_v31 main_v32 (addf : (⟨S50000x128, .f32⟩ : BufTy).Contents (Elt F) → (⟨S50000x128, .f32⟩ : BufTy).Contents (Elt F) → (⟨S50000x128, .f32⟩ : BufTy).Contents (Elt F)),
    binary main_arg1 main_v5 main_v33 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v32 main_v33 main_v34 (addf : (⟨S50000x128, .f32⟩ : BufTy).Contents (Elt F) → (⟨S50000x128, .f32⟩ : BufTy).Contents (Elt F) → (⟨S50000x128, .f32⟩ : BufTy).Contents (Elt F)),
    unary main_arg5 main_v35 ((extractStridedSlice S1x1x128x128 ![0, 2, 0, 0] · slices_S2x3x128x128_S1x1x128x128_0_2_0_0) : (⟨S2x3x128x128, .f32⟩ : BufTy).Contents (Elt F) → (⟨S1x1x128x128, .f32⟩ : BufTy).Contents (Elt F)),
    reshape main_v35 main_v36 rfl shapeCasts_S1x1x128x128_S128x128,
    unary main_arg6 main_v37 ((extractStridedSlice S1x1x128 ![0, 2, 0] · slices_S2x3x128_S1x1x128_0_2_0) : (⟨S2x3x128, .f32⟩ : BufTy).Contents (Elt F) → (⟨S1x1x128, .f32⟩ : BufTy).Contents (Elt F)),
    reshape main_v37 main_v38 rfl shapeCasts_S1x1x128_S128,
    unary main_arg7 main_v39 ((extractStridedSlice S1x1x128x128 ![0, 2, 0, 0] · slices_S2x3x128x128_S1x1x128x128_0_2_0_0) : (⟨S2x3x128x128, .f32⟩ : BufTy).Contents (Elt F) → (⟨S1x1x128x128, .f32⟩ : BufTy).Contents (Elt F)),
    reshape main_v39 main_v40 rfl shapeCasts_S1x1x128x128_S128x128,
    unary main_arg4 main_v41 ((extractStridedSlice S1x800000 ![0, 0] · slices_S2x800000_S1x800000_0_0) : (⟨S2x800000, .i32⟩ : BufTy).Contents (Elt F) → (⟨S1x800000, .i32⟩ : BufTy).Contents (Elt F)),
    reshape main_v41 main_v42 rfl shapeCasts_S1x800000_S800000,
    unary main_arg4 main_v43 ((extractStridedSlice S1x800000 ![1, 0] · slices_S2x800000_S1x800000_1_0) : (⟨S2x800000, .i32⟩ : BufTy).Contents (Elt F) → (⟨S1x800000, .i32⟩ : BufTy).Contents (Elt F)),
    reshape main_v43 main_v44 rfl shapeCasts_S1x800000_S800000,
    nullary main_c_4 (constantI S_ 32 0#32),
    unary main_c_4 main_v45 (broadcastInDim S800000 ![] bcast_S_S800000 : (⟨S_, .i32⟩ : BufTy).Contents (Elt F) → (⟨S800000, .i32⟩ : BufTy).Contents (Elt F)),
    binary main_v42 main_v45 main_v46 (cmpi .slt : (⟨S800000, .i32⟩ : BufTy).Contents (Elt F) → (⟨S800000, .i32⟩ : BufTy).Contents (Elt F) → (⟨S800000, .i1⟩ : BufTy).Contents (Elt F)),
    nullary main_c_5 (constantI S_ 32 50000#32),
    unary main_c_5 main_v47 (broadcastInDim S800000 ![] bcast_S_S800000 : (⟨S_, .i32⟩ : BufTy).Contents (Elt F) → (⟨S800000, .i32⟩ : BufTy).Contents (Elt F)),
    binary main_v42 main_v47 main_v48 (addi : (⟨S800000, .i32⟩ : BufTy).Contents (Elt F) → (⟨S800000, .i32⟩ : BufTy).Contents (Elt F) → (⟨S800000, .i32⟩ : BufTy).Contents (Elt F)),
    ternary main_v46 main_v48 main_v42 main_v49 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v49 main_v50 (broadcastInDim S800000x1 ![0] bcast_S800000_S800000x1_0 : (⟨S800000, .i32⟩ : BufTy).Contents (Elt F) → (⟨S800000x1, .i32⟩ : BufTy).Contents (Elt F)),
    binary main_arg1 main_v50 main_v51 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)) ]

/-- @main's statements 61 to 120. -/
abbrev opsA2 : List (HloOp τ sig (Elt F)) :=
  [ nullary main_cst_6 (constant S_ .f32 0x00000000#32),
    unary main_cst_6 main_v52 (broadcastInDim S50000x128 ![] bcast_S_S50000x128 : (⟨S_, .f32⟩ : BufTy).Contents (Elt F) → (⟨S50000x128, .f32⟩ : BufTy).Contents (Elt F)),
    unary main_v44 main_v53 (broadcastInDim S800000x1 ![0] bcast_S800000_S800000x1_0 : (⟨S800000, .i32⟩ : BufTy).Contents (Elt F) → (⟨S800000x1, .i32⟩ : BufTy).Contents (Elt F)),
    ternary main_v52 main_v53 main_v51 main_v54 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    nullary main_cst_7 (constant S_ .f32 0x3F800000#32),
    unary main_cst_7 main_v55 (broadcastInDim S800000 ![] bcast_S_S800000 : (⟨S_, .f32⟩ : BufTy).Contents (Elt F) → (⟨S800000, .f32⟩ : BufTy).Contents (Elt F)),
    nullary main_cst_8 (constant S_ .f32 0x00000000#32),
    unary main_cst_8 main_v56 (broadcastInDim S50000 ![] bcast_S_S50000 : (⟨S_, .f32⟩ : BufTy).Contents (Elt F) → (⟨S50000, .f32⟩ : BufTy).Contents (Elt F)),
    unary main_v44 main_v57 (broadcastInDim S800000x1 ![0] bcast_S800000_S800000x1_0 : (⟨S800000, .i32⟩ : BufTy).Contents (Elt F) → (⟨S800000x1, .i32⟩ : BufTy).Contents (Elt F)),
    ternary main_v56 main_v57 main_v55 main_v58 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_9 (constant S_ .f32 0x3F800000#32),
    unary main_cst_9 main_v59 (broadcastInDim S50000 ![] bcast_S_S50000 : (⟨S_, .f32⟩ : BufTy).Contents (Elt F) → (⟨S50000, .f32⟩ : BufTy).Contents (Elt F)),
    binary main_v58 main_v59 main_v60 (maximumf : (⟨S50000, .f32⟩ : BufTy).Contents (Elt F) → (⟨S50000, .f32⟩ : BufTy).Contents (Elt F) → (⟨S50000, .f32⟩ : BufTy).Contents (Elt F)),
    unary main_v60 main_v61 (broadcastInDim S50000x1 ![0] bcast_S50000_S50000x1_0 : (⟨S50000, .f32⟩ : BufTy).Contents (Elt F) → (⟨S50000x1, .f32⟩ : BufTy).Contents (Elt F)),
    unary main_v61 main_v62 (broadcastInDim S50000x128 ![0, 1] bcast_S50000x1_S50000x128_0_1 : (⟨S50000x1, .f32⟩ : BufTy).Contents (Elt F) → (⟨S50000x128, .f32⟩ : BufTy).Contents (Elt F)),
    binary main_v54 main_v62 main_v63 (Host.divf : (⟨S50000x128, .f32⟩ : BufTy).Contents (Elt F) → (⟨S50000x128, .f32⟩ : BufTy).Contents (Elt F) → (⟨S50000x128, .f32⟩ : BufTy).Contents (Elt F)),
    binary main_v63 main_v36 main_v64 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_v38 main_v65 (broadcastInDim S1x128 ![1] bcast_S128_S1x128_1 : (⟨S128, .f32⟩ : BufTy).Contents (Elt F) → (⟨S1x128, .f32⟩ : BufTy).Contents (Elt F)),
    unary main_v65 main_v66 (broadcastInDim S50000x128 ![0, 1] bcast_S1x128_S50000x128_0_1 : (⟨S1x128, .f32⟩ : BufTy).Contents (Elt F) → (⟨S50000x128, .f32⟩ : BufTy).Contents (Elt F)),
    binary main_v64 main_v66 main_v67 (addf : (⟨S50000x128, .f32⟩ : BufTy).Contents (Elt F) → (⟨S50000x128, .f32⟩ : BufTy).Contents (Elt F) → (⟨S50000x128, .f32⟩ : BufTy).Contents (Elt F)),
    binary main_arg1 main_v40 main_v68 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v67 main_v68 main_v69 (addf : (⟨S50000x128, .f32⟩ : BufTy).Contents (Elt F) → (⟨S50000x128, .f32⟩ : BufTy).Contents (Elt F) → (⟨S50000x128, .f32⟩ : BufTy).Contents (Elt F)),
    binary main_v34 main_v69 main_v70 (addf : (⟨S50000x128, .f32⟩ : BufTy).Contents (Elt F) → (⟨S50000x128, .f32⟩ : BufTy).Contents (Elt F) → (⟨S50000x128, .f32⟩ : BufTy).Contents (Elt F)),
    unary main_arg5 main_v71 ((extractStridedSlice S1x1x128x128 ![0, 1, 0, 0] · slices_S2x3x128x128_S1x1x128x128_0_1_0_0) : (⟨S2x3x128x128, .f32⟩ : BufTy).Contents (Elt F) → (⟨S1x1x128x128, .f32⟩ : BufTy).Contents (Elt F)),
    reshape main_v71 main_v72 rfl shapeCasts_S1x1x128x128_S128x128,
    unary main_arg6 main_v73 ((extractStridedSlice S1x1x128 ![0, 1, 0] · slices_S2x3x128_S1x1x128_0_1_0) : (⟨S2x3x128, .f32⟩ : BufTy).Contents (Elt F) → (⟨S1x1x128, .f32⟩ : BufTy).Contents (Elt F)),
    reshape main_v73 main_v74 rfl shapeCasts_S1x1x128_S128,
    unary main_arg7 main_v75 ((extractStridedSlice S1x1x128x128 ![0, 1, 0, 0] · slices_S2x3x128x128_S1x1x128x128_0_1_0_0) : (⟨S2x3x128x128, .f32⟩ : BufTy).Contents (Elt F) → (⟨S1x1x128x128, .f32⟩ : BufTy).Contents (Elt F)),
    reshape main_v75 main_v76 rfl shapeCasts_S1x1x128x128_S128x128,
    unary main_arg3 main_v77 ((extractStridedSlice S1x800000 ![0, 0] · slices_S2x800000_S1x800000_0_0) : (⟨S2x800000, .i32⟩ : BufTy).Contents (Elt F) → (⟨S1x800000, .i32⟩ : BufTy).Contents (Elt F)),
    reshape main_v77 main_v78 rfl shapeCasts_S1x800000_S800000,
    unary main_arg3 main_v79 ((extractStridedSlice S1x800000 ![1, 0] · slices_S2x800000_S1x800000_1_0) : (⟨S2x800000, .i32⟩ : BufTy).Contents (Elt F) → (⟨S1x800000, .i32⟩ : BufTy).Contents (Elt F)),
    reshape main_v79 main_v80 rfl shapeCasts_S1x800000_S800000,
    nullary main_c_10 (constantI S_ 32 0#32),
    unary main_c_10 main_v81 (broadcastInDim S800000 ![] bcast_S_S800000 : (⟨S_, .i32⟩ : BufTy).Contents (Elt F) → (⟨S800000, .i32⟩ : BufTy).Contents (Elt F)),
    binary main_v78 main_v81 main_v82 (cmpi .slt : (⟨S800000, .i32⟩ : BufTy).Contents (Elt F) → (⟨S800000, .i32⟩ : BufTy).Contents (Elt F) → (⟨S800000, .i1⟩ : BufTy).Contents (Elt F)),
    nullary main_c_11 (constantI S_ 32 50000#32),
    unary main_c_11 main_v83 (broadcastInDim S800000 ![] bcast_S_S800000 : (⟨S_, .i32⟩ : BufTy).Contents (Elt F) → (⟨S800000, .i32⟩ : BufTy).Contents (Elt F)),
    binary main_v78 main_v83 main_v84 (addi : (⟨S800000, .i32⟩ : BufTy).Contents (Elt F) → (⟨S800000, .i32⟩ : BufTy).Contents (Elt F) → (⟨S800000, .i32⟩ : BufTy).Contents (Elt F)),
    ternary main_v82 main_v84 main_v78 main_v85 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v85 main_v86 (broadcastInDim S800000x1 ![0] bcast_S800000_S800000x1_0 : (⟨S800000, .i32⟩ : BufTy).Contents (Elt F) → (⟨S800000x1, .i32⟩ : BufTy).Contents (Elt F)),
    binary main_arg1 main_v86 main_v87 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_cst_12 (constant S_ .f32 0x00000000#32),
    unary main_cst_12 main_v88 (broadcastInDim S50000x128 ![] bcast_S_S50000x128 : (⟨S_, .f32⟩ : BufTy).Contents (Elt F) → (⟨S50000x128, .f32⟩ : BufTy).Contents (Elt F)),
    unary main_v80 main_v89 (broadcastInDim S800000x1 ![0] bcast_S800000_S800000x1_0 : (⟨S800000, .i32⟩ : BufTy).Contents (Elt F) → (⟨S800000x1, .i32⟩ : BufTy).Contents (Elt F)),
    ternary main_v88 main_v89 main_v87 main_v90 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    nullary main_cst_13 (constant S_ .f32 0x3F800000#32),
    unary main_cst_13 main_v91 (broadcastInDim S800000 ![] bcast_S_S800000 : (⟨S_, .f32⟩ : BufTy).Contents (Elt F) → (⟨S800000, .f32⟩ : BufTy).Contents (Elt F)),
    nullary main_cst_14 (constant S_ .f32 0x00000000#32),
    unary main_cst_14 main_v92 (broadcastInDim S50000 ![] bcast_S_S50000 : (⟨S_, .f32⟩ : BufTy).Contents (Elt F) → (⟨S50000, .f32⟩ : BufTy).Contents (Elt F)),
    unary main_v80 main_v93 (broadcastInDim S800000x1 ![0] bcast_S800000_S800000x1_0 : (⟨S800000, .i32⟩ : BufTy).Contents (Elt F) → (⟨S800000x1, .i32⟩ : BufTy).Contents (Elt F)),
    ternary main_v92 main_v93 main_v91 main_v94 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_15 (constant S_ .f32 0x3F800000#32),
    unary main_cst_15 main_v95 (broadcastInDim S50000 ![] bcast_S_S50000 : (⟨S_, .f32⟩ : BufTy).Contents (Elt F) → (⟨S50000, .f32⟩ : BufTy).Contents (Elt F)),
    binary main_v94 main_v95 main_v96 (maximumf : (⟨S50000, .f32⟩ : BufTy).Contents (Elt F) → (⟨S50000, .f32⟩ : BufTy).Contents (Elt F) → (⟨S50000, .f32⟩ : BufTy).Contents (Elt F)),
    unary main_v96 main_v97 (broadcastInDim S50000x1 ![0] bcast_S50000_S50000x1_0 : (⟨S50000, .f32⟩ : BufTy).Contents (Elt F) → (⟨S50000x1, .f32⟩ : BufTy).Contents (Elt F)),
    unary main_v97 main_v98 (broadcastInDim S50000x128 ![0, 1] bcast_S50000x1_S50000x128_0_1 : (⟨S50000x1, .f32⟩ : BufTy).Contents (Elt F) → (⟨S50000x128, .f32⟩ : BufTy).Contents (Elt F)),
    binary main_v90 main_v98 main_v99 (Host.divf : (⟨S50000x128, .f32⟩ : BufTy).Contents (Elt F) → (⟨S50000x128, .f32⟩ : BufTy).Contents (Elt F) → (⟨S50000x128, .f32⟩ : BufTy).Contents (Elt F)),
    binary main_v99 main_v72 main_v100 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_v74 main_v101 (broadcastInDim S1x128 ![1] bcast_S128_S1x128_1 : (⟨S128, .f32⟩ : BufTy).Contents (Elt F) → (⟨S1x128, .f32⟩ : BufTy).Contents (Elt F)) ]

/-- @main's statements 121 to 128: the last of the first layer's author rows, then the leaky rectifier on the author rows and on the paper rows, each written out as the seven operations of its body. -/
abbrev opsA3 : List (HloOp τ sig (Elt F)) :=
  [ unary main_v101 main_v102 (broadcastInDim S50000x128 ![0, 1] bcast_S1x128_S50000x128_0_1 : (⟨S1x128, .f32⟩ : BufTy).Contents (Elt F) → (⟨S50000x128, .f32⟩ : BufTy).Contents (Elt F)),
    binary main_v100 main_v102 main_v103 (addf : (⟨S50000x128, .f32⟩ : BufTy).Contents (Elt F) → (⟨S50000x128, .f32⟩ : BufTy).Contents (Elt F) → (⟨S50000x128, .f32⟩ : BufTy).Contents (Elt F)),
    binary main_arg0 main_v76 main_v104 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v103 main_v104 main_v105 (addf : (⟨S50000x128, .f32⟩ : BufTy).Contents (Elt F) → (⟨S50000x128, .f32⟩ : BufTy).Contents (Elt F) → (⟨S50000x128, .f32⟩ : BufTy).Contents (Elt F)),
    nullary main_cst_16 (constant S_ .f32 0x3C23D70A#32),
    TRef.nullary main_call0.cst (constant S_ .f32 0x00000000#32),
    TRef.unary main_call0.cst main_call0.v0 (broadcastInDim S50000x128 ![] bcast_S_S50000x128),
    TRef.binary (.of main_v105) main_call0.v0 main_call0.v1 (cmpf .oge),
    TRef.unary (.of main_cst_16) main_call0.v2 id,
    TRef.unary main_call0.v2 main_call0.v3 (broadcastInDim S50000x128 ![] bcast_S_S50000x128),
    TRef.binary main_call0.v3 (.of main_v105) main_call0.v4 mulf,
    TRef.ternary main_call0.v1 (.of main_v105) main_call0.v4 main_call0.call0.v0 select,
    nullary main_cst_17 (constant S_ .f32 0x3C23D70A#32),
    TRef.nullary main_call1.cst (constant S_ .f32 0x00000000#32),
    TRef.unary main_call1.cst main_call1.v0 (broadcastInDim S50000x128 ![] bcast_S_S50000x128),
    TRef.binary (.of main_v70) main_call1.v0 main_call1.v1 (cmpf .oge),
    TRef.unary (.of main_cst_17) main_call1.v2 id,
    TRef.unary main_call1.v2 main_call1.v3 (broadcastInDim S50000x128 ![] bcast_S_S50000x128),
    TRef.binary main_call1.v3 (.of main_v70) main_call1.v4 mulf,
    TRef.ternary main_call1.v1 (.of main_v70) main_call1.v4 main_call1.call0.v0 select ]

/-- @main's statements 129 to 180. -/
abbrev opsB1 : List (HloOp τ sig (Elt F)) :=
  [ unary main_arg5 main_v108 ((extractStridedSlice S1x1x128x128 ![1, 0, 0, 0] · slices_S2x3x128x128_S1x1x128x128_1_0_0_0) : (⟨S2x3x128x128, .f32⟩ : BufTy).Contents (Elt F) → (⟨S1x1x128x128, .f32⟩ : BufTy).Contents (Elt F)),
    reshape main_v108 main_v109 rfl shapeCasts_S1x1x128x128_S128x128,
    unary main_arg6 main_v110 ((extractStridedSlice S1x1x128 ![1, 0, 0] · slices_S2x3x128_S1x1x128_1_0_0) : (⟨S2x3x128, .f32⟩ : BufTy).Contents (Elt F) → (⟨S1x1x128, .f32⟩ : BufTy).Contents (Elt F)),
    reshape main_v110 main_v111 rfl shapeCasts_S1x1x128_S128,
    unary main_arg7 main_v112 ((extractStridedSlice S1x1x128x128 ![1, 0, 0, 0] · slices_S2x3x128x128_S1x1x128x128_1_0_0_0) : (⟨S2x3x128x128, .f32⟩ : BufTy).Contents (Elt F) → (⟨S1x1x128x128, .f32⟩ : BufTy).Contents (Elt F)),
    reshape main_v112 main_v113 rfl shapeCasts_S1x1x128x128_S128x128,
    unary main_arg2 main_v114 ((extractStridedSlice S1x800000 ![0, 0] · slices_S2x800000_S1x800000_0_0) : (⟨S2x800000, .i32⟩ : BufTy).Contents (Elt F) → (⟨S1x800000, .i32⟩ : BufTy).Contents (Elt F)),
    reshape main_v114 main_v115 rfl shapeCasts_S1x800000_S800000,
    unary main_arg2 main_v116 ((extractStridedSlice S1x800000 ![1, 0] · slices_S2x800000_S1x800000_1_0) : (⟨S2x800000, .i32⟩ : BufTy).Contents (Elt F) → (⟨S1x800000, .i32⟩ : BufTy).Contents (Elt F)),
    reshape main_v116 main_v117 rfl shapeCasts_S1x800000_S800000,
    nullary main_c_18 (constantI S_ 32 0#32),
    unary main_c_18 main_v118 (broadcastInDim S800000 ![] bcast_S_S800000 : (⟨S_, .i32⟩ : BufTy).Contents (Elt F) → (⟨S800000, .i32⟩ : BufTy).Contents (Elt F)),
    binary main_v115 main_v118 main_v119 (cmpi .slt : (⟨S800000, .i32⟩ : BufTy).Contents (Elt F) → (⟨S800000, .i32⟩ : BufTy).Contents (Elt F) → (⟨S800000, .i1⟩ : BufTy).Contents (Elt F)),
    nullary main_c_19 (constantI S_ 32 50000#32),
    unary main_c_19 main_v120 (broadcastInDim S800000 ![] bcast_S_S800000 : (⟨S_, .i32⟩ : BufTy).Contents (Elt F) → (⟨S800000, .i32⟩ : BufTy).Contents (Elt F)),
    binary main_v115 main_v120 main_v121 (addi : (⟨S800000, .i32⟩ : BufTy).Contents (Elt F) → (⟨S800000, .i32⟩ : BufTy).Contents (Elt F) → (⟨S800000, .i32⟩ : BufTy).Contents (Elt F)),
    ternary main_v119 main_v121 main_v115 main_v122 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v122 main_v123 (broadcastInDim S800000x1 ![0] bcast_S800000_S800000x1_0 : (⟨S800000, .i32⟩ : BufTy).Contents (Elt F) → (⟨S800000x1, .i32⟩ : BufTy).Contents (Elt F)),
    binary main_v106 main_v123 main_v124 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_cst_20 (constant S_ .f32 0x00000000#32),
    unary main_cst_20 main_v125 (broadcastInDim S50000x128 ![] bcast_S_S50000x128 : (⟨S_, .f32⟩ : BufTy).Contents (Elt F) → (⟨S50000x128, .f32⟩ : BufTy).Contents (Elt F)),
    unary main_v117 main_v126 (broadcastInDim S800000x1 ![0] bcast_S800000_S800000x1_0 : (⟨S800000, .i32⟩ : BufTy).Contents (Elt F) → (⟨S800000x1, .i32⟩ : BufTy).Contents (Elt F)),
    ternary main_v125 main_v126 main_v124 main_v127 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    nullary main_cst_21 (constant S_ .f32 0x3F800000#32),
    unary main_cst_21 main_v128 (broadcastInDim S800000 ![] bcast_S_S800000 : (⟨S_, .f32⟩ : BufTy).Contents (Elt F) → (⟨S800000, .f32⟩ : BufTy).Contents (Elt F)),
    nullary main_cst_22 (constant S_ .f32 0x00000000#32),
    unary main_cst_22 main_v129 (broadcastInDim S50000 ![] bcast_S_S50000 : (⟨S_, .f32⟩ : BufTy).Contents (Elt F) → (⟨S50000, .f32⟩ : BufTy).Contents (Elt F)),
    unary main_v117 main_v130 (broadcastInDim S800000x1 ![0] bcast_S800000_S800000x1_0 : (⟨S800000, .i32⟩ : BufTy).Contents (Elt F) → (⟨S800000x1, .i32⟩ : BufTy).Contents (Elt F)),
    ternary main_v129 main_v130 main_v128 main_v131 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_23 (constant S_ .f32 0x3F800000#32),
    unary main_cst_23 main_v132 (broadcastInDim S50000 ![] bcast_S_S50000 : (⟨S_, .f32⟩ : BufTy).Contents (Elt F) → (⟨S50000, .f32⟩ : BufTy).Contents (Elt F)),
    binary main_v131 main_v132 main_v133 (maximumf : (⟨S50000, .f32⟩ : BufTy).Contents (Elt F) → (⟨S50000, .f32⟩ : BufTy).Contents (Elt F) → (⟨S50000, .f32⟩ : BufTy).Contents (Elt F)),
    unary main_v133 main_v134 (broadcastInDim S50000x1 ![0] bcast_S50000_S50000x1_0 : (⟨S50000, .f32⟩ : BufTy).Contents (Elt F) → (⟨S50000x1, .f32⟩ : BufTy).Contents (Elt F)),
    unary main_v134 main_v135 (broadcastInDim S50000x128 ![0, 1] bcast_S50000x1_S50000x128_0_1 : (⟨S50000x1, .f32⟩ : BufTy).Contents (Elt F) → (⟨S50000x128, .f32⟩ : BufTy).Contents (Elt F)),
    binary main_v127 main_v135 main_v136 (Host.divf : (⟨S50000x128, .f32⟩ : BufTy).Contents (Elt F) → (⟨S50000x128, .f32⟩ : BufTy).Contents (Elt F) → (⟨S50000x128, .f32⟩ : BufTy).Contents (Elt F)),
    binary main_v136 main_v109 main_v137 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_v111 main_v138 (broadcastInDim S1x128 ![1] bcast_S128_S1x128_1 : (⟨S128, .f32⟩ : BufTy).Contents (Elt F) → (⟨S1x128, .f32⟩ : BufTy).Contents (Elt F)),
    unary main_v138 main_v139 (broadcastInDim S50000x128 ![0, 1] bcast_S1x128_S50000x128_0_1 : (⟨S1x128, .f32⟩ : BufTy).Contents (Elt F) → (⟨S50000x128, .f32⟩ : BufTy).Contents (Elt F)),
    binary main_v137 main_v139 main_v140 (addf : (⟨S50000x128, .f32⟩ : BufTy).Contents (Elt F) → (⟨S50000x128, .f32⟩ : BufTy).Contents (Elt F) → (⟨S50000x128, .f32⟩ : BufTy).Contents (Elt F)),
    binary main_v107 main_v113 main_v141 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v140 main_v141 main_v142 (addf : (⟨S50000x128, .f32⟩ : BufTy).Contents (Elt F) → (⟨S50000x128, .f32⟩ : BufTy).Contents (Elt F) → (⟨S50000x128, .f32⟩ : BufTy).Contents (Elt F)),
    unary main_arg5 main_v143 ((extractStridedSlice S1x1x128x128 ![1, 2, 0, 0] · slices_S2x3x128x128_S1x1x128x128_1_2_0_0) : (⟨S2x3x128x128, .f32⟩ : BufTy).Contents (Elt F) → (⟨S1x1x128x128, .f32⟩ : BufTy).Contents (Elt F)),
    reshape main_v143 main_v144 rfl shapeCasts_S1x1x128x128_S128x128,
    unary main_arg6 main_v145 ((extractStridedSlice S1x1x128 ![1, 2, 0] · slices_S2x3x128_S1x1x128_1_2_0) : (⟨S2x3x128, .f32⟩ : BufTy).Contents (Elt F) → (⟨S1x1x128, .f32⟩ : BufTy).Contents (Elt F)),
    reshape main_v145 main_v146 rfl shapeCasts_S1x1x128_S128,
    unary main_arg7 main_v147 ((extractStridedSlice S1x1x128x128 ![1, 2, 0, 0] · slices_S2x3x128x128_S1x1x128x128_1_2_0_0) : (⟨S2x3x128x128, .f32⟩ : BufTy).Contents (Elt F) → (⟨S1x1x128x128, .f32⟩ : BufTy).Contents (Elt F)),
    reshape main_v147 main_v148 rfl shapeCasts_S1x1x128x128_S128x128,
    unary main_arg4 main_v149 ((extractStridedSlice S1x800000 ![0, 0] · slices_S2x800000_S1x800000_0_0) : (⟨S2x800000, .i32⟩ : BufTy).Contents (Elt F) → (⟨S1x800000, .i32⟩ : BufTy).Contents (Elt F)),
    reshape main_v149 main_v150 rfl shapeCasts_S1x800000_S800000,
    unary main_arg4 main_v151 ((extractStridedSlice S1x800000 ![1, 0] · slices_S2x800000_S1x800000_1_0) : (⟨S2x800000, .i32⟩ : BufTy).Contents (Elt F) → (⟨S1x800000, .i32⟩ : BufTy).Contents (Elt F)),
    reshape main_v151 main_v152 rfl shapeCasts_S1x800000_S800000,
    nullary main_c_24 (constantI S_ 32 0#32) ]

/-- @main's statements 181 to 240. -/
abbrev opsB2 : List (HloOp τ sig (Elt F)) :=
  [ unary main_c_24 main_v153 (broadcastInDim S800000 ![] bcast_S_S800000 : (⟨S_, .i32⟩ : BufTy).Contents (Elt F) → (⟨S800000, .i32⟩ : BufTy).Contents (Elt F)),
    binary main_v150 main_v153 main_v154 (cmpi .slt : (⟨S800000, .i32⟩ : BufTy).Contents (Elt F) → (⟨S800000, .i32⟩ : BufTy).Contents (Elt F) → (⟨S800000, .i1⟩ : BufTy).Contents (Elt F)),
    nullary main_c_25 (constantI S_ 32 50000#32),
    unary main_c_25 main_v155 (broadcastInDim S800000 ![] bcast_S_S800000 : (⟨S_, .i32⟩ : BufTy).Contents (Elt F) → (⟨S800000, .i32⟩ : BufTy).Contents (Elt F)),
    binary main_v150 main_v155 main_v156 (addi : (⟨S800000, .i32⟩ : BufTy).Contents (Elt F) → (⟨S800000, .i32⟩ : BufTy).Contents (Elt F) → (⟨S800000, .i32⟩ : BufTy).Contents (Elt F)),
    ternary main_v154 main_v156 main_v150 main_v157 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v157 main_v158 (broadcastInDim S800000x1 ![0] bcast_S800000_S800000x1_0 : (⟨S800000, .i32⟩ : BufTy).Contents (Elt F) → (⟨S800000x1, .i32⟩ : BufTy).Contents (Elt F)),
    binary main_v107 main_v158 main_v159 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_cst_26 (constant S_ .f32 0x00000000#32),
    unary main_cst_26 main_v160 (broadcastInDim S50000x128 ![] bcast_S_S50000x128 : (⟨S_, .f32⟩ : BufTy).Contents (Elt F) → (⟨S50000x128, .f32⟩ : BufTy).Contents (Elt F)),
    unary main_v152 main_v161 (broadcastInDim S800000x1 ![0] bcast_S800000_S800000x1_0 : (⟨S800000, .i32⟩ : BufTy).Contents (Elt F) → (⟨S800000x1, .i32⟩ : BufTy).Contents (Elt F)),
    ternary main_v160 main_v161 main_v159 main_v162 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    nullary main_cst_27 (constant S_ .f32 0x3F800000#32),
    unary main_cst_27 main_v163 (broadcastInDim S800000 ![] bcast_S_S800000 : (⟨S_, .f32⟩ : BufTy).Contents (Elt F) → (⟨S800000, .f32⟩ : BufTy).Contents (Elt F)),
    nullary main_cst_28 (constant S_ .f32 0x00000000#32),
    unary main_cst_28 main_v164 (broadcastInDim S50000 ![] bcast_S_S50000 : (⟨S_, .f32⟩ : BufTy).Contents (Elt F) → (⟨S50000, .f32⟩ : BufTy).Contents (Elt F)),
    unary main_v152 main_v165 (broadcastInDim S800000x1 ![0] bcast_S800000_S800000x1_0 : (⟨S800000, .i32⟩ : BufTy).Contents (Elt F) → (⟨S800000x1, .i32⟩ : BufTy).Contents (Elt F)),
    ternary main_v164 main_v165 main_v163 main_v166 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_29 (constant S_ .f32 0x3F800000#32),
    unary main_cst_29 main_v167 (broadcastInDim S50000 ![] bcast_S_S50000 : (⟨S_, .f32⟩ : BufTy).Contents (Elt F) → (⟨S50000, .f32⟩ : BufTy).Contents (Elt F)),
    binary main_v166 main_v167 main_v168 (maximumf : (⟨S50000, .f32⟩ : BufTy).Contents (Elt F) → (⟨S50000, .f32⟩ : BufTy).Contents (Elt F) → (⟨S50000, .f32⟩ : BufTy).Contents (Elt F)),
    unary main_v168 main_v169 (broadcastInDim S50000x1 ![0] bcast_S50000_S50000x1_0 : (⟨S50000, .f32⟩ : BufTy).Contents (Elt F) → (⟨S50000x1, .f32⟩ : BufTy).Contents (Elt F)),
    unary main_v169 main_v170 (broadcastInDim S50000x128 ![0, 1] bcast_S50000x1_S50000x128_0_1 : (⟨S50000x1, .f32⟩ : BufTy).Contents (Elt F) → (⟨S50000x128, .f32⟩ : BufTy).Contents (Elt F)),
    binary main_v162 main_v170 main_v171 (Host.divf : (⟨S50000x128, .f32⟩ : BufTy).Contents (Elt F) → (⟨S50000x128, .f32⟩ : BufTy).Contents (Elt F) → (⟨S50000x128, .f32⟩ : BufTy).Contents (Elt F)),
    binary main_v171 main_v144 main_v172 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_v146 main_v173 (broadcastInDim S1x128 ![1] bcast_S128_S1x128_1 : (⟨S128, .f32⟩ : BufTy).Contents (Elt F) → (⟨S1x128, .f32⟩ : BufTy).Contents (Elt F)),
    unary main_v173 main_v174 (broadcastInDim S50000x128 ![0, 1] bcast_S1x128_S50000x128_0_1 : (⟨S1x128, .f32⟩ : BufTy).Contents (Elt F) → (⟨S50000x128, .f32⟩ : BufTy).Contents (Elt F)),
    binary main_v172 main_v174 main_v175 (addf : (⟨S50000x128, .f32⟩ : BufTy).Contents (Elt F) → (⟨S50000x128, .f32⟩ : BufTy).Contents (Elt F) → (⟨S50000x128, .f32⟩ : BufTy).Contents (Elt F)),
    binary main_v107 main_v148 main_v176 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v175 main_v176 main_v177 (addf : (⟨S50000x128, .f32⟩ : BufTy).Contents (Elt F) → (⟨S50000x128, .f32⟩ : BufTy).Contents (Elt F) → (⟨S50000x128, .f32⟩ : BufTy).Contents (Elt F)),
    binary main_v142 main_v177 main_v178 (addf : (⟨S50000x128, .f32⟩ : BufTy).Contents (Elt F) → (⟨S50000x128, .f32⟩ : BufTy).Contents (Elt F) → (⟨S50000x128, .f32⟩ : BufTy).Contents (Elt F)),
    unary main_arg5 main_v179 ((extractStridedSlice S1x1x128x128 ![1, 1, 0, 0] · slices_S2x3x128x128_S1x1x128x128_1_1_0_0) : (⟨S2x3x128x128, .f32⟩ : BufTy).Contents (Elt F) → (⟨S1x1x128x128, .f32⟩ : BufTy).Contents (Elt F)),
    reshape main_v179 main_v180 rfl shapeCasts_S1x1x128x128_S128x128,
    unary main_arg6 main_v181 ((extractStridedSlice S1x1x128 ![1, 1, 0] · slices_S2x3x128_S1x1x128_1_1_0) : (⟨S2x3x128, .f32⟩ : BufTy).Contents (Elt F) → (⟨S1x1x128, .f32⟩ : BufTy).Contents (Elt F)),
    reshape main_v181 main_v182 rfl shapeCasts_S1x1x128_S128,
    unary main_arg7 main_v183 ((extractStridedSlice S1x1x128x128 ![1, 1, 0, 0] · slices_S2x3x128x128_S1x1x128x128_1_1_0_0) : (⟨S2x3x128x128, .f32⟩ : BufTy).Contents (Elt F) → (⟨S1x1x128x128, .f32⟩ : BufTy).Contents (Elt F)),
    reshape main_v183 main_v184 rfl shapeCasts_S1x1x128x128_S128x128,
    unary main_arg3 main_v185 ((extractStridedSlice S1x800000 ![0, 0] · slices_S2x800000_S1x800000_0_0) : (⟨S2x800000, .i32⟩ : BufTy).Contents (Elt F) → (⟨S1x800000, .i32⟩ : BufTy).Contents (Elt F)),
    reshape main_v185 main_v186 rfl shapeCasts_S1x800000_S800000,
    unary main_arg3 main_v187 ((extractStridedSlice S1x800000 ![1, 0] · slices_S2x800000_S1x800000_1_0) : (⟨S2x800000, .i32⟩ : BufTy).Contents (Elt F) → (⟨S1x800000, .i32⟩ : BufTy).Contents (Elt F)),
    reshape main_v187 main_v188 rfl shapeCasts_S1x800000_S800000,
    nullary main_c_30 (constantI S_ 32 0#32),
    unary main_c_30 main_v189 (broadcastInDim S800000 ![] bcast_S_S800000 : (⟨S_, .i32⟩ : BufTy).Contents (Elt F) → (⟨S800000, .i32⟩ : BufTy).Contents (Elt F)),
    binary main_v186 main_v189 main_v190 (cmpi .slt : (⟨S800000, .i32⟩ : BufTy).Contents (Elt F) → (⟨S800000, .i32⟩ : BufTy).Contents (Elt F) → (⟨S800000, .i1⟩ : BufTy).Contents (Elt F)),
    nullary main_c_31 (constantI S_ 32 50000#32),
    unary main_c_31 main_v191 (broadcastInDim S800000 ![] bcast_S_S800000 : (⟨S_, .i32⟩ : BufTy).Contents (Elt F) → (⟨S800000, .i32⟩ : BufTy).Contents (Elt F)),
    binary main_v186 main_v191 main_v192 (addi : (⟨S800000, .i32⟩ : BufTy).Contents (Elt F) → (⟨S800000, .i32⟩ : BufTy).Contents (Elt F) → (⟨S800000, .i32⟩ : BufTy).Contents (Elt F)),
    ternary main_v190 main_v192 main_v186 main_v193 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v193 main_v194 (broadcastInDim S800000x1 ![0] bcast_S800000_S800000x1_0 : (⟨S800000, .i32⟩ : BufTy).Contents (Elt F) → (⟨S800000x1, .i32⟩ : BufTy).Contents (Elt F)),
    binary main_v107 main_v194 main_v195 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_cst_32 (constant S_ .f32 0x00000000#32),
    unary main_cst_32 main_v196 (broadcastInDim S50000x128 ![] bcast_S_S50000x128 : (⟨S_, .f32⟩ : BufTy).Contents (Elt F) → (⟨S50000x128, .f32⟩ : BufTy).Contents (Elt F)),
    unary main_v188 main_v197 (broadcastInDim S800000x1 ![0] bcast_S800000_S800000x1_0 : (⟨S800000, .i32⟩ : BufTy).Contents (Elt F) → (⟨S800000x1, .i32⟩ : BufTy).Contents (Elt F)),
    ternary main_v196 main_v197 main_v195 main_v198 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    nullary main_cst_33 (constant S_ .f32 0x3F800000#32),
    unary main_cst_33 main_v199 (broadcastInDim S800000 ![] bcast_S_S800000 : (⟨S_, .f32⟩ : BufTy).Contents (Elt F) → (⟨S800000, .f32⟩ : BufTy).Contents (Elt F)),
    nullary main_cst_34 (constant S_ .f32 0x00000000#32),
    unary main_cst_34 main_v200 (broadcastInDim S50000 ![] bcast_S_S50000 : (⟨S_, .f32⟩ : BufTy).Contents (Elt F) → (⟨S50000, .f32⟩ : BufTy).Contents (Elt F)),
    unary main_v188 main_v201 (broadcastInDim S800000x1 ![0] bcast_S800000_S800000x1_0 : (⟨S800000, .i32⟩ : BufTy).Contents (Elt F) → (⟨S800000x1, .i32⟩ : BufTy).Contents (Elt F)),
    ternary main_v200 main_v201 main_v199 main_v202 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)) ]

/-- @main's statements 241 to 260: the last of the second layer's author rows, the two rectifiers written out, and the output head. -/
abbrev opsB3 : List (HloOp τ sig (Elt F)) :=
  [ nullary main_cst_35 (constant S_ .f32 0x3F800000#32),
    unary main_cst_35 main_v203 (broadcastInDim S50000 ![] bcast_S_S50000 : (⟨S_, .f32⟩ : BufTy).Contents (Elt F) → (⟨S50000, .f32⟩ : BufTy).Contents (Elt F)),
    binary main_v202 main_v203 main_v204 (maximumf : (⟨S50000, .f32⟩ : BufTy).Contents (Elt F) → (⟨S50000, .f32⟩ : BufTy).Contents (Elt F) → (⟨S50000, .f32⟩ : BufTy).Contents (Elt F)),
    unary main_v204 main_v205 (broadcastInDim S50000x1 ![0] bcast_S50000_S50000x1_0 : (⟨S50000, .f32⟩ : BufTy).Contents (Elt F) → (⟨S50000x1, .f32⟩ : BufTy).Contents (Elt F)),
    unary main_v205 main_v206 (broadcastInDim S50000x128 ![0, 1] bcast_S50000x1_S50000x128_0_1 : (⟨S50000x1, .f32⟩ : BufTy).Contents (Elt F) → (⟨S50000x128, .f32⟩ : BufTy).Contents (Elt F)),
    binary main_v198 main_v206 main_v207 (Host.divf : (⟨S50000x128, .f32⟩ : BufTy).Contents (Elt F) → (⟨S50000x128, .f32⟩ : BufTy).Contents (Elt F) → (⟨S50000x128, .f32⟩ : BufTy).Contents (Elt F)),
    binary main_v207 main_v180 main_v208 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_v182 main_v209 (broadcastInDim S1x128 ![1] bcast_S128_S1x128_1 : (⟨S128, .f32⟩ : BufTy).Contents (Elt F) → (⟨S1x128, .f32⟩ : BufTy).Contents (Elt F)),
    unary main_v209 main_v210 (broadcastInDim S50000x128 ![0, 1] bcast_S1x128_S50000x128_0_1 : (⟨S1x128, .f32⟩ : BufTy).Contents (Elt F) → (⟨S50000x128, .f32⟩ : BufTy).Contents (Elt F)),
    binary main_v208 main_v210 main_v211 (addf : (⟨S50000x128, .f32⟩ : BufTy).Contents (Elt F) → (⟨S50000x128, .f32⟩ : BufTy).Contents (Elt F) → (⟨S50000x128, .f32⟩ : BufTy).Contents (Elt F)),
    binary main_v106 main_v184 main_v212 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v211 main_v212 main_v213 (addf : (⟨S50000x128, .f32⟩ : BufTy).Contents (Elt F) → (⟨S50000x128, .f32⟩ : BufTy).Contents (Elt F) → (⟨S50000x128, .f32⟩ : BufTy).Contents (Elt F)),
    nullary main_cst_36 (constant S_ .f32 0x3C23D70A#32),
    TRef.nullary main_call2.cst (constant S_ .f32 0x00000000#32),
    TRef.unary main_call2.cst main_call2.v0 (broadcastInDim S50000x128 ![] bcast_S_S50000x128),
    TRef.binary (.of main_v213) main_call2.v0 main_call2.v1 (cmpf .oge),
    TRef.unary (.of main_cst_36) main_call2.v2 id,
    TRef.unary main_call2.v2 main_call2.v3 (broadcastInDim S50000x128 ![] bcast_S_S50000x128),
    TRef.binary main_call2.v3 (.of main_v213) main_call2.v4 mulf,
    TRef.ternary main_call2.v1 (.of main_v213) main_call2.v4 main_call2.call0.v0 select,
    nullary main_cst_37 (constant S_ .f32 0x3C23D70A#32),
    TRef.nullary main_call3.cst (constant S_ .f32 0x00000000#32),
    TRef.unary main_call3.cst main_call3.v0 (broadcastInDim S50000x128 ![] bcast_S_S50000x128),
    TRef.binary (.of main_v178) main_call3.v0 main_call3.v1 (cmpf .oge),
    TRef.unary (.of main_cst_37) main_call3.v2 id,
    TRef.unary main_call3.v2 main_call3.v3 (broadcastInDim S50000x128 ![] bcast_S_S50000x128),
    TRef.binary main_call3.v3 (.of main_v178) main_call3.v4 mulf,
    TRef.ternary main_call3.v1 (.of main_v178) main_call3.v4 main_call3.call0.v0 select,
    binary main_v214 main_arg8 main_v216 ((fun l r => Host.dotGeneral dot_S50000x128_S128x32_S50000x32_1_0_0_1_n_n none l r) : (⟨S50000x128, .f32⟩ : BufTy).Contents (Elt F) → (⟨S128x32, .f32⟩ : BufTy).Contents (Elt F) → (⟨S50000x32, .f32⟩ : BufTy).Contents (Elt F)),
    unary main_arg9 main_v217 (broadcastInDim S1x32 ![1] bcast_S32_S1x32_1 : (⟨S32, .f32⟩ : BufTy).Contents (Elt F) → (⟨S1x32, .f32⟩ : BufTy).Contents (Elt F)),
    unary main_v217 main_v218 (broadcastInDim S50000x32 ![0, 1] bcast_S1x32_S50000x32_0_1 : (⟨S1x32, .f32⟩ : BufTy).Contents (Elt F) → (⟨S50000x32, .f32⟩ : BufTy).Contents (Elt F)),
    binary main_v216 main_v218 main_v219 (addf : (⟨S50000x32, .f32⟩ : BufTy).Contents (Elt F) → (⟨S50000x32, .f32⟩ : BufTy).Contents (Elt F) → (⟨S50000x32, .f32⟩ : BufTy).Contents (Elt F)) ]

/-- The first layer: everything up to the rectified author rows (`main_v106`) and paper rows (`main_v107`). -/
abbrev opsA : List (HloOp τ sig (Elt F)) := opsA1 ++ opsA2 ++ opsA3

/-- The second layer and the output head, through the result `main_v219`. -/
abbrev opsB : List (HloOp τ sig (Elt F)) := opsB1 ++ opsB2 ++ opsB3

/-! ## @main is that line -/

theorem part0_eq (c : Dev nD) : main_part0 (F := F) c = seq opsA1 := rfl
theorem part1_eq (c : Dev nD) : main_part1 (F := F) c = seq opsA2 := rfl
/-- The third window holds the end of the first layer and the start of the second; the two calls in it unfold to their
    bodies' operations. -/
theorem part2_eq (c : Dev nD) : main_part2 (F := F) c = seq opsA3 >>= fun _ => seq opsB1 := by
  simp only [main_part2, fn_leaky_relu.body, fn_where.body, seq, bind_assoc, pure_bind]
  rfl
theorem part3_eq (c : Dev nD) : main_part3 (F := F) c = seq opsB2 := rfl
theorem part4_eq (c : Dev nD) : main_part4 (F := F) c = seq opsB3 := by
  simp only [main_part4, fn_leaky_relu.body, fn_where.body, seq, bind_assoc, pure_bind]

/-- Lines run one after the other are their concatenation run as one, so the five windows in order are the whole line. -/
theorem main_eq (c : Dev nD) : main (F := F) c = seq (opsA ++ opsB) := by
  simp only [opsA, opsB, List.append_assoc, seq_append]
  simp only [main, part0_eq, part1_eq, part2_eq, part3_eq, part4_eq, bind_assoc]

/-! ## Its run -/

theorem scopedRefs_eq : (Finset.univ.filter fun b : Ref sig .tc => b.isScoped) = ∅ := by decide
theorem scopedSems_eq : (Finset.univ.filter fun sm : SemLoc sig => sm.isScoped .tc) = ∅ := by decide

theorem sub_opsA1 : (opsA1 : List (HloOp τ sig (Elt F))).Forall fun op => op.bufs ⊆ tcRefs τ sig :=
  ⟨unary_bufs_sub .., reshape_bufs_sub .., unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., unary_bufs_sub .., unary_bufs_sub .., binary_bufs_sub .., binary_bufs_sub .., binary_bufs_sub .., unary_bufs_sub .., reshape_bufs_sub .., unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub ..⟩
theorem fresh_opsA1 : (opsA1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem sub_opsA2 : (opsA2 : List (HloOp τ sig (Elt F))).Forall fun op => op.bufs ⊆ tcRefs τ sig :=
  ⟨nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., unary_bufs_sub .., unary_bufs_sub .., binary_bufs_sub .., binary_bufs_sub .., binary_bufs_sub .., binary_bufs_sub .., unary_bufs_sub .., reshape_bufs_sub .., unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., unary_bufs_sub ..⟩
theorem fresh_opsA2 : (opsA2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem sub_opsA3 : (opsA3 : List (HloOp τ sig (Elt F))).Forall fun op => op.bufs ⊆ tcRefs τ sig :=
  ⟨unary_bufs_sub .., binary_bufs_sub .., binary_bufs_sub .., binary_bufs_sub .., nullary_bufs_sub .., nullary_bufs_sub .., unary_bufs_sub .., binary_bufs_sub .., unary_bufs_sub .., unary_bufs_sub .., binary_bufs_sub .., ternary_bufs_sub .., nullary_bufs_sub .., nullary_bufs_sub .., unary_bufs_sub .., binary_bufs_sub .., unary_bufs_sub .., unary_bufs_sub .., binary_bufs_sub .., ternary_bufs_sub ..⟩
theorem fresh_opsA3 : (opsA3 : List (HloOp τ sig (Elt F))).Forall fun op => op.fresh = ∅ :=
  ⟨rfl, rfl, rfl, rfl, rfl, rfl, rfl, rfl, rfl, rfl, rfl, rfl, rfl, rfl, rfl, rfl, rfl, rfl, rfl, rfl⟩

theorem sub_opsB1 : (opsB1 : List (HloOp τ sig (Elt F))).Forall fun op => op.bufs ⊆ tcRefs τ sig :=
  ⟨unary_bufs_sub .., reshape_bufs_sub .., unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., unary_bufs_sub .., unary_bufs_sub .., binary_bufs_sub .., binary_bufs_sub .., binary_bufs_sub .., unary_bufs_sub .., reshape_bufs_sub .., unary_bufs_sub .., reshape_bufs_sub .., unary_bufs_sub .., reshape_bufs_sub .., unary_bufs_sub .., reshape_bufs_sub .., unary_bufs_sub .., reshape_bufs_sub .., nullary_bufs_sub ..⟩
theorem fresh_opsB1 : (opsB1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem sub_opsB2 : (opsB2 : List (HloOp τ sig (Elt F))).Forall fun op => op.bufs ⊆ tcRefs τ sig :=
  ⟨unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., unary_bufs_sub .., unary_bufs_sub .., binary_bufs_sub .., binary_bufs_sub .., binary_bufs_sub .., binary_bufs_sub .., unary_bufs_sub .., reshape_bufs_sub .., unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub ..⟩
theorem fresh_opsB2 : (opsB2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem sub_opsB3 : (opsB3 : List (HloOp τ sig (Elt F))).Forall fun op => op.bufs ⊆ tcRefs τ sig :=
  ⟨nullary_bufs_sub .., unary_bufs_sub .., binary_bufs_sub .., unary_bufs_sub .., unary_bufs_sub .., binary_bufs_sub .., binary_bufs_sub .., unary_bufs_sub .., unary_bufs_sub .., binary_bufs_sub .., binary_bufs_sub .., binary_bufs_sub .., nullary_bufs_sub .., nullary_bufs_sub .., unary_bufs_sub .., binary_bufs_sub .., unary_bufs_sub .., unary_bufs_sub .., binary_bufs_sub .., ternary_bufs_sub .., nullary_bufs_sub .., nullary_bufs_sub .., unary_bufs_sub .., binary_bufs_sub .., unary_bufs_sub .., unary_bufs_sub .., binary_bufs_sub .., ternary_bufs_sub .., binary_bufs_sub .., unary_bufs_sub .., unary_bufs_sub .., binary_bufs_sub ..⟩
theorem fresh_opsB3 : (opsB3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- Every operation of the line touches TensorCore buffers only. -/
theorem ops_sub : (opsA ++ opsB : List (HloOp τ sig (Elt F))).Forall fun op => op.bufs ⊆ tcRefs τ sig :=
  List.forall_append.mpr ⟨List.forall_append.mpr ⟨List.forall_append.mpr ⟨sub_opsA1, sub_opsA2⟩, sub_opsA3⟩,
    List.forall_append.mpr ⟨List.forall_append.mpr ⟨sub_opsB1, sub_opsB2⟩, sub_opsB3⟩⟩

/-- Every operation of the line determines what it writes. -/
theorem ops_fresh : (opsA ++ opsB : List (HloOp τ sig (Elt F))).Forall fun op => op.fresh = ∅ :=
  List.forall_append.mpr ⟨List.forall_append.mpr ⟨List.forall_append.mpr ⟨fresh_opsA1, fresh_opsA2⟩, fresh_opsA3⟩,
    List.forall_append.mpr ⟨List.forall_append.mpr ⟨fresh_opsB1, fresh_opsB2⟩, fresh_opsB3⟩⟩

/-- On every device, for any float values, from any memory with zero counters: every weakly fair execution of @main
    terminates, and every final state has each TensorCore buffer at the fold of the operations' results over the
    launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after (opsA ++ opsB) (launchContents m c) (b : DevRef τ sig) :=
  run_seq scopedRefs_eq scopedSems_eq defs main (fun _ => opsA ++ opsB) main_eq (fun _ => ops_sub) m ρ
    (fun _ => List.forall_iff_forall_mem.mp ops_fresh)

end Cert.ReferenceIdeal.Hand

end
-- ==== Proof.RefRead.lean ====
/-
  The fold of the reference's line, read at the three values the comparison needs.

  The first half of the line ends with the first layer's two rectified arrays. The paper rows are the rectifier of the
  sum of two relations' arrays: authors writing papers (neighbour sums of the author features along the first edge
  list) and papers citing papers (neighbour sums of the paper features along the third), both with the paper features
  as own features. The author rows are the rectifier of one relation's array: papers written by authors (neighbour
  sums of the paper features along the second edge list), own features the author features. Of the second half only the
  author rows reach the result: the same relation over the first layer's arrays, rectified, then the output head.

  Each read walks the fold back from the buffer read: an operation's result at its own buffer is its function of its
  operands' contents, at any other buffer what was there before. What is left is the composition of the operations'
  functions, which is the chain's definition written out, so the two agree by unfolding. No operation writes an
  argument, so each argument keeps its launch contents through both halves.
-/
import proofs.«159525_j9775345565891_2_alg».proof.Proof.RefOps
import proofs.«159525_j9775345565891_2_alg».proof.Proof.RefChains

noncomputable section

namespace Cert.ReferenceIdeal.Hand

open Cert.ReferenceIdeal Cert.ReferenceIdeal.Gen Idealize.ShloMosaic Idealize.ShloMosaic.TcCoe Idealize.SL.Sem Idealize.ShloMosaic.StableHlo
open Cert.ReferenceIdeal.Chain

variable {F : FTy → Type} [FloatOps F]

/-- The contents after two lines run in order: the second line's fold over the first's. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-- Walks a fold of the line back from the buffer read: the halves into their pieces, each piece operation by
    operation, an operation's result at its own buffer to its function's value and at another buffer to what was
    there (the buffers' inequality by computation). -/
macro "read_fold" : tactic =>
  `(tactic| simp (disch := decide) only [opsA, opsB, opsA1, opsA2, opsA3, opsB1, opsB2, opsB3, after_app, after_cons, after_nil,
      nullary_result', unary_result', binary_result', ternary_result', reshape_result',
      nullary_result_ne', unary_result_ne', binary_result_ne', ternary_result_ne', reshape_result_ne'])

/-! ## The first layer -/

set_option maxHeartbeats 8000000 in
attribute [local irreducible] Host.gather Host.scatterAdd in
/-- The first layer's paper rows. -/
theorem paper1_eq (V : Valuation τ sig (Elt F)) :
    after opsA V (main_v107 : DevRef τ sig) = leakyArr (addf
      (sageArr (aggr (V (main_arg0 : DevRef τ sig)) (V (main_arg2 : DevRef τ sig))) (V (main_arg1 : DevRef τ sig)) (degree (V (main_arg2 : DevRef τ sig)))
        (wmat ![0, 0, 0, 0] slices_S2x3x128x128_S1x1x128x128_0_0_0_0 (V (main_arg5 : DevRef τ sig)))
        (wmat ![0, 0, 0, 0] slices_S2x3x128x128_S1x1x128x128_0_0_0_0 (V (main_arg7 : DevRef τ sig)))
        (bvec ![0, 0, 0] slices_S2x3x128_S1x1x128_0_0_0 (V (main_arg6 : DevRef τ sig))))
      (sageArr (aggr (V (main_arg1 : DevRef τ sig)) (V (main_arg4 : DevRef τ sig))) (V (main_arg1 : DevRef τ sig)) (degree (V (main_arg4 : DevRef τ sig)))
        (wmat ![0, 2, 0, 0] slices_S2x3x128x128_S1x1x128x128_0_2_0_0 (V (main_arg5 : DevRef τ sig)))
        (wmat ![0, 2, 0, 0] slices_S2x3x128x128_S1x1x128x128_0_2_0_0 (V (main_arg7 : DevRef τ sig)))
        (bvec ![0, 2, 0] slices_S2x3x128_S1x1x128_0_2_0 (V (main_arg6 : DevRef τ sig))))) := by
  read_fold
  rfl

set_option maxHeartbeats 8000000 in
attribute [local irreducible] Host.gather Host.scatterAdd in
/-- The first layer's author rows. -/
theorem author1_eq (V : Valuation τ sig (Elt F)) :
    after opsA V (main_v106 : DevRef τ sig) = leakyArr
      (sageArr (aggr (V (main_arg1 : DevRef τ sig)) (V (main_arg3 : DevRef τ sig))) (V (main_arg0 : DevRef τ sig)) (degree (V (main_arg3 : DevRef τ sig)))
        (wmat ![0, 1, 0, 0] slices_S2x3x128x128_S1x1x128x128_0_1_0_0 (V (main_arg5 : DevRef τ sig)))
        (wmat ![0, 1, 0, 0] slices_S2x3x128x128_S1x1x128x128_0_1_0_0 (V (main_arg7 : DevRef τ sig)))
        (bvec ![0, 1, 0] slices_S2x3x128_S1x1x128_0_1_0 (V (main_arg6 : DevRef τ sig)))) := by
  read_fold
  rfl

/-! ## The second layer and the head -/

set_option maxHeartbeats 8000000 in
attribute [local irreducible] Host.gather Host.scatterAdd in
/-- The result: the head on the second layer's rectified author rows, over the first layer's two arrays. -/
theorem out_eq (V : Valuation τ sig (Elt F)) :
    after opsB V (main_v219 : DevRef τ sig) = headArr (leakyArr
      (sageArr (aggr (V (main_v107 : DevRef τ sig)) (V (main_arg3 : DevRef τ sig))) (V (main_v106 : DevRef τ sig)) (degree (V (main_arg3 : DevRef τ sig)))
        (wmat ![1, 1, 0, 0] slices_S2x3x128x128_S1x1x128x128_1_1_0_0 (V (main_arg5 : DevRef τ sig)))
        (wmat ![1, 1, 0, 0] slices_S2x3x128x128_S1x1x128x128_1_1_0_0 (V (main_arg7 : DevRef τ sig)))
        (bvec ![1, 1, 0] slices_S2x3x128_S1x1x128_1_1_0 (V (main_arg6 : DevRef τ sig)))))
      (V (main_arg8 : DevRef τ sig)) (V (main_arg9 : DevRef τ sig)) := by
  read_fold
  rfl

/-! ## The arguments are not written -/

theorem keepA_0 (V : Valuation τ sig (Elt F)) : after opsA V (main_arg0 : DevRef τ sig) = V (main_arg0 : DevRef τ sig) := by
  read_fold
theorem keepA_1 (V : Valuation τ sig (Elt F)) : after opsA V (main_arg1 : DevRef τ sig) = V (main_arg1 : DevRef τ sig) := by
  read_fold
theorem keepA_2 (V : Valuation τ sig (Elt F)) : after opsA V (main_arg2 : DevRef τ sig) = V (main_arg2 : DevRef τ sig) := by
  read_fold
theorem keepA_3 (V : Valuation τ sig (Elt F)) : after opsA V (main_arg3 : DevRef τ sig) = V (main_arg3 : DevRef τ sig) := by
  read_fold
theorem keepA_4 (V : Valuation τ sig (Elt F)) : after opsA V (main_arg4 : DevRef τ sig) = V (main_arg4 : DevRef τ sig) := by
  read_fold
theorem keepA_5 (V : Valuation τ sig (Elt F)) : after opsA V (main_arg5 : DevRef τ sig) = V (main_arg5 : DevRef τ sig) := by
  read_fold
theorem keepA_6 (V : Valuation τ sig (Elt F)) : after opsA V (main_arg6 : DevRef τ sig) = V (main_arg6 : DevRef τ sig) := by
  read_fold
theorem keepA_7 (V : Valuation τ sig (Elt F)) : after opsA V (main_arg7 : DevRef τ sig) = V (main_arg7 : DevRef τ sig) := by
  read_fold
theorem keepA_8 (V : Valuation τ sig (Elt F)) : after opsA V (main_arg8 : DevRef τ sig) = V (main_arg8 : DevRef τ sig) := by
  read_fold
theorem keepA_9 (V : Valuation τ sig (Elt F)) : after opsA V (main_arg9 : DevRef τ sig) = V (main_arg9 : DevRef τ sig) := by
  read_fold
theorem keepB_0 (V : Valuation τ sig (Elt F)) : after opsB V (main_arg0 : DevRef τ sig) = V (main_arg0 : DevRef τ sig) := by
  read_fold
theorem keepB_1 (V : Valuation τ sig (Elt F)) : after opsB V (main_arg1 : DevRef τ sig) = V (main_arg1 : DevRef τ sig) := by
  read_fold
theorem keepB_2 (V : Valuation τ sig (Elt F)) : after opsB V (main_arg2 : DevRef τ sig) = V (main_arg2 : DevRef τ sig) := by
  read_fold
theorem keepB_3 (V : Valuation τ sig (Elt F)) : after opsB V (main_arg3 : DevRef τ sig) = V (main_arg3 : DevRef τ sig) := by
  read_fold
theorem keepB_4 (V : Valuation τ sig (Elt F)) : after opsB V (main_arg4 : DevRef τ sig) = V (main_arg4 : DevRef τ sig) := by
  read_fold
theorem keepB_5 (V : Valuation τ sig (Elt F)) : after opsB V (main_arg5 : DevRef τ sig) = V (main_arg5 : DevRef τ sig) := by
  read_fold
theorem keepB_6 (V : Valuation τ sig (Elt F)) : after opsB V (main_arg6 : DevRef τ sig) = V (main_arg6 : DevRef τ sig) := by
  read_fold
theorem keepB_7 (V : Valuation τ sig (Elt F)) : after opsB V (main_arg7 : DevRef τ sig) = V (main_arg7 : DevRef τ sig) := by
  read_fold
theorem keepB_8 (V : Valuation τ sig (Elt F)) : after opsB V (main_arg8 : DevRef τ sig) = V (main_arg8 : DevRef τ sig) := by
  read_fold
theorem keepB_9 (V : Valuation τ sig (Elt F)) : after opsB V (main_arg9 : DevRef τ sig) = V (main_arg9 : DevRef τ sig) := by
  read_fold

end Cert.ReferenceIdeal.Hand

end
-- ==== Proof.lean ====
/-
  Two layers of a heterogeneous graph network (authors and papers, three kinds of edges) with an output head:
  the tiled accelerator program against the plain array program, at the exact instance.

  Both programs gather neighbour rows along an edge list and add them up per destination node (the neighbour sum),
  count each destination's edges and floor the count at one (the degree), and for each relation form
  (mean ⬝ Wl + bias) + x ⬝ Wr, add the relations that share a destination type, and apply a leaky rectifier; after the
  second layer a linear head is applied to the author rows. The array program takes the mean as neighbour sum divided
  by degree. The accelerator program computes the reciprocal of each degree once, and its three tiled regions (paper
  update, author update, last author update fused with the head) multiply the neighbour sum's rows by it, 2000 rows
  per grid point; it skips the last layer's paper update, which nothing reads.

  The degree is a nonzero real, so the product with its reciprocal is the quotient on every extended real; every other
  operation is the same on both sides, in the same order. Each region's blocks cover its output array, so the three
  result arrays are the array program's, and the two results agree entry by entry. Neither program writes an argument.
  No rewrite was applied when the accelerator program was read at the exact instance, so that conjunct is trivial.
-/
import proofs.«159525_j9775345565891_2_alg».proof.Defs
import proofs.«159525_j9775345565891_2_alg».proof.Proof.Gen.Kernel
import proofs.«159525_j9775345565891_2_alg».proof.Proof.Gen.Kernel.Frame
import proofs.«159525_j9775345565891_2_alg».proof.Proof.Gen.KernelIdeal
import proofs.«159525_j9775345565891_2_alg».proof.Proof.Gen.KernelIdeal.Frame
import proofs.«159525_j9775345565891_2_alg».proof.Proof.Gen.ReferenceIdeal
import proofs.«159525_j9775345565891_2_alg».proof.Proof.Gen.Pre_finite_inputs
import proofs.«159525_j9775345565891_2_alg».proof.Proof.KerRun
import proofs.«159525_j9775345565891_2_alg».proof.Proof.Bridge
import proofs.«159525_j9775345565891_2_alg».proof.Proof.RefRead
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.StableHlo

/-! ## The array program's run -/

section Reference

open Cert.ReferenceIdeal Cert.ReferenceIdeal.Hand

/-- A buffer that neither half of the operation list writes keeps its contents. -/
theorem ref_keep (V : Valuation τ sig (Elt Ideal)) (b : DevRef τ sig) (hA : after opsA V b = V b)
    (hB : after opsB (after opsA V) b = after opsA V b) : after (opsA ++ opsB) V b = V b := by
  rw [after_app, hB, hA]

/-- The result buffer after the whole list: the head over the second layer's author rows, built from the first layer's
    paper and author rows. -/
theorem ref_result (V : Valuation τ sig (Elt Ideal)) :
    after (opsA ++ opsB) V (main_v219 : DevRef τ sig) = Cert.Bridge.refOut
        (Cert.Bridge.refP1 (V (main_arg0 : DevRef τ sig)) (V (main_arg1 : DevRef τ sig)) (V (main_arg2 : DevRef τ sig)) (V (main_arg4 : DevRef τ sig)) (V (main_arg5 : DevRef τ sig)) (V (main_arg7 : DevRef τ sig)) (V (main_arg6 : DevRef τ sig)))
        (Cert.Bridge.refA1 (V (main_arg0 : DevRef τ sig)) (V (main_arg1 : DevRef τ sig)) (V (main_arg3 : DevRef τ sig)) (V (main_arg5 : DevRef τ sig)) (V (main_arg7 : DevRef τ sig)) (V (main_arg6 : DevRef τ sig)))
        (V (main_arg3 : DevRef τ sig)) (V (main_arg5 : DevRef τ sig)) (V (main_arg7 : DevRef τ sig)) (V (main_arg6 : DevRef τ sig)) (V (main_arg8 : DevRef τ sig)) (V (main_arg9 : DevRef τ sig)) := by
  rw [after_app, out_eq, paper1_eq, author1_eq, keepA_3, keepA_5, keepA_6, keepA_7, keepA_8, keepA_9]
  rfl

/-- Every weakly fair execution of the array program terminates with the result at that closed form of the launched
    arguments, and the arguments unchanged. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v219) = Cert.Bridge.refOut
        (Cert.Bridge.refP1 (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg7)) (m ((c.tc : Thread nD τ).loc main_arg6)))
        (Cert.Bridge.refA1 (m ((c.tc : Thread nD τ).loc main_arg0)) (m ((c.tc : Thread nD τ).loc main_arg1)) (m ((c.tc : Thread nD τ).loc main_arg3)) (m ((c.tc : Thread nD τ).loc main_arg5)) (m ((c.tc : Thread nD τ).loc main_arg7)) (m ((c.tc : Thread nD τ).loc main_arg6)))
        (m ((c.tc : Thread nD τ).loc main_arg3)) (m ((c.tc : Thread nD τ).loc main_arg5)) (m ((c.tc : Thread nD τ).loc main_arg7)) (m ((c.tc : Thread nD τ).loc main_arg6)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun r h c => ⟨(h c main_v219).trans (ref_result _),
      (h c main_arg0).trans (ref_keep _ _ (keepA_0 _) (keepB_0 _)),
      (h c main_arg1).trans (ref_keep _ _ (keepA_1 _) (keepB_1 _)),
      (h c main_arg2).trans (ref_keep _ _ (keepA_2 _) (keepB_2 _)),
      (h c main_arg3).trans (ref_keep _ _ (keepA_3 _) (keepB_3 _)),
      (h c main_arg4).trans (ref_keep _ _ (keepA_4 _) (keepB_4 _)),
      (h c main_arg5).trans (ref_keep _ _ (keepA_5 _) (keepB_5 _)),
      (h c main_arg6).trans (ref_keep _ _ (keepA_6 _) (keepB_6 _)),
      (h c main_arg7).trans (ref_keep _ _ (keepA_7 _) (keepB_7 _)),
      (h c main_arg8).trans (ref_keep _ _ (keepA_8 _) (keepB_8 _)),
      (h c main_arg9).trans (ref_keep _ _ (keepA_9 _) (keepB_9 _))⟩)
    (run_main (F := Ideal) m ρ)

end Reference

/-! ## The claims -/

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (ref_run m ρ)

theorem preserves : Cert.preserves_Kernel_KernelIdeal := trivial

/-- From memories agreeing on the arguments both programs end with the same result array: the accelerator program's
    last region leaves the array program's closed form of its own arguments, and the arguments agree. -/
theorem algebraic : Cert.algebraic_KernelIdeal_ReferenceIdeal := by
  intro m ρ m' ρ' _ hagree
  refine ⟨fun c => Cert.Bridge.refOut
        (Cert.Bridge.refP1 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg7)) (m ((c.tc : Thread Cert.KernelIdeal.nD Cert.KernelIdeal.τ).loc Cert.KernelIdeal.main_arg6)))
        (Cert.Bridge.refA1 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg5)) (m ((c.tc : Thread Cert.KernelIdeal.nD Cert.KernelIdeal.τ).loc Cert.KernelIdeal.main_arg7)) (m ((c.tc : Thread Cert.KernelIdeal.nD Cert.KernelIdeal.τ).loc Cert.KernelIdeal.main_arg6)))
        (m ((c.tc : Thread Cert.KernelIdeal.nD Cert.KernelIdeal.τ).loc Cert.KernelIdeal.main_arg3)) (m ((c.tc : Thread Cert.KernelIdeal.nD Cert.KernelIdeal.τ).loc Cert.KernelIdeal.main_arg5)) (m ((c.tc : Thread Cert.KernelIdeal.nD Cert.KernelIdeal.τ).loc Cert.KernelIdeal.main_arg7)) (m ((c.tc : Thread Cert.KernelIdeal.nD Cert.KernelIdeal.τ).loc Cert.KernelIdeal.main_arg6)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono
      (fun r h c => ⟨(h c).1.trans (Cert.Bridge.out_eq m ρ c), (h c).2⟩) (Cert.KernelIdeal.Val.run_value m ρ)
  · refine (θ_run Cert.ReferenceIdeal.defs _ _).mono (fun r h c => ⟨(h c).1.trans ?_, (h c).2⟩) (ref_run m' ρ')
    obtain ⟨h0, h1, h2, h3, h4, h5, h6, h7, h8, h9⟩ := hagree c
    rw [h0, h1, h2, h3, h4, h5, h6, h7, h8, h9]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
